-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_v34) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096x128 : Shape := ⟨3, ![1, 4096, 128]⟩
abbrev S1x4096x4096 : Shape := ⟨3, ![1, 4096, 4096]⟩
abbrev S_ : Shape := ⟨0, ![]⟩
abbrev S128x128 : Shape := ⟨2, ![128, 128]⟩
abbrev S128x40 : Shape := ⟨2, ![128, 40]⟩
abbrev S40 : Shape := ⟨1, ![40]⟩

class Facts : Prop where
  bcast_S_S1x4096x128 : S_.BroadcastsInDim S1x4096x128 (![] : Fin 0 → Fin S1x4096x128.rank)
  reducesTo_S1x4096x128_S_d0_1_2 : S1x4096x128.ReducesTo [0, 1, 2] S_
  h_S_ : 0 < S_.numel
  bcast_S_S1x4096x4096 : S_.BroadcastsInDim S1x4096x4096 (![] : Fin 0 → Fin S1x4096x4096.rank)
  reducesTo_S1x4096x4096_S_d0_1_2 : S1x4096x4096.ReducesTo [0, 1, 2] S_
  reducesTo_S_S_d : S_.ReducesTo [] S_
  bcast_S_S128x128 : S_.BroadcastsInDim S128x128 (![] : Fin 0 → Fin S128x128.rank)
  reducesTo_S128x128_S_d0_1 : S128x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S128x40 .f32) (main_arg9 : FVec F S40 .f32) (main_v32 : IVec S_ 1) (main_v33 : FVec F S128x40 .f32) : IVec S_ 1 :=
  let main_cst_12 : FVec F S_ .f32 := constant S_ .f32 0x7F800000#32
  let main_v34 : FVec F S128x40 .f32 := broadcastInDim S128x40 ![] bcast_S_S128x40 main_cst_12
  let main_v35 : IVec S128x40 1 := cmpf .olt main_v33 main_v34
  let main_c_13 : IVec S_ 1 := constantI S_ 1 1#1
  let main_v36 : IVec S_ 1 := (fun x v => Host.reduce IntOp.andi x v reducesTo_S128x40_S_d0_1 h_S_) main_v35 main_c_13
  let main_v37 : IVec S_ 1 := andi main_v32 main_v36
  let main_v38 : FVec F S128x40 .f32 := Host.absf main_arg8
  let main_cst_14 : FVec F S_ .f32 := constant S_ .f32 0x7F800000#32
  let main_v39 : FVec F S128x40 .f32 := broadcastInDim S128x40 ![] bcast_S_S128x40 main_cst_14
  let main_v40 : IVec S128x40 1 := cmpf .olt main_v38 main_v39
  let main_c_15 : IVec S_ 1 := constantI S_ 1 1#1
  let main_v41 : IVec S_ 1 := (fun x v => Host.reduce IntOp.andi x v reducesTo_S128x40_S_d0_1 h_S_) main_v40 main_c_15
  let main_v42 : IVec S_ 1 := andi main_v37 main_v41
  let main_v43 : FVec F S40 .f32 := Host.absf main_arg9
  let main_cst_16 : FVec F S_ .f32 := constant S_ .f32 0x7F800000#32
  let main_v44 : FVec F S40 .f32 := broadcastInDim S40 ![] bcast_S_S40 main_cst_16
  let main_v45 : IVec S40 1 := cmpf .olt main_v43 main_v44
  let main_c_17 : IVec S_ 1 := constantI S_ 1 1#1
  let main_v46 : IVec S_ 1 := (fun x v => Host.reduce IntOp.andi x v reducesTo_S40_S_d0 h_S_) main_v45 main_c_17
  let main_v47 : IVec S_ 1 := andi main_v42 main_v46
  main_v47

def fn_part1 {F : FTy → Type} [FloatOps F] (main_arg4 : FVec F S128x128 .f32) (main_arg5 : FVec F S128x128 .f32) (main_arg6 : FVec F S128x128 .f32) (main_arg7 : FVec F S128x40 .f32) (main_arg8 : FVec F S128x40 .f32) (main_arg9 : FVec F S40 .f32) (main_v12 : IVec S_ 1) (main_v15 : IVec S128x128 1) (main_c_5 : IVec S_ 1) : IVec S_ 1 :=
  let main_v16 : IVec S_ 1 := (fun x v => Host.reduce IntOp.andi x v reducesTo_S128x128_S_d0_1 h_S_) main_v15 main_c_5
  let main_v17 : IVec S_ 1 := andi main_v12 main_v16
  let main_v18 : FVec F S128x128 .f32 := Host.absf main_arg4
  let main_cst_6 : FVec F S_ .f32 := constant S_ .f32 0x7F800000#32
  let main_v19 : FVec F S128x128 .f32 := broadcastInDim S128x128 ![] bcast_S_S128x128 main_cst_6
  let main_v20 : IVec S128x128 1 := cmpf .olt main_v18 main_v19
  let main_c_7 : IVec S_ 1 := constantI S_ 1 1#1
  let main_v21 : IVec S_ 1 := (fun x v => Host.reduce IntOp.andi x v reducesTo_S128x128_S_d0_1 h_S_) main_v20 main_c_7
  let main_v22 : IVec S_ 1 := andi main_v17 main_v21
  let main_v23 : FVec F S128x128 .f32 := Host.absf main_arg5
  let main_cst_8 : FVec F S_ .f32 := constant S_ .f32 0x7F800000#32
  let main_v24 : FVec F S128x128 .f32 := broadcastInDim S128x128 ![] bcast_S_S128x128 main_cst_8
  let main_v25 : IVec S128x128 1 := cmpf .olt main_v23 main_v24
  let main_c_9 : IVec S_ 1 := constantI S_ 1 1#1
  let main_v26 : IVec S_ 1 := (fun x v => Host.reduce IntOp.andi x v reducesTo_S128x128_S_d0_1 h_S_) main_v25 main_c_9
  let main_v27 : IVec S_ 1 := andi main_v22 main_v26
  let main_v28 : FVec F S128x128 .f32 := Host.absf main_arg6
  let main_cst_10 : FVec F S_ .f32 := constant S_ .f32 0x7F800000#32
  let main_v29 : FVec F S128x128 .f32 := broadcastInDim S128x128 ![] bcast_S_S128x128 main_cst_10
  let main_v30 : IVec S128x128 1 := cmpf .olt main_v28 main_v29
  let main_c_11 : IVec S_ 1 := constantI S_ 1 1#1
  let main_v31 : IVec S_ 1 := (fun x v => Host.reduce IntOp.andi x v reducesTo_S128x128_S_d0_1 h_S_) main_v30 main_c_11
  let main_v32 : IVec S_ 1 := andi main_v27 main_v31
  let main_v33 : FVec F S128x40 .f32 := Host.absf main_arg7
  fn_part2 (F := F) main_arg8 main_arg9 main_v32 main_v33

def fn {F : FTy → Type} [FloatOps F] (main_arg0 : FVec F S1x4096x128 .f32) (main_arg1 : FVec F S1x4096x4096 .f32) (main_arg2 : FVec F S_ .f32) (main_arg3 : FVec F S128x128 .f32) (main_arg4 : FVec F S128x128 .f32) (main_arg5 : FVec F S128x128 .f32) (main_arg6 : FVec F S128x128 .f32) (main_arg7 : FVec F S128x40 .f32) (main_arg8 : FVec F S128x40 .f32) (main_arg9 : FVec F S40 .f32) : IVec S_ 1 :=
  let main_v0 : FVec F S1x4096x128 .f32 := Host.absf main_arg0
  let main_cst : FVec F S_ .f32 := constant S_ .f32 0x7F800000#32
  let main_v1 : FVec F S1x4096x128 .f32 := broadcastInDim S1x4096x128 ![] bcast_S_S1x4096x128 main_cst
  let main_v2 : IVec S1x4096x128 1 := cmpf .olt main_v0 main_v1
  let main_c : IVec S_ 1 := constantI S_ 1 1#1
  let main_v3 : IVec S_ 1 := (fun x v => Host.reduce IntOp.andi x v reducesTo_S1x4096x128_S_d0_1_2 h_S_) main_v2 main_c
  let main_v4 : FVec F S1x4096x4096 .f32 := Host.absf main_arg1
  let main_cst_0 : FVec F S_ .f32 := constant S_ .f32 0x7F800000#32
  let main_v5 : FVec F S1x4096x4096 .f32 := broadcastInDim S1x4096x4096 ![] bcast_S_S1x4096x4096 main_cst_0
  let main_v6 : IVec S1x4096x4096 1 := cmpf .olt main_v4 main_v5
  let main_c_1 : IVec S_ 1 := constantI S_ 1 1#1
  let main_v7 : IVec S_ 1 := (fun x v => Host.reduce IntOp.andi x v reducesTo_S1x4096x4096_S_d0_1_2 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S128x128 .f32 := Host.absf main_arg3
  let main_cst_4 : FVec F S_ .f32 := constant S_ .f32 0x7F800000#32
  let main_v14 : FVec F S128x128 .f32 := broadcastInDim S128x128 ![] bcast_S_S128x128 main_cst_4
  let main_v15 : IVec S128x128 1 := cmpf .olt main_v13 main_v14
  let main_c_5 : IVec S_ 1 := constantI S_ 1 1#1
  fn_part1 (F := F) main_arg4 main_arg5 main_arg6 main_arg7 main_arg8 main_arg9 main_v12 main_v15 main_c_5
-- ==== Kernel.lean ====
abbrev S1x4096x128 : Shape := ⟨3, ![1, 4096, 128]⟩
abbrev S1x4096x4096 : Shape := ⟨3, ![1, 4096, 4096]⟩
abbrev S_ : Shape := ⟨0, ![]⟩
abbrev S128x128 : Shape := ⟨2, ![128, 128]⟩
abbrev S128x40 : Shape := ⟨2, ![128, 40]⟩
abbrev S40 : Shape := ⟨1, ![40]⟩
abbrev S4096x128 : Shape := ⟨2, ![4096, 128]⟩
abbrev S4096x4096 : Shape := ⟨2, ![4096, 4096]⟩
abbrev S1x1 : Shape := ⟨2, ![1, 1]⟩
abbrev S128x256 : Shape := ⟨2, ![128, 256]⟩
abbrev S256x256 : Shape := ⟨2, ![256, 256]⟩
abbrev S1 : Shape := ⟨1, ![1]⟩
abbrev S1x128 : Shape := ⟨2, ![1, 128]⟩
abbrev S2 : Shape := ⟨1, ![2]⟩
abbrev S4096x1 : Shape := ⟨2, ![4096, 1]⟩
abbrev S4096x256 : Shape := ⟨2, ![4096, 256]⟩
abbrev S4096x40 : Shape := ⟨2, ![4096, 40]⟩
abbrev S1x4096x40 : Shape := ⟨3, ![1, 4096, 40]⟩
abbrev S256x4096 : Shape := ⟨2, ![256, 4096]⟩
abbrev S256x128 : Shape := ⟨2, ![256, 128]⟩
abbrev S256x1 : Shape := ⟨2, ![256, 1]⟩
abbrev S256 : Shape := ⟨1, ![256]⟩

abbrev nBuf : Space → Nat
  | .hbm => 50
  | .vmem => 46
  | .smem => 0
  | _ => 0

abbrev bufTy : (tb : Table) → Fin (tcTables nBuf tb) → BufTy
  | .hbm, ⟨0, _⟩ => ⟨S1x4096x128, .f32⟩
  | .hbm, ⟨1, _⟩ => ⟨S1x4096x4096, .f32⟩
  | .hbm, ⟨2, _⟩ => ⟨S_, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x40, .f32⟩
  | .hbm, ⟨8, _⟩ => ⟨S128x40, .f32⟩
  | .hbm, ⟨9, _⟩ => ⟨S40, .f32⟩
  | .hbm, ⟨10, _⟩ => ⟨S4096x128, .f32⟩
  | .hbm, ⟨11, _⟩ => ⟨S4096x4096, .f32⟩
  | .hbm, ⟨12, _⟩ => ⟨S1x1, .f32⟩
  | .hbm, ⟨13, _⟩ => ⟨S128x256, .f32⟩
  | .hbm, ⟨14, _⟩ => ⟨S_, .f32⟩
  | .hbm, ⟨15, _⟩ => ⟨S128x128, .f32⟩
  | .hbm, ⟨16, _⟩ => ⟨S128x256, .f32⟩
  | .hbm, ⟨17, _⟩ => ⟨S128x256, .f32⟩
  | .hbm, ⟨18, _⟩ => ⟨S256x256, .f32⟩
  | .hbm, ⟨19, _⟩ => ⟨S_, .f32⟩
  | .hbm, ⟨20, _⟩ => ⟨S128x128, .f32⟩
  | .hbm, ⟨21, _⟩ => ⟨S_, .i32⟩
  | .hbm, ⟨22, _⟩ => ⟨S1, .i32⟩
  | .hbm, ⟨23, _⟩ => ⟨S128x128, .f32⟩
  | .hbm, ⟨24, _⟩ => ⟨S_, .f32⟩
  | .hbm, ⟨25, _⟩ => ⟨S128x128, .f32⟩
  | .hbm, ⟨26, _⟩ => ⟨S_, .i32⟩
  | .hbm, ⟨27, _⟩ => ⟨S1, .i32⟩
  | .hbm, ⟨28, _⟩ => ⟨S128x128, .f32⟩
  | .hbm, ⟨29, _⟩ => ⟨S_, .f32⟩
  | .hbm, ⟨30, _⟩ => ⟨S1x128, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S1x128, .f32⟩
  | .hbm, ⟨37, _⟩ => ⟨S4096x4096, .bf16⟩
  | .hbm, ⟨38, _⟩ => ⟨S4096x1, .f32⟩
  | .hbm, ⟨39, _⟩ => ⟨S4096x256, .bf16⟩
  | .hbm, ⟨40, _⟩ => ⟨S4096x256, .bf16⟩
  | .hbm, ⟨41, _⟩ => ⟨S4096x128, .f32⟩
  | .hbm, ⟨42, _⟩ => ⟨S4096x128, .f32⟩
  | .hbm, ⟨43, _⟩ => ⟨S4096x128, .f32⟩
  | .hbm, ⟨44, _⟩ => ⟨S4096x128, .bf16⟩
  | .hbm, ⟨45, _⟩ => ⟨S4096x128, .f32⟩
  | .hbm, ⟨46, _⟩ => ⟨S4096x40, .f32⟩
  | .hbm, ⟨47, _⟩ => ⟨S1x4096x40, .f32⟩
  | .hbm, ⟨48, _⟩ => ⟨S4096x40, .f32⟩
  | .hbm, ⟨49, _⟩ => ⟨S1x4096x40, .f32⟩
  | .local _ .vmem, ⟨0, _⟩ => ⟨S256x4096, .f32⟩
  | .local _ .vmem, ⟨1, _⟩ => ⟨S256x4096, .f32⟩
  | .local _ .vmem, ⟨2, _⟩ => ⟨S256x128, .f32⟩
  | .local _ .vmem, ⟨3, _⟩ => ⟨S256x128, .f32⟩
  | .local _ .vmem, ⟨4, _⟩ => ⟨S128x256, .f32⟩
  | .local _ .vmem, ⟨5, _⟩ => ⟨S1x1, .f32⟩
  | .local _ .vmem, ⟨6, _⟩ => ⟨S256x4096, .bf16⟩
  | .local _ .vmem, ⟨7, _⟩ => ⟨S256x4096, .bf16⟩
  | .local _ .vmem, ⟨8, _⟩ => ⟨S256x1, .f32⟩
  | .local _ .vmem, ⟨9, _⟩ => ⟨S256x1, .f32⟩
  | .local _ .vmem, ⟨10, _⟩ => ⟨S256x256, .bf16⟩
  | .local _ .vmem, ⟨11, _⟩ => ⟨S256x256, .bf16⟩
  | .local _ .vmem, ⟨12, _⟩ => ⟨S256x4096, .bf16⟩
  | .local _ .vmem, ⟨13, _⟩ => ⟨S256x4096, .bf16⟩
  | .local _ .vmem, ⟨14, _⟩ => ⟨S4096x256, .bf16⟩
  | .local _ .vmem, ⟨15, _⟩ => ⟨S256x1, .f32⟩
  | .local _ .vmem, ⟨16, _⟩ => ⟨S256x1, .f32⟩
  | .local _ .vmem, ⟨17, _⟩ => ⟨S1x1, .f32⟩
  | .local _ .vmem, ⟨18, _⟩ => ⟨S256x256, .f32⟩
  | .local _ .vmem, ⟨19, _⟩ => ⟨S256x256, .bf16⟩
  | .local _ .vmem, ⟨20, _⟩ => ⟨S256x256, .bf16⟩
  | .local _ .vmem, ⟨21, _⟩ => ⟨S256x4096, .bf16⟩
  | .local _ .vmem, ⟨22, _⟩ => ⟨S256x4096, .bf16⟩
  | .local _ .vmem, ⟨23, _⟩ => ⟨S4096x256, .bf16⟩
  | .local _ .vmem, ⟨24, _⟩ => ⟨S256x1, .f32⟩
  | .local _ .vmem, ⟨25, _⟩ => ⟨S256x1, .f32⟩
  | .local _ .vmem, ⟨26, _⟩ => ⟨S1x1, .f32⟩
  | .local _ .vmem, ⟨27, _⟩ => ⟨S128x128, .f32⟩
  | .local _ .vmem, ⟨28, _⟩ => ⟨S128x128, .f32⟩
  | .local _ .vmem, ⟨29, _⟩ => ⟨S1x128, .f32⟩
  | .local _ .vmem, ⟨30, _⟩ => ⟨S256x128, .f32⟩
  | .local _ .vmem, ⟨31, _⟩ => ⟨S256x128, .f32⟩
  | .local _ .vmem, ⟨32, _⟩ => ⟨S256x128, .f32⟩
  | .local _ .vmem, ⟨33, _⟩ => ⟨S256x128, .f32⟩
  | .local _ .vmem, ⟨34, _⟩ => ⟨S256x128, .f32⟩
  | .local _ .vmem, ⟨35, _⟩ => ⟨S256x128, .f32⟩
  | .local _ .vmem, ⟨36, _⟩ => ⟨S256x128, .bf16⟩
  | .local _ .vmem, ⟨37, _⟩ => ⟨S256x128, .bf16⟩
  | .local _ .vmem, ⟨38, _⟩ => ⟨S256x4096, .bf16⟩
  | .local _ .vmem, ⟨39, _⟩ => ⟨S256x4096, .bf16⟩
  | .local _ .vmem, ⟨40, _⟩ => ⟨S4096x128, .bf16⟩
  | .local _ .vmem, ⟨41, _⟩ => ⟨S256x1, .f32⟩
  | .local _ .vmem, ⟨42, _⟩ => ⟨S256x1, .f32⟩
  | .local _ .vmem, ⟨43, _⟩ => ⟨S1x1, .f32⟩
  | .local _ .vmem, ⟨44, _⟩ => ⟨S256x128, .f32⟩
  | .local _ .vmem, ⟨45, _⟩ => ⟨S256x128, .f32⟩
  | _, _ => ⟨S1x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_cst : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_cst_0 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_cst_1 : Ref sig .tc := ⟨.hbm, 24, rfl⟩
abbrev main_call0_v11 : Ref sig .tc := ⟨.hbm, 25, rfl⟩
abbrev main_call0_c_2 : Ref sig .tc := ⟨.hbm, 26, rfl⟩
abbrev main_call0_v12 : Ref sig .tc := ⟨.hbm, 27, rfl⟩
abbrev main_call0_v13 : Ref sig .tc := ⟨.hbm, 28, rfl⟩
abbrev main_call0_cst_3 : Ref sig .tc := ⟨.hbm, 29, rfl⟩
abbrev main_call0_v14 : Ref sig .tc := ⟨.hbm, 30, rfl⟩
abbrev main_call0_c_4 : Ref sig .tc := ⟨.hbm, 31, rfl⟩
abbrev main_call0_v15 : Ref sig .tc := ⟨.hbm, 32, rfl⟩
abbrev main_call0_c_5 : Ref sig .tc := ⟨.hbm, 33, rfl⟩
abbrev main_call0_v16 : Ref sig .tc := ⟨.hbm, 34, rfl⟩
abbrev main_call0_v17 : Ref sig .tc := ⟨.hbm, 35, rfl⟩
abbrev main_call0_v18 : Ref sig .tc := ⟨.hbm, 36, rfl⟩
abbrev main_call0_v19_0 : Ref sig .tc := ⟨.hbm, 37, rfl⟩
abbrev main_call0_v19_1 : Ref sig .tc := ⟨.hbm, 38, rfl⟩
abbrev main_call0_v19_2 : Ref sig .tc := ⟨.hbm, 39, rfl⟩
abbrev main_call0_v20 : Ref sig .tc := ⟨.hbm, 40, rfl⟩
abbrev main_v0_2 : Ref sig .tc := ⟨.hbm, 41, rfl⟩
abbrev main_v0_3 : Ref sig .tc := ⟨.hbm, 42, rfl⟩
abbrev main_call0_v21_2 : Ref sig .tc := ⟨.hbm, 43, rfl⟩
abbrev main_call0_v21_3 : Ref sig .tc := ⟨.hbm, 44, rfl⟩
abbrev main_call0_v22 : Ref sig .tc := ⟨.hbm, 45, rfl⟩
abbrev main_call0_v23 : Ref sig .tc := ⟨.hbm, 46, rfl⟩
abbrev main_v0_0 : Ref sig .tc := ⟨.hbm, 47, rfl⟩
abbrev main_call0_v25 : Ref sig .tc := ⟨.hbm, 48, rfl⟩
abbrev main_v0_1 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg7_1 : Ref sig .tc := ⟨.vmem, 31, rfl⟩
abbrev cc2_stg8_0 : Ref sig .tc := ⟨.vmem, 32, rfl⟩
abbrev cc2_stg8_1 : Ref sig .tc := ⟨.vmem, 33, rfl⟩
abbrev cc2_stg9_0 : Ref sig .tc := ⟨.vmem, 34, rfl⟩
abbrev cc2_stg9_1 : Ref sig .tc := ⟨.vmem, 35, rfl⟩
abbrev cc2_stg10_0 : Ref sig .tc := ⟨.vmem, 36, rfl⟩
abbrev cc2_stg10_1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg2_0 : Ref sig .tc := ⟨.vmem, 41, rfl⟩
abbrev cc3_stg2_1 : Ref sig .tc := ⟨.vmem, 42, rfl⟩
abbrev cc3_stg3_0 : Ref sig .tc := ⟨.vmem, 43, rfl⟩
abbrev cc3_stg4_0 : Ref sig .tc := ⟨.vmem, 44, rfl⟩
abbrev cc3_stg4_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem5_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem7_1 : DmaSem sig := 31
abbrev cc2_sem8_0 : DmaSem sig := 32
abbrev cc2_sem8_1 : DmaSem sig := 33
abbrev cc2_sem9_0 : DmaSem sig := 34
abbrev cc2_sem9_1 : DmaSem sig := 35
abbrev cc2_sem10_0 : DmaSem sig := 36
abbrev cc2_sem10_1 : DmaSem sig := 37
abbrev cc3_sem0_0 : DmaSem sig := 38
abbrev cc3_sem0_1 : DmaSem sig := 39
abbrev cc3_sem1_0 : DmaSem sig := 40
abbrev cc3_sem2_0 : DmaSem sig := 41
abbrev cc3_sem2_1 : DmaSem sig := 42
abbrev cc3_sem3_0 : DmaSem sig := 43
abbrev cc3_sem4_0 : DmaSem sig := 44
abbrev cc3_sem4_1 : DmaSem sig := 45

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

def k1_off1 (i : grid1.Coords) : Fin 2 → Nat :=
  let arg0 : BitVec 32 := BitVec.ofNat 32 (i 0).val
  let c256_i32 : BitVec 32 := 256#32
  let v7 : BitVec 32 := Scalar.muli arg0 c256_i32
  let v8 : Index := Scalar.indexCast v7
  let c0_5 : Index := 0#32
  ![v8.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![16], ![false]⟩

def k2_off1 (i : grid2.Coords) : Fin 2 → Nat :=
  let arg0 : BitVec 32 := BitVec.ofNat 32 (i 0).val
  let c256_i32 : BitVec 32 := 256#32
  let v7 : BitVec 32 := Scalar.muli arg0 c256_i32
  let v8 : Index := Scalar.indexCast v7
  let c0_5 : Index := 0#32
  ![v8.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S256x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S256x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S256x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S256x128 .bf16 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![16], ![false]⟩

def k3_off1 (i : grid3.Coords) : Fin 2 → Nat :=
  let arg0 : BitVec 32 := BitVec.ofNat 32 (i 0).val
  let c256_i32 : BitVec 32 := 256#32
  let v7 : BitVec 32 := Scalar.muli arg0 c256_i32
  let v8 : Index := Scalar.indexCast v7
  let c0_5 : Index := 0#32
  ![v8.toNat, 0]
def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4096x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S256x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  shapeCasts_S1x4096x128_S4096x128 : S1x4096x128.ShapeCasts S4096x128
  shapeCasts_S1x4096x4096_S4096x4096 : S1x4096x4096.ShapeCasts S4096x4096
  shapeCasts_S_S1x1 : S_.ShapeCasts S1x1
  concatenates_S128x128_S128x128_S128x256_d1 : Shape.Concatenates [S128x128, S128x128] S128x256 1
  bcast_S_S128x128 : S_.BroadcastsInDim S128x128 (![] : Fin 0 → Fin S128x128.rank)
  concatenates_S128x256_S128x256_S256x256_d0 : Shape.Concatenates [S128x256, S128x256] S256x256 0
  bcast_S_S1 : S_.BroadcastsInDim S1 (![] : Fin 0 → Fin S1.rank)
  bcast_S_S1x128 : S_.BroadcastsInDim S1x128 (![] : Fin 0 → Fin S1x128.rank)
  concatenates_S1_S1_S2_d0 : Shape.Concatenates [S1, S1] S2 0
  slices_S4096x128_S4096x40_0_0 : S4096x128.Slices ![0, 0] S4096x40
  bcast_S4096x40_S1x4096x40_1_2 : S4096x40.BroadcastsInDim S1x4096x40 (![1, 2] : Fin 2 → Fin S1x4096x40.rank)
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  reduces_S256x4096_S256 : S256x4096.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  broadcasts_S256x1_S256x256 : S256x1.Broadcasts S256x256
  inb_S256x256_S256x256_0_0 : ∀ a, (![0, 0] : Fin 2 → Nat) a + S256x256.size a ≤ S256x256.size a
  h_S256x256 : 0 < S256x256.numel
  packedbf16_S256x256_S256x256_0_0 : (Rect.unit (s := S256x256) ![0, 0] S256x256.size inb_S256x256_S256x256_0_0).PackedRows (EltTy.packing .bf16)
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  shapeCasts_S256x256_S256x256 : S256x256.ShapeCasts S256x256
  shapeCasts_S256x1_S256x1 : S256x1.ShapeCasts S256x1
  slices_S256x256_o0_0_S256x128 : S256x256.Slices ![0, 0] S256x128
  slices_S256x256_o0_128_S256x128 : S256x256.Slices ![0, 128] S256x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  broadcasts_S256x1_S256x128 : S256x1.Broadcasts S256x128
  packedbf16_S256x128_S256x128_0_0 : (Rect.unit (s := S256x128) ![0, 0] S256x128.size inb_S256x128_S256x128_0_0).PackedRows (EltTy.packing .bf16)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  scatter_S128x128_S1_S128x40_01_n_1_0_wf : ScatterDims.WF S128x128 S1 S128x40 [0, 1] [] [1] 0
  scatter_S1x128_S2_S40_0_0_01_0_wf : ScatterDims.WF S1x128 S2 S40 [0] [0] [0, 1] 0
  dot_S256x128_S128x256_S256x256_1_0_0_1_n_n_wf : DotDims.WF S256x128 S128x256 S256x256 [1] [0] [0] [1] [] []
  dot_S256x4096_S4096x256_S256x256_1_0_0_1_n_n_wf : DotDims.WF S256x4096 S4096x256 S256x256 [1] [0] [0] [1] [] []
  dot_S256x256_S256x256_S256x256_1_0_0_1_n_n_wf : DotDims.WF S256x256 S256x256 S256x256 [1] [0] [0] [1] [] []
  dot_S256x128_S128x128_S256x128_1_0_0_1_n_n_wf : DotDims.WF S256x128 S128x128 S256x128 [1] [0] [0] [1] [] []
  dot_S256x4096_S4096x128_S256x128_1_0_0_1_n_n_wf : DotDims.WF S256x4096 S4096x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S4096x128.size a
  hwx0_1 : ∀ i : grid0.Coords, EltTy.bits .f32 = 32 ∨ (Rect.block (s := S4096x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S4096x4096.size a
  hwx0_4 : ∀ i : grid0.Coords, EltTy.bits .bf16 = 32 ∨ (Rect.block (s := S4096x4096) S256x4096.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S4096x1.size a
  hwx0_5 : ∀ i : grid0.Coords, EltTy.bits .f32 = 32 ∨ (Rect.block (s := S4096x1) S256x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S4096x256.size a
  hwx0_6 : ∀ i : grid0.Coords, EltTy.bits .bf16 = 32 ∨ (Rect.block (s := S4096x256) S256x256.size (cc0_transform_6 i) (hinb0_6 i)).WholeWords (EltTy.packing .bf16)
  hrank1 : 0 < grid1.rank
  k1_off1_inb : ∀ i : grid1.Coords, ∀ a, (k1_off1 i) a + S256x256.size a ≤ S4096x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .bf16 = 32 ∨ (Rect.block (s := S4096x4096) S256x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .bf16 = 32 ∨ (Rect.block (s := S4096x256) S4096x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S4096x1.size a
  hwx1_2 : ∀ i : grid1.Coords, EltTy.bits .f32 = 32 ∨ (Rect.block (s := S4096x1) S256x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S4096x256.size a
  hwx1_5 : ∀ i : grid1.Coords, EltTy.bits .bf16 = 32 ∨ (Rect.block (s := S4096x256) S256x256.size (cc1_transform_5 i) (hinb1_5 i)).WholeWords (EltTy.packing .bf16)
  hrank2 : 0 < grid2.rank
  k2_off1_inb : ∀ i : grid2.Coords, ∀ a, (k2_off1 i) a + S256x256.size a ≤ S4096x256.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x4096.size a ≤ S4096x4096.size a
  hwx2_0 : ∀ i : grid2.Coords, EltTy.bits .bf16 = 32 ∨ (Rect.block (s := S4096x4096) S256x4096.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x256.size a ≤ S4096x256.size a
  hwx2_1 : ∀ i : grid2.Coords, EltTy.bits .bf16 = 32 ∨ (Rect.block (s := S4096x256) S4096x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x1.size a ≤ S4096x1.size a
  hwx2_2 : ∀ i : grid2.Coords, EltTy.bits .f32 = 32 ∨ (Rect.block (s := S4096x1) S256x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S256x128.size a ≤ S4096x128.size a
  hwx2_7 : ∀ i : grid2.Coords, EltTy.bits .f32 = 32 ∨ (Rect.block (s := S4096x128) S256x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S256x128.size a ≤ S4096x128.size a
  hwx2_8 : ∀ i : grid2.Coords, EltTy.bits .f32 = 32 ∨ (Rect.block (s := S4096x128) S256x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S256x128.size a ≤ S4096x128.size a
  hwx2_9 : ∀ i : grid2.Coords, EltTy.bits .f32 = 32 ∨ (Rect.block (s := S4096x128) S256x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S256x128.size a ≤ S4096x128.size a
  hwx2_10 : ∀ i : grid2.Coords, EltTy.bits .bf16 = 32 ∨ (Rect.block (s := S4096x128) S256x128.size (cc2_transform_10 i) (hinb2_10 i)).WholeWords (EltTy.packing .bf16)
  hrank3 : 0 < grid3.rank
  k3_off1_inb : ∀ i : grid3.Coords, ∀ a, (k3_off1 i) a + S256x128.size a ≤ S4096x128.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x4096.size a ≤ S4096x4096.size a
  hwx3_0 : ∀ i : grid3.Coords, EltTy.bits .bf16 = 32 ∨ (Rect.block (s := S4096x4096) S256x4096.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S4096x128.size a ≤ S4096x128.size a
  hwx3_1 : ∀ i : grid3.Coords, EltTy.bits .bf16 = 32 ∨ (Rect.block (s := S4096x128) S4096x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x1.size a ≤ S4096x1.size a
  hwx3_2 : ∀ i : grid3.Coords, EltTy.bits .f32 = 32 ∨ (Rect.block (s := S4096x1) S256x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S256x128.size a ≤ S4096x128.size a
  hwx3_4 : ∀ i : grid3.Coords, EltTy.bits .f32 = 32 ∨ (Rect.block (s := S4096x128) S256x128.size (cc3_transform_4 i) (hinb3_4 i)).WholeWords (EltTy.packing .f32)

variable [Facts₀]

def scatter_S128x128_S1_S128x40_01_n_1_0 : ScatterDims S128x128 S1 S128x40 where
  updateWindowDims := [0, 1]
  insertedWindowDims := []
  scatterDimsToOperandDims := [1]
  indexVectorDim := 0
  wf := scatter_S128x128_S1_S128x40_01_n_1_0_wf
def scatter_S1x128_S2_S40_0_0_01_0 : ScatterDims S1x128 S2 S40 where
  updateWindowDims := [0]
  insertedWindowDims := [0]
  scatterDimsToOperandDims := [0, 1]
  indexVectorDim := 0
  wf := scatter_S1x128_S2_S40_0_0_01_0_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf

abbrev win0_0 : Pipeline.Window sig grid0 :=
  Pipeline.Window.ofSpec (Memref.whole main_call0_v1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v19_0) S256x4096.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v19_1) S256x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v19_2) S256x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_call0_v19_0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v19_2) S4096x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v19_1) S256x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v2) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v7) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v20) S256x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_call0_v19_0) S256x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v20) S4096x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v19_1) S256x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_call0_v2) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_call0_v13) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_call0_v18) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v0_2) S256x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v0_3) S256x128.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_call0_v21_2) S256x128.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_call0_v21_3) S256x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_call0_v19_0) S256x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v21_3) S4096x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_call0_v19_1) S256x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_call0_v2) S1x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_call0_v22) S256x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S1x4096x128 : Shape := ⟨3, ![1, 4096, 128]⟩
abbrev S1x4096x4096 : Shape := ⟨3, ![1, 4096, 4096]⟩
abbrev S_ : Shape := ⟨0, ![]⟩
abbrev S128x128 : Shape := ⟨2, ![128, 128]⟩
abbrev S128x40 : Shape := ⟨2, ![128, 40]⟩
abbrev S40 : Shape := ⟨1, ![40]⟩
abbrev S4096x4096 : Shape := ⟨2, ![4096, 4096]⟩
abbrev S1x4096 : Shape := ⟨2, ![1, 4096]⟩
abbrev S1x4096x1 : Shape := ⟨3, ![1, 4096, 1]⟩
abbrev S1x1x4096 : Shape := ⟨3, ![1, 1, 4096]⟩
abbrev S4096x128 : Shape := ⟨2, ![4096, 128]⟩
abbrev S4096x40 : Shape := ⟨2, ![4096, 40]⟩
abbrev S1x4096x40 : Shape := ⟨3, ![1, 4096, 40]⟩
abbrev S1x40 : Shape := ⟨2, ![1, 40]⟩

abbrev nBuf : Space → Nat
  | .hbm => 64
  | .vmem => 0
  | .smem => 0
  | _ => 0

abbrev bufTy : (tb : Table) → Fin (tcTables nBuf tb) → BufTy
  | .hbm, ⟨0, _⟩ => ⟨S1x4096x128, .f32⟩
  | .hbm, ⟨1, _⟩ => ⟨S1x4096x4096, .f32⟩
  | .hbm, ⟨2, _⟩ => ⟨S_, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x40, .f32⟩
  | .hbm, ⟨8, _⟩ => ⟨S128x40, .f32⟩
  | .hbm, ⟨9, _⟩ => ⟨S40, .f32⟩
  | .hbm, ⟨10, _⟩ => ⟨S4096x4096, .i32⟩
  | .hbm, ⟨11, _⟩ => ⟨S4096x4096, .i32⟩
  | .hbm, ⟨12, _⟩ => ⟨S_, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S4096x4096, .f32⟩
  | .hbm, ⟨17, _⟩ => ⟨S1x4096x4096, .f32⟩
  | .hbm, ⟨18, _⟩ => ⟨S1x4096x4096, .f32⟩
  | .hbm, ⟨19, _⟩ => ⟨S1x4096x4096, .f32⟩
  | .hbm, ⟨20, _⟩ => ⟨S1x4096x4096, .f32⟩
  | .hbm, ⟨21, _⟩ => ⟨S_, .f32⟩
  | .hbm, ⟨22, _⟩ => ⟨S1x4096, .f32⟩
  | .hbm, ⟨23, _⟩ => ⟨S_, .f32⟩
  | .hbm, ⟨24, _⟩ => ⟨S1x4096, .f32⟩
  | .hbm, ⟨25, _⟩ => ⟨S1x4096, .i1⟩
  | .hbm, ⟨26, _⟩ => ⟨S1x4096, .f32⟩
  | .hbm, ⟨27, _⟩ => ⟨S_, .f32⟩
  | .hbm, ⟨28, _⟩ => ⟨S1x4096, .f32⟩
  | .hbm, ⟨29, _⟩ => ⟨S1x4096, .f32⟩
  | .hbm, ⟨30, _⟩ => ⟨S_, .f32⟩
  | .hbm, ⟨31, _⟩ => ⟨S_, .f32⟩
  | .hbm, ⟨32, _⟩ => ⟨S1x4096, .f32⟩
  | .hbm, ⟨33, _⟩ => ⟨S1x4096, .f32⟩
  | .hbm, ⟨34, _⟩ => ⟨S1x4096x1, .f32⟩
  | .hbm, ⟨35, _⟩ => ⟨S1x4096x4096, .f32⟩
  | .hbm, ⟨36, _⟩ => ⟨S1x4096x4096, .f32⟩
  | .hbm, ⟨37, _⟩ => ⟨S1x1x4096, .f32⟩
  | .hbm, ⟨38, _⟩ => ⟨S1x4096x4096, .f32⟩
  | .hbm, ⟨39, _⟩ => ⟨S1x4096x4096, .f32⟩
  | .hbm, ⟨40, _⟩ => ⟨S4096x128, .f32⟩
  | .hbm, ⟨41, _⟩ => ⟨S4096x4096, .f32⟩
  | .hbm, ⟨42, _⟩ => ⟨S4096x128, .f32⟩
  | .hbm, ⟨43, _⟩ => ⟨S4096x128, .f32⟩
  | .hbm, ⟨44, _⟩ => ⟨S_, .f32⟩
  | .hbm, ⟨45, _⟩ => ⟨S4096x128, .f32⟩
  | .hbm, ⟨46, _⟩ => ⟨S4096x128, .f32⟩
  | .hbm, ⟨47, _⟩ => ⟨S4096x128, .f32⟩
  | .hbm, ⟨48, _⟩ => ⟨S4096x128, .f32⟩
  | .hbm, ⟨49, _⟩ => ⟨S4096x128, .f32⟩
  | .hbm, ⟨50, _⟩ => ⟨S4096x128, .f32⟩
  | .hbm, ⟨51, _⟩ => ⟨S_, .f32⟩
  | .hbm, ⟨52, _⟩ => ⟨S4096x128, .f32⟩
  | .hbm, ⟨53, _⟩ => ⟨S4096x128, .f32⟩
  | .hbm, ⟨54, _⟩ => ⟨S4096x128, .f32⟩
  | .hbm, ⟨55, _⟩ => ⟨S4096x128, .f32⟩
  | .hbm, ⟨56, _⟩ => ⟨S4096x40, .f32⟩
  | .hbm, ⟨57, _⟩ => ⟨S4096x40, .f32⟩
  | .hbm, ⟨58, _⟩ => ⟨S1x4096x40, .f32⟩
  | .hbm, ⟨59, _⟩ => ⟨S4096x40, .f32⟩
  | .hbm, ⟨60, _⟩ => ⟨S1x40, .f32⟩
  | .hbm, ⟨61, _⟩ => ⟨S4096x40, .f32⟩
  | .hbm, ⟨62, _⟩ => ⟨S4096x40, .f32⟩
  | .hbm, ⟨63, _⟩ => ⟨S1x4096x40, .f32⟩
  | _, _ => ⟨S1x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_call1_cst : Ref sig .tc := ⟨.hbm, 44, rfl⟩
abbrev main_call1_v0 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call2_cst : Ref sig .tc := ⟨.hbm, 51, rfl⟩
abbrev main_call2_v0 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096x4096_S1x4096x4096_1_2 : S4096x4096.BroadcastsInDim S1x4096x4096 (![1, 2] : Fin 2 → Fin S1x4096x4096.rank)
  bcast_S_S1x4096x4096 : S_.BroadcastsInDim S1x4096x4096 (![] : Fin 0 → Fin S1x4096x4096.rank)
  reducesTo_S1x4096x4096_S1x4096_d2 : S1x4096x4096.ReducesTo [2] S1x4096
  h_S_ : 0 < S_.numel
  bcast_S_S1x4096 : S_.BroadcastsInDim S1x4096 (![] : Fin 0 → Fin S1x4096.rank)
  bcast_S1x4096_S1x4096x1_0_1 : S1x4096.BroadcastsInDim S1x4096x1 (![0, 1] : Fin 2 → Fin S1x4096x1.rank)
  bcast_S1x4096x1_S1x4096x4096_0_1_2 : S1x4096x1.BroadcastsInDim S1x4096x4096 (![0, 1, 2] : Fin 3 → Fin S1x4096x4096.rank)
  bcast_S1x4096_S1x1x4096_0_2 : S1x4096.BroadcastsInDim S1x1x4096 (![0, 2] : Fin 2 → Fin S1x1x4096.rank)
  bcast_S1x1x4096_S1x4096x4096_0_1_2 : S1x1x4096.BroadcastsInDim S1x4096x4096 (![0, 1, 2] : Fin 3 → Fin S1x4096x4096.rank)
  shapeCasts_S1x4096x128_S4096x128 : S1x4096x128.ShapeCasts S4096x128
  shapeCasts_S1x4096x4096_S4096x4096 : S1x4096x4096.ShapeCasts S4096x4096
  bcast_S_S4096x128 : S_.BroadcastsInDim S4096x128 (![] : Fin 0 → Fin S4096x128.rank)
  bcast_S4096x40_S1x4096x40_1_2 : S4096x40.BroadcastsInDim S1x4096x40 (![1, 2] : Fin 2 → Fin S1x4096x40.rank)
  bcast_S40_S1x40_1 : S40.BroadcastsInDim S1x40 (![1] : Fin 1 → Fin S1x40.rank)
  bcast_S1x40_S4096x40_0_1 : S1x40.BroadcastsInDim S4096x40 (![0, 1] : Fin 2 → Fin S4096x40.rank)
  dot_S4096x128_S128x128_S4096x128_1_0_0_1_n_n_wf : DotDims.WF S4096x128 S128x128 S4096x128 [1] [0] [0] [1] [] []
  dot_S4096x4096_S4096x128_S4096x128_1_0_0_1_n_n_wf : DotDims.WF S4096x4096 S4096x128 S4096x128 [1] [0] [0] [1] [] []
  dot_S4096x128_S128x40_S4096x40_1_0_0_1_n_n_wf : DotDims.WF S4096x128 S128x40 S4096x40 [1] [0] [0] [1] [] []
  dot_S4096x4096_S4096x40_S4096x40_1_0_0_1_n_n_wf : DotDims.WF S4096x4096 S4096x40 S4096x40 [1] [0] [0] [1] [] []

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def dot_S4096x128_S128x40_S4096x40_1_0_0_1_n_n : DotDims S4096x128 S128x40 S4096x40 where
  lhsContracting := [1]
  rhsContracting := [0]
  lhsNonContracting := [0]
  rhsNonContracting := [1]
  lhsBatch := []
  rhsBatch := []
  wf := dot_S4096x128_S128x40_S4096x40_1_0_0_1_n_n_wf
def dot_S4096x4096_S4096x40_S4096x40_1_0_0_1_n_n : DotDims S4096x4096 S4096x40 S4096x40 where
  lhsContracting := [1]
  rhsContracting := [0]
  lhsNonContracting := [0]
  rhsNonContracting := [1]
  lhsBatch := []
  rhsBatch := []
  wf := dot_S4096x4096_S4096x40_S4096x40_1_0_0_1_n_n_wf

class Facts : Prop extends Facts₀ where

variable [Facts]
-- ==== Proof.KRun.lean ====
/-
  The idealized kernel program's run with its four results NAMED: every weakly fair execution terminates without a
  fault, each result buffer ends holding the last boundary's contents (the fold of the host lines and of each
  region's write-backs from the launch memory), and the argument arrays end as launched.
-/
import proofs.«120297_g49246095016346_cont_8to1c4_490_5_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with every result at the contents of the last segment boundary and every argument as launched. -/
theorem run_named : θ_run defs (onTc (τ := τ) (main (F := F))) ⟨m, fun _ => 0, ρ⟩ (fun r => ∀ c : Dev nD,
      r.2.mem ((c.tc : Thread nD τ).loc main_v0_0) = W6 m ρ c (Proc.devRef .tc main_v0_0)
      ∧ r.2.mem ((c.tc : Thread nD τ).loc main_v0_1) = W6 m ρ c (Proc.devRef .tc main_v0_1)
      ∧ r.2.mem ((c.tc : Thread nD τ).loc main_v0_2) = W6 m ρ c (Proc.devRef .tc main_v0_2)
      ∧ r.2.mem ((c.tc : Thread nD τ).loc main_v0_3) = W6 m ρ c (Proc.devRef .tc main_v0_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v0_0 (by decide)),
       h c _ (mem_uc main_v0_1 (by decide)),
       h c _ (mem_uc main_v0_2 (by decide)),
       h c _ (mem_uc main_v0_3 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.Val

end
-- ==== Proof.Spec.lean ====
/-
  The mathematics of both programs, over matrices of extended reals indexed by literal `Fin` coordinates.

  Kernel side (four passes over the raw adjacency `adj`, the self-loop weight `la` a scalar):
    deg r   = (sum_j adj r j) + la,                    d r = if 0 < deg r then rsqrt (deg r) else 0
    dxw     = d r * (xs W)_{r c}                        (W = [We1 | Wh1], 256 columns)
    spmm v  = (adj v)_{r c} + la * v r c                (the self loop added to the product, never to the matrix)
    layer1  = d r * (relu (d * spmm dxw) W2)_{r c}      (W2 block diagonal)
    y       = d r * spmm dhw r c                        (e2 = its first 128 columns, hh2 = its last 128)
    ln      = (e2 Wm)_{r c} + b c,   dz = d r * (hh2 Wd)_{r c},   out = d r * spmm dz r c
  Reference side: adjL = adj + la * I, dR = 1 / sqrt (row sum of adjL) where positive, A = adjL * dR_i * dR_j,
    enc W1 W2 = A (relu (A (xs W1)) W2), logits = A (hh2 Wd), ln = e2 Wmlp + b.
-/
import Idealize.ShloMosaic.PureOps.Ideal
import Idealize.ShloMosaic.Lib.ValueIdx

noncomputable section

namespace Cert.Spec

open Idealize.ShloMosaic

/-- A matrix of extended reals by coordinates. -/
abbrev Mx (a b : ℕ) := Fin a → Fin b → EReal
/-- A vector of extended reals. -/
abbrev Vc (a : ℕ) := Fin a → EReal

/-- Column `c` of the first half of 256 columns. -/
def lo (c : Fin 128) : Fin 256 := ⟨c.val, by omega⟩
/-- Column `c` of the second half of 256 columns. -/
def hi (c : Fin 128) : Fin 256 := ⟨128 + c.val, by omega⟩
/-- Column `c` of the 40 kept among 128 padded columns. -/
def pad (c : Fin 40) : Fin 128 := ⟨c.val, by omega⟩

/-- Rows times columns. -/
def mm {a k n : ℕ} (X : Mx a k) (W : Mx k n) : Mx a n := fun i c => ∑ q, X i q * W q c

/-! ## The kernel's four passes -/

/-- A row's degree: its sum plus the self-loop weight. -/
def degK (adj : Mx 4096 4096) (la : EReal) (r : Fin 4096) : EReal := (∑ j, adj r j) + la
/-- The normalizer: the inverse square root of a positive degree, zero otherwise. -/
def dK (adj : Mx 4096 4096) (la : EReal) (r : Fin 4096) : EReal :=
  if 0 < degK adj la r then Ideal.rsqrt (degK adj la r) else 0
/-- The scaled input projection. -/
def dxwK (d : Vc 4096) (xs : Mx 4096 128) (wenc : Mx 128 256) : Mx 4096 256 := fun r c => d r * mm xs wenc r c
/-- The adjacency product with the self loop added to the product. -/
def spmm {n : ℕ} (adj : Mx 4096 4096) (la : EReal) (v : Mx 4096 n) : Mx 4096 n := fun r c => mm adj v r c + la * v r c
/-- The first graph layer with the second layer's projection. -/
def layer1K (adj : Mx 4096 4096) (la : EReal) (d : Vc 4096) (v : Mx 4096 256) (w2 : Mx 256 256) : Mx 4096 256 :=
  fun r c => d r * mm (fun i q => max (d i * spmm adj la v i q) 0) w2 r c
/-- The second graph layer, both branches side by side. -/
def yK (adj : Mx 4096 4096) (la : EReal) (d : Vc 4096) (v : Mx 4096 256) : Mx 4096 256 := fun r c => d r * spmm adj la v r c
/-- The node head: a dense layer with a bias row. -/
def lnK (e2 : Mx 4096 128) (wm : Mx 128 128) (b : Vc 128) : Mx 4096 128 := fun r c => mm e2 wm r c + b c
/-- The scaled decoder projection. -/
def dzK (d : Vc 4096) (hh2 : Mx 4096 128) (wd : Mx 128 128) : Mx 4096 128 := fun r c => d r * mm hh2 wd r c
/-- The decoder's graph layer. -/
def outK (adj : Mx 4096 4096) (la : EReal) (d : Vc 4096) (dz : Mx 4096 128) : Mx 4096 128 := fun r c => d r * spmm adj la dz r c

/-! ## The reference -/

/-- The identity matrix. -/
def eye (i j : Fin 4096) : EReal := if i = j then 1 else 0
/-- The adjacency with weighted self loops. -/
def adjL (adj : Mx 4096 4096) (la : EReal) : Mx 4096 4096 := fun i j => adj i j + la * eye i j
/-- A row sum of the looped adjacency. -/
def degR (adj : Mx 4096 4096) (la : EReal) (i : Fin 4096) : EReal := ∑ j, adjL adj la i j
/-- The reference's normalizer: one over the square root of a positive degree, zero otherwise. -/
def dR (adj : Mx 4096 4096) (la : EReal) (i : Fin 4096) : EReal :=
  if 0 < degR adj la i then Ideal.div 1 (Ideal.sqrt (degR adj la i)) else 0
/-- The symmetrically normalized adjacency. -/
def AR (adj : Mx 4096 4096) (la : EReal) : Mx 4096 4096 := fun i j => adjL adj la i j * dR adj la i * dR adj la j
/-- The rectifier. -/
def relu {a b : ℕ} (X : Mx a b) : Mx a b := fun i c => max (X i c) 0
/-- A two-layer graph encoder branch. -/
def encR (A : Mx 4096 4096) (xs : Mx 4096 128) (W1 W2 : Mx 128 128) : Mx 4096 128 :=
  mm A (mm (relu (mm A (mm xs W1))) W2)
/-- The decoder. -/
def logitsR (A : Mx 4096 4096) (hh2 : Mx 4096 128) (Wd : Mx 128 40) : Mx 4096 40 := mm A (mm hh2 Wd)
/-- The node head. -/
def lnR (e2 : Mx 4096 128) (Wmlp : Mx 128 40) (b : Vc 40) : Mx 4096 40 := fun r c => mm e2 Wmlp r c + b c

end Cert.Spec

end
-- ==== Proof.ValDefs.lean ====
/-
  Names for reading the kernel's intermediate arrays by coordinates: the raw adjacency, its copy, the self-loop
  weight and the normalizer column, each taken from the buffer contents a region is entered with.
-/
import proofs.«120297_g49246095016346_cont_8to1c4_490_5_alg».proof.Proof.Gen.KernelIdeal.Frame
import proofs.«120297_g49246095016346_cont_8to1c4_490_5_alg».proof.Proof.Spec
import Idealize.ShloMosaic.Lib.ValueIdx

noncomputable section

namespace Cert.KernelIdeal.Val

open Idealize.ShloMosaic Idealize.ShloMosaic.TcCoe Idealize.SL.Sem Idealize.ShloMosaic.ValueIdx
open Cert.KernelIdeal Cert.KernelIdeal.Gen Cert.Spec

/-- Buffer contents of every TensorCore reference on every core, at the ideal values. -/
abbrev Cont := (c : Dev nD) → (b : Ref sig .tc) → Buf (Elt Ideal) ((c : Thread nD τ).loc b)

/-- The raw adjacency by coordinates. -/
abbrev adjOf (V : Cont) (c : Dev nD) : Mx 4096 4096 := fun i j => V c main_call0_v1 (ix2 i j)
/-- The first pass's copy of the adjacency by coordinates. -/
abbrev abfOf (V : Cont) (c : Dev nD) : Mx 4096 4096 := fun i j => V c main_call0_v19_0 (ix2 i j)
/-- The self-loop weight. -/
abbrev laOf (V : Cont) (c : Dev nD) : EReal := V c main_call0_v2 (ix2 0 0)
/-- The normalizer column by its row. -/
abbrev dOf (V : Cont) (c : Dev nD) : Vc 4096 := fun i => V c main_call0_v19_1 (ix2 i 0)

end Cert.KernelIdeal.Val

end
-- ==== Proof.R0.lean ====
/-
  The kernel's first pass over the raw adjacency, 16 blocks of 256 rows: what each of its three output arrays holds
  after the pass, as one function of the arrays the pass is entered with. The copy of the adjacency is the adjacency;
  the normalizer column at row r is the guarded inverse square root of the row's sum plus the self-loop weight; the
  projection at (r, k) is the normalizer of row r times the row of inputs against column k of the weights. Each is
  read first at the coordinates of one block, then block t is identified with rows 256 t … 256 t + 255 of the whole
  array, and the 16 blocks cover every row (row r lies in block r / 256).
-/
import proofs.«120297_g49246095016346_cont_8to1c4_490_5_alg».proof.Proof.ValDefs
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.SL.Sem Idealize.ShloMosaic.ValueIdx
open Cert.KernelIdeal Cert.KernelIdeal.Gen Cert.Spec

/-! ## The three payloads at coordinates -/

/-- The copy is the block itself: a cast to the same shape and a format change, both the identity on extended reals. -/
theorem r0_copy_apply (x : Vec Ideal S256x4096 .f32) (j : S256x4096.Idx) :
    k0_pay2 (F := Ideal) x j = x j := by
  unfold k0_pay2 k0_pay1
  exact congrFun (shapeCast_self x _) j

/-- A lane sum over the columns of a block, read at a row: the sum of the row. -/
theorem r0_rowsum (x : FVec Ideal S256x4096 .f32) (h : S256x4096.Reduces [1] S256) (hφ : FKind.Formats .f32)
    (hacc : (0x00000000#32 : BitVec 32) = FKind.add.neutral .f32 hφ) (p : Fin 256) :
    multiReduction .add [1] S256 x 0x00000000#32 h hφ hacc (ix1 p) = ∑ k : Fin 4096, x (ix2 p k) := by
  refine (Ideal.multiReduction_add_single x _ h hφ hacc (ix1 p)).trans ?_
  refine Finset.sum_congr rfl fun k _ => congrArg x ?_
  funext c
  apply Fin.ext
  match c with
  | ⟨0, _⟩ => rfl
  | ⟨1, _⟩ => rfl

/-- A vector of 256 entries cast to a column reads, at row p, the entry p. -/
theorem r0_col_apply {α : Type} (v : S256.Idx → α) (h : S256.ShapeCasts S256x1) (p : Fin 256) (q : Fin 1) :
    shapeCast S256x1 v h (ix2 p q) = v (ix1 p) :=
  shapeCast_apply v h _ _ (by
    have hq : q.val = 0 := by omega
    rw [Shape.rowMajor_val_one, Shape.rowMajor_val_two]
    show p.val = p.val * 1 + q.val
    rw [hq, Nat.mul_one, Nat.add_zero])

/-- The guarded inverse square root: the test "greater than zero" selects between the inverse square root and zero. -/
theorem r0_sel (d : EReal) :
    Scalar.select (FloatOps.cmpf (F := Ideal) (φ := .f32) .ogt d (FloatOps.ofBits .f32 0x00000000#32))
        (FloatOps.rsqrt (F := Ideal) (φ := .f32) d) (FloatOps.ofBits (F := Ideal) .f32 0x00000000#32)
      = if 0 < d then Ideal.rsqrt d else 0 := by
  show Scalar.select (Ideal.cmp .ogt d (Ideal.ofBits .f32 0x00000000#32)) (Ideal.rsqrt d) (Ideal.ofBits .f32 0x00000000#32) = _
  rw [Ideal.ofBits_zero_f32]
  unfold Ideal.cmp Scalar.select
  by_cases h : 0 < d
  · simp [h]
  · simp [h]

/-- The normalizer payload at row p of a block: the row's sum plus the self-loop weight, then the guarded inverse square root. -/
theorem r0_d_apply (x3 : Vec Ideal S1x1 .f32) (x0 : Vec Ideal S256x4096 .f32) (p : Fin 256) (q : Fin 1) :
    k0_pay3 (F := Ideal) x3 x0 (ix2 p q)
      = if 0 < (∑ k : Fin 4096, x0 (ix2 p k)) + x3 (ix2 0 0)
        then Ideal.rsqrt ((∑ k : Fin 4096, x0 (ix2 p k)) + x3 (ix2 0 0)) else 0 := by
  unfold k0_pay3
  have hA : shapeCast S256x1 (multiReduction .add [1] S256 (k0_pay1 (F := Ideal) x0) 0x00000000#32 reduces_S256x4096_S256 (.inl rfl) rfl)
      shapeCasts_S256_S256x1 (ix2 p q) = ∑ k : Fin 4096, x0 (ix2 p k) :=
    (r0_col_apply _ _ p q).trans ((r0_rowsum _ _ _ _ p).trans
      (Finset.sum_congr rfl fun k _ => congrFun (shapeCast_self x0 _) _))
  have hB : extractAt ![0, 0] x3 inpos_S1x1_p0_0 = x3 (ix2 0 0) :=
    congrArg x3 (funext fun a => Fin.ext (by match a with | ⟨0, _⟩ => rfl | ⟨1, _⟩ => rfl))
  exact (congrArg₂ (fun a b : EReal => Scalar.select (FloatOps.cmpf (F := Ideal) (φ := .f32) .ogt (a + b) (FloatOps.ofBits .f32 0x00000000#32))
      (FloatOps.rsqrt (F := Ideal) (φ := .f32) (a + b)) (FloatOps.ofBits (F := Ideal) .f32 0x00000000#32)) hA hB).trans (r0_sel _)

/-- A column broadcast along the rows' other axis reads, at (p, q), the column at p. -/
theorem r0_bcol_apply {α : Type} (v : S256x1.Idx → α) (h : S256x1.Broadcasts S256x256) (p q : Fin 256) :
    broadcastTo S256x256 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The left operand's index of the product at an output index and an inner index: the output's row … -/
theorem r0_lhs_0 (i : S256x256.Idx) (s : dot_S256x128_S128x256_S256x256_1_0_0_1_n_n.contr.Idx) :
    (dot_S256x128_S128x256_S256x256_1_0_0_1_n_n.lhsIdx i s 0).val = (i 0).val := by
  unfold DotDims.lhsIdx
  rw [dif_neg (show ¬(0 : Fin S256x128.rank) ∈ dot_S256x128_S128x256_S256x256_1_0_0_1_n_n.lhsBatch by decide),
    dif_pos (show (0 : Fin S256x128.rank) ∈ dot_S256x128_S128x256_S256x256_1_0_0_1_n_n.lhsNonContracting by decide)]
  rfl
/-- … and the inner coordinate; -/
theorem r0_lhs_1 (i : S256x256.Idx) (s : dot_S256x128_S128x256_S256x256_1_0_0_1_n_n.contr.Idx) :
    (dot_S256x128_S128x256_S256x256_1_0_0_1_n_n.lhsIdx i s 1).val = (s ⟨0, by decide⟩).val :=
  dot_S256x128_S128x256_S256x256_1_0_0_1_n_n.lhsIdx_val_of_single rfl i s
/-- the right operand's: the inner coordinate … -/
theorem r0_rhs_0 (i : S256x256.Idx) (s : dot_S256x128_S128x256_S256x256_1_0_0_1_n_n.contr.Idx) :
    (dot_S256x128_S128x256_S256x256_1_0_0_1_n_n.rhsIdx i s 0).val = (s ⟨0, by decide⟩).val :=
  dot_S256x128_S128x256_S256x256_1_0_0_1_n_n.rhsIdx_val_of_single rfl i s
/-- … and the output's column. -/
theorem r0_rhs_1 (i : S256x256.Idx) (s : dot_S256x128_S128x256_S256x256_1_0_0_1_n_n.contr.Idx) :
    (dot_S256x128_S128x256_S256x256_1_0_0_1_n_n.rhsIdx i s 1).val = (i 1).val := by
  unfold DotDims.rhsIdx
  rw [dif_neg (show ¬(1 : Fin S128x256.rank) ∈ dot_S256x128_S128x256_S256x256_1_0_0_1_n_n.rhsBatch by decide),
    dif_pos (show (1 : Fin S128x256.rank) ∈ dot_S256x128_S128x256_S256x256_1_0_0_1_n_n.rhsNonContracting by decide)]
  rfl

/-- The product of a block of rows with the weights, accumulated from zero, at (p, q): the sum over the 128 inner coordinates. -/
theorem r0_mm_apply (a : FVec Ideal S256x128 .f32) (b : FVec Ideal S128x256 .f32) (p q : Fin 256) :
    matmul dot_S256x128_S128x256_S256x256_1_0_0_1_n_n none a b (constant (F := Ideal) S256x256 .f32 0x00000000#32) (ix2 p q)
      = ∑ k : Fin 128, a (ix2 p k) * b (ix2 k q) := by
  simp only [matmul]
  rw [Ideal.matmul_constant_zero_apply, ← Equiv.sum_comp (contrEquiv1 dot_S256x128_S128x256_S256x256_1_0_0_1_n_n 128 rfl rfl).symm]
  refine Finset.sum_congr rfl fun k _ => ?_
  have hk := contrEquiv1_symm_val dot_S256x128_S128x256_S256x256_1_0_0_1_n_n 128 rfl rfl k
  have el : dot_S256x128_S128x256_S256x256_1_0_0_1_n_n.lhsIdx (ix2 p q) ((contrEquiv1 dot_S256x128_S128x256_S256x256_1_0_0_1_n_n 128 rfl rfl).symm k) = ix2 p k :=
    funext fun c => Fin.ext (by
      match c with
      | ⟨0, _⟩ => exact r0_lhs_0 _ _
      | ⟨1, _⟩ => exact (r0_lhs_1 _ _).trans hk)
  have er : dot_S256x128_S128x256_S256x256_1_0_0_1_n_n.rhsIdx (ix2 p q) ((contrEquiv1 dot_S256x128_S128x256_S256x256_1_0_0_1_n_n 128 rfl rfl).symm k) = ix2 k q :=
    funext fun c => Fin.ext (by
      match c with
      | ⟨0, _⟩ => exact (r0_rhs_0 _ _).trans hk
      | ⟨1, _⟩ => exact r0_rhs_1 _ _)
  rw [el, er]

/-- The projection payload at (p, q) of a block: the normalizer of row p times the row of inputs against column q of the weights. -/
theorem r0_proj_apply (x3 : Vec Ideal S1x1 .f32) (x0 : Vec Ideal S256x4096 .f32) (x1 : FVec Ideal S256x128 .f32)
    (x2 : FVec Ideal S128x256 .f32) (p q : Fin 256) :
    k0_pay4 (F := Ideal) x3 x0 x1 x2 (ix2 p q)
      = k0_pay3 (F := Ideal) x3 x0 (ix2 p (0 : Fin 1)) * ∑ k : Fin 128, x1 (ix2 p k) * x2 (ix2 k q) := by
  unfold k0_pay4
  have hA : broadcastTo S256x256 (k0_pay3 (F := Ideal) x3 x0) broadcasts_S256x1_S256x256 (ix2 p q)
      = k0_pay3 (F := Ideal) x3 x0 (ix2 p (0 : Fin 1)) := r0_bcol_apply _ _ p q
  have hB : matmul dot_S256x128_S128x256_S256x256_1_0_0_1_n_n none (shapeCast S256x128 x1 shapeCasts_S256x128_S256x128)
      (shapeCast S128x256 x2 shapeCasts_S128x256_S128x256) (constant (F := Ideal) S256x256 .f32 0x00000000#32) (ix2 p q)
      = ∑ k : Fin 128, x1 (ix2 p k) * x2 (ix2 k q) := by
    rw [shapeCast_self, shapeCast_self]
    exact r0_mm_apply x1 x2 p q
  exact congrArg₂ (fun a b : EReal => a * b) hA hB

/-- The normalizer payload in the shape of the specification: when row p of the block is row r of an adjacency and the
    scalar block holds the self-loop weight. -/
theorem r0_d_block (x3 : Vec Ideal S1x1 .f32) (x0 : Vec Ideal S256x4096 .f32) (A : Mx 4096 4096) (la : EReal)
    (r : Fin 4096) (p : Fin 256) (q : Fin 1) (h0 : ∀ k : Fin 4096, x0 (ix2 p k) = A r k) (h3 : x3 (ix2 0 0) = la) :
    k0_pay3 (F := Ideal) x3 x0 (ix2 p q) = dK A la r := by
  rw [r0_d_apply, h3, Finset.sum_congr rfl (fun k _ => h0 k)]
  rfl

/-- The projection payload in the shape of the specification: row p of the input block is row r of the inputs, the
    weights' block is the weights. -/
theorem r0_proj_block (x3 : Vec Ideal S1x1 .f32) (x0 : Vec Ideal S256x4096 .f32) (x1 : FVec Ideal S256x128 .f32)
    (x2 : FVec Ideal S128x256 .f32) (A : Mx 4096 4096) (la : EReal) (XS : Mx 4096 128) (W : Mx 128 256)
    (r : Fin 4096) (p q : Fin 256) (h0 : ∀ k : Fin 4096, x0 (ix2 p k) = A r k) (h3 : x3 (ix2 0 0) = la)
    (h1 : ∀ k : Fin 128, x1 (ix2 p k) = XS r k) (h2 : ∀ k : Fin 128, x2 (ix2 k q) = W k q) :
    k0_pay4 (F := Ideal) x3 x0 x1 x2 (ix2 p q) = dxwK (dK A la) XS W r q := by
  rw [r0_proj_apply, r0_d_block x3 x0 A la r p 0 h0 h3, Finset.sum_congr rfl (fun k _ => by rw [h1 k, h2 k])]
  rfl

/-! ## From blocks to the arrays -/

theorem r0_hz : (![0, 0] : Fin 2 → Nat) = fun _ => 0 := funext fun a => by fin_cases a <;> rfl

/-- The block indices over the grid: a row-blocked window's block at point t is block t of its rows and the only block
    of its columns; a full window's is its only block. -/
theorem r0_idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- What point t writes back to the adjacency's copy: rows 256 t … 256 t + 255 of the raw adjacency. -/
theorem r0_flushed4 (V : Cont) (c : Dev nD) (t : Fin cfg0.N) :
    (dat0 (F := Ideal) V c).flushed 4 t
      = ((cfg0.win 4).blk t).view.read (Elt Ideal) (fun i => V c main_call0_v1 i) := by
  show (cfg0.win 4).cut (grid0.coords t) ((dat0 (F := Ideal) V c).after 4 t) = _
  rw [after0_4]
  unfold out0_4
  rw [View.canon_unit_zero r0_hz]
  simp only [View.ld_unit_zero (S := S256x4096) r0_hz]
  obtain ⟨e00, e01, -, -, -, -, -, -, e40, e41, -⟩ := r0_idx t
  refine funext fun y => ?_
  show k0_pay2 (F := Ideal) (iblk0 V c 0 t) y = V c main_call0_v1 (((cfg0.win 4).blk t).view.emb y)
  refine (r0_copy_apply (iblk0 V c 0 t) y).trans ?_
  show V c main_call0_v1 (((cfg0.win 0).blk t).view.emb y) = V c main_call0_v1 (((cfg0.win 4).blk t).view.emb y)
  refine congrArg (V c main_call0_v1) (funext fun a => Fin.ext ?_)
  match a with
  | ⟨0, _⟩ => show win0_0.index t (0 : Fin 2) * 256 + 1 * (y 0).val = win0_4.index t (0 : Fin 2) * 256 + 1 * (y 0).val; omega
  | ⟨1, _⟩ => show win0_0.index t (1 : Fin 2) * 4096 + 1 * (y 1).val = win0_4.index t (1 : Fin 2) * 4096 + 1 * (y 1).val; omega

/-- What point t writes back to the normalizer column: rows 256 t … 256 t + 255 of the normalizer of the raw adjacency. -/
theorem r0_flushed5 (V : Cont) (c : Dev nD) (t : Fin cfg0.N) :
    (dat0 (F := Ideal) V c).flushed 5 t
      = ((cfg0.win 5).blk t).view.read (Elt Ideal) (fun i => dK (adjOf V c) (laOf V c) (i 0)) := by
  show (cfg0.win 5).cut (grid0.coords t) ((dat0 (F := Ideal) V c).after 5 t) = _
  rw [after0_5]
  unfold out0_5
  rw [View.canon_unit_zero r0_hz]
  simp only [View.ld_unit_zero (S := S1x1) r0_hz, View.ld_unit_zero (S := S256x4096) r0_hz]
  obtain ⟨e00, e01, -, -, -, -, e30, e31, -, -, e50, e51, -⟩ := r0_idx t
  refine funext fun y => ?_
  obtain ⟨p, q, rfl⟩ : ∃ (p : Fin 256) (q : Fin 1), y = ix2 p q := ⟨y 0, y 1, eq_ix2 y⟩
  show k0_pay3 (F := Ideal) (iblk0 V c 3 t) (iblk0 V c 0 t) (ix2 p q)
    = dK (adjOf V c) (laOf V c) ((((cfg0.win 5).blk t).view.emb (ix2 p q)) 0)
  refine r0_d_block (iblk0 V c 3 t) (iblk0 V c 0 t) (adjOf V c) (laOf V c)
    ((((cfg0.win 5).blk t).view.emb (ix2 p q)) 0) p q (fun k => ?_) ?_
  · show V c main_call0_v1 (((cfg0.win 0).blk t).view.emb (ix2 p k))
      = V c main_call0_v1 (ix2 ((((cfg0.win 5).blk t).view.emb (ix2 p q)) 0) k)
    refine congrArg (V c main_call0_v1) (funext fun a => Fin.ext ?_)
    match a with
    | ⟨0, _⟩ => show win0_0.index t (0 : Fin 2) * 256 + 1 * p.val = win0_5.index t (0 : Fin 2) * 256 + 1 * p.val; omega
    | ⟨1, _⟩ => show win0_0.index t (1 : Fin 2) * 4096 + 1 * k.val = k.val; omega
  · show V c main_call0_v2 (((cfg0.win 3).blk t).view.emb (ix2 0 0)) = V c main_call0_v2 (ix2 0 0)
    refine congrArg (V c main_call0_v2) (funext fun a => Fin.ext ?_)
    match a with
    | ⟨0, _⟩ => show win0_3.index t (0 : Fin 2) * 1 + 1 * 0 = 0; omega
    | ⟨1, _⟩ => show win0_3.index t (1 : Fin 2) * 1 + 1 * 0 = 0; omega

/-- What point t writes back to the projection: rows 256 t … 256 t + 255 of the scaled input projection. -/
theorem r0_flushed6 (V : Cont) (c : Dev nD) (t : Fin cfg0.N) :
    (dat0 (F := Ideal) V c).flushed 6 t
      = ((cfg0.win 6).blk t).view.read (Elt Ideal) (fun i => dxwK (dK (adjOf V c) (laOf V c))
          (fun i q => V c main_call0_v0 (ix2 i q)) (fun q j => V c main_call0_v3 (ix2 q j)) (i 0) (i 1)) := by
  show (cfg0.win 6).cut (grid0.coords t) ((dat0 (F := Ideal) V c).after 6 t) = _
  rw [after0_6]
  unfold out0_6
  rw [View.canon_unit_zero r0_hz]
  simp only [View.ld_unit_zero (S := S1x1) r0_hz, View.ld_unit_zero (S := S256x4096) r0_hz,
    View.ld_unit_zero (S := S256x128) r0_hz, View.ld_unit_zero (S := S128x256) r0_hz]
  obtain ⟨e00, e01, e10, e11, e20, e21, e30, e31, -, -, -, -, e60, e61⟩ := r0_idx t
  refine funext fun y => ?_
  obtain ⟨p, q, rfl⟩ : ∃ (p : Fin 256) (q : Fin 256), y = ix2 p q := ⟨y 0, y 1, eq_ix2 y⟩
  show k0_pay4 (F := Ideal) (iblk0 V c 3 t) (iblk0 V c 0 t) (iblk0 V c 1 t) (iblk0 V c 2 t) (ix2 p q)
    = dxwK (dK (adjOf V c) (laOf V c)) (fun i q => V c main_call0_v0 (ix2 i q)) (fun q j => V c main_call0_v3 (ix2 q j))
        ((((cfg0.win 6).blk t).view.emb (ix2 p q)) 0) ((((cfg0.win 6).blk t).view.emb (ix2 p q)) 1)
  have hq : (((cfg0.win 6).blk t).view.emb (ix2 p q)) 1 = q := Fin.ext (by
    show win0_6.index t (1 : Fin 2) * 256 + 1 * q.val = q.val; omega)
  rw [hq]
  refine r0_proj_block (iblk0 V c 3 t) (iblk0 V c 0 t) (iblk0 V c 1 t) (iblk0 V c 2 t) (adjOf V c) (laOf V c)
    (fun i q => V c main_call0_v0 (ix2 i q)) (fun q j => V c main_call0_v3 (ix2 q j))
    ((((cfg0.win 6).blk t).view.emb (ix2 p q)) 0) p q (fun k => ?_) ?_ (fun k => ?_) (fun k => ?_)
  · show V c main_call0_v1 (((cfg0.win 0).blk t).view.emb (ix2 p k))
      = V c main_call0_v1 (ix2 ((((cfg0.win 6).blk t).view.emb (ix2 p q)) 0) k)
    refine congrArg (V c main_call0_v1) (funext fun a => Fin.ext ?_)
    match a with
    | ⟨0, _⟩ => show win0_0.index t (0 : Fin 2) * 256 + 1 * p.val = win0_6.index t (0 : Fin 2) * 256 + 1 * p.val; omega
    | ⟨1, _⟩ => show win0_0.index t (1 : Fin 2) * 4096 + 1 * k.val = k.val; omega
  · show V c main_call0_v2 (((cfg0.win 3).blk t).view.emb (ix2 0 0)) = V c main_call0_v2 (ix2 0 0)
    refine congrArg (V c main_call0_v2) (funext fun a => Fin.ext ?_)
    match a with
    | ⟨0, _⟩ => show win0_3.index t (0 : Fin 2) * 1 + 1 * 0 = 0; omega
    | ⟨1, _⟩ => show win0_3.index t (1 : Fin 2) * 1 + 1 * 0 = 0; omega
  · show V c main_call0_v0 (((cfg0.win 1).blk t).view.emb (ix2 p k))
      = V c main_call0_v0 (ix2 ((((cfg0.win 6).blk t).view.emb (ix2 p q)) 0) k)
    refine congrArg (V c main_call0_v0) (funext fun a => Fin.ext ?_)
    match a with
    | ⟨0, _⟩ => show win0_1.index t (0 : Fin 2) * 256 + 1 * p.val = win0_6.index t (0 : Fin 2) * 256 + 1 * p.val; omega
    | ⟨1, _⟩ => show win0_1.index t (1 : Fin 2) * 128 + 1 * k.val = k.val; omega
  · show V c main_call0_v3 (((cfg0.win 2).blk t).view.emb (ix2 k q)) = V c main_call0_v3 (ix2 k q)
    refine congrArg (V c main_call0_v3) (funext fun a => Fin.ext ?_)
    match a with
    | ⟨0, _⟩ => show win0_2.index t (0 : Fin 2) * 128 + 1 * k.val = k.val; omega
    | ⟨1, _⟩ => show win0_2.index t (1 : Fin 2) * 256 + 1 * q.val = q.val; omega

/-- An index of window 4's array is in point t's block iff each coordinate is in the block's range on its axis. -/
theorem r0_mem_blk4 (t : Fin cfg0.N) (i : S4096x4096.Idx) :
    i ∈ ((cfg0.win 4).blk t).view.set ↔ ∀ a : Fin 2, win0_4.index t a * S256x4096.size a ≤ (i a).val
      ∧ (i a).val < win0_4.index t a * S256x4096.size a + S256x4096.size a := by
  show i ∈ ((View.whole main_call0_v19_0).slice (win0_4.rect t)).set ↔ _
  rw [View.set_slice_whole, Rect.mem_set_unit]
  exact Iff.rfl

/-- Row r of window 4's array is written back by the point r / 256. -/
theorem r0_cover4 (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  have ht : (i 0).val / 256 < cfg0.N := by rw [show cfg0.N = 16 from N_0]; omega
  refine ⟨⟨(i 0).val / 256, ht⟩, flush0_4 _, ?_⟩
  rw [r0_mem_blk4]
  obtain ⟨-, -, -, -, -, -, -, -, e40, e41, e50, e51, e60, e61⟩ := r0_idx ⟨(i 0).val / 256, ht⟩
  intro a
  match a with
  | ⟨0, _⟩ =>
    show win0_4.index ⟨(i 0).val / 256, ht⟩ (0 : Fin 2) * 256 ≤ (i 0).val
      ∧ (i 0).val < win0_4.index ⟨(i 0).val / 256, ht⟩ (0 : Fin 2) * 256 + 256
    rw [e40]
    show (i 0).val / 256 * 256 ≤ (i 0).val ∧ (i 0).val < (i 0).val / 256 * 256 + 256
    omega
  | ⟨1, _⟩ =>
    show win0_4.index ⟨(i 0).val / 256, ht⟩ (1 : Fin 2) * 4096 ≤ (i 1).val
      ∧ (i 1).val < win0_4.index ⟨(i 0).val / 256, ht⟩ (1 : Fin 2) * 4096 + 4096
    rw [e41]
    omega

/-- An index of window 5's array is in point t's block iff each coordinate is in the block's range on its axis. -/
theorem r0_mem_blk5 (t : Fin cfg0.N) (i : S4096x1.Idx) :
    i ∈ ((cfg0.win 5).blk t).view.set ↔ ∀ a : Fin 2, win0_5.index t a * S256x1.size a ≤ (i a).val
      ∧ (i a).val < win0_5.index t a * S256x1.size a + S256x1.size a := by
  show i ∈ ((View.whole main_call0_v19_1).slice (win0_5.rect t)).set ↔ _
  rw [View.set_slice_whole, Rect.mem_set_unit]
  exact Iff.rfl

/-- Row r of window 5's array is written back by the point r / 256. -/
theorem r0_cover5 (i : S4096x1.Idx) :
    ∃ t : Fin cfg0.N, (cfg0.win 5).flush t = true ∧ i ∈ ((cfg0.win 5).blk t).view.set := by
  have hi0 : (i 0).val < 4096 := (i 0).isLt
  have hi1 : (i 1).val < 1 := (i 1).isLt
  have ht : (i 0).val / 256 < cfg0.N := by rw [show cfg0.N = 16 from N_0]; omega
  refine ⟨⟨(i 0).val / 256, ht⟩, flush0_5 _, ?_⟩
  rw [r0_mem_blk5]
  obtain ⟨-, -, -, -, -, -, -, -, e40, e41, e50, e51, e60, e61⟩ := r0_idx ⟨(i 0).val / 256, ht⟩
  intro a
  match a with
  | ⟨0, _⟩ =>
    show win0_5.index ⟨(i 0).val / 256, ht⟩ (0 : Fin 2) * 256 ≤ (i 0).val
      ∧ (i 0).val < win0_5.index ⟨(i 0).val / 256, ht⟩ (0 : Fin 2) * 256 + 256
    rw [e50]
    show (i 0).val / 256 * 256 ≤ (i 0).val ∧ (i 0).val < (i 0).val / 256 * 256 + 256
    omega
  | ⟨1, _⟩ =>
    show win0_5.index ⟨(i 0).val / 256, ht⟩ (1 : Fin 2) * 1 ≤ (i 1).val
      ∧ (i 1).val < win0_5.index ⟨(i 0).val / 256, ht⟩ (1 : Fin 2) * 1 + 1
    rw [e51]
    omega

/-- An index of window 6's array is in point t's block iff each coordinate is in the block's range on its axis. -/
theorem r0_mem_blk6 (t : Fin cfg0.N) (i : S4096x256.Idx) :
    i ∈ ((cfg0.win 6).blk t).view.set ↔ ∀ a : Fin 2, win0_6.index t a * S256x256.size a ≤ (i a).val
      ∧ (i a).val < win0_6.index t a * S256x256.size a + S256x256.size a := by
  show i ∈ ((View.whole main_call0_v19_2).slice (win0_6.rect t)).set ↔ _
  rw [View.set_slice_whole, Rect.mem_set_unit]
  exact Iff.rfl

/-- Row r of window 6's array is written back by the point r / 256. -/
theorem r0_cover6 (i : S4096x256.Idx) :
    ∃ t : Fin cfg0.N, (cfg0.win 6).flush t = true ∧ i ∈ ((cfg0.win 6).blk t).view.set := by
  have hi0 : (i 0).val < 4096 := (i 0).isLt
  have hi1 : (i 1).val < 256 := (i 1).isLt
  have ht : (i 0).val / 256 < cfg0.N := by rw [show cfg0.N = 16 from N_0]; omega
  refine ⟨⟨(i 0).val / 256, ht⟩, flush0_6 _, ?_⟩
  rw [r0_mem_blk6]
  obtain ⟨-, -, -, -, -, -, -, -, e40, e41, e50, e51, e60, e61⟩ := r0_idx ⟨(i 0).val / 256, ht⟩
  intro a
  match a with
  | ⟨0, _⟩ =>
    show win0_6.index ⟨(i 0).val / 256, ht⟩ (0 : Fin 2) * 256 ≤ (i 0).val
      ∧ (i 0).val < win0_6.index ⟨(i 0).val / 256, ht⟩ (0 : Fin 2) * 256 + 256
    rw [e60]
    show (i 0).val / 256 * 256 ≤ (i 0).val ∧ (i 0).val < (i 0).val / 256 * 256 + 256
    omega
  | ⟨1, _⟩ =>
    show win0_6.index ⟨(i 0).val / 256, ht⟩ (1 : Fin 2) * 256 ≤ (i 1).val
      ∧ (i 1).val < win0_6.index ⟨(i 0).val / 256, ht⟩ (1 : Fin 2) * 256 + 256
    rw [e61]
    omega

/-! ## The three arrays after the pass -/

/-- The adjacency's copy is the raw adjacency. -/
theorem arr0_4 (V : Cont) (c : Dev nD) (r j : Fin 4096) :
    (dat0 (F := Ideal) V c).arrAt 4 cfg0.N (ix2 r j) = adjOf V c r j :=
  congrFun ((dat0 (F := Ideal) V c).arrAt_eq_of_cover 4 (fun i => V c main_call0_v1 i)
    (fun t _ => r0_flushed4 V c t) r0_cover4) (ix2 r j)

/-- The normalizer column is the normalizer of the raw adjacency and the self-loop weight. -/
theorem arr0_5 (V : Cont) (c : Dev nD) (r : Fin 4096) :
    (dat0 (F := Ideal) V c).arrAt 5 cfg0.N (ix2 r 0) = dK (adjOf V c) (laOf V c) r :=
  congrFun ((dat0 (F := Ideal) V c).arrAt_eq_of_cover 5 (fun i => dK (adjOf V c) (laOf V c) (i 0))
    (fun t _ => r0_flushed5 V c t) r0_cover5) (ix2 r 0)

/-- The projection is the normalizer times the inputs against the weights. -/
theorem arr0_6 (V : Cont) (c : Dev nD) (r : Fin 4096) (k : Fin 256) :
    (dat0 (F := Ideal) V c).arrAt 6 cfg0.N (ix2 r k)
      = dxwK (dK (adjOf V c) (laOf V c)) (fun i q => V c main_call0_v0 (ix2 i q)) (fun q j => V c main_call0_v3 (ix2 q j)) r k :=
  congrFun ((dat0 (F := Ideal) V c).arrAt_eq_of_cover 6 (fun i => dxwK (dK (adjOf V c) (laOf V c))
      (fun i q => V c main_call0_v0 (ix2 i q)) (fun q j => V c main_call0_v3 (ix2 q j)) (i 0) (i 1))
    (fun t _ => r0_flushed6 V c t) r0_cover6) (ix2 r k)

end Cert.KernelIdeal.Val

end
-- ==== Proof.R1Out.lean ====
/-
  The block one grid point of the first graph layer leaves in its output window: the single store of the body covers
  the whole block, so the block is the body's arithmetic applied to what the body loads — the adjacency rows, the whole
  projected input, that input's rows at the point's own row offset, the normalizer rows (loaded twice), the self-loop
  weight and the second projection.
-/
import proofs.«120297_g49246095016346_cont_8to1c4_490_5_alg».proof.Proof.ValDefs
import Idealize.ShloMosaic.Lib.Pipeline.Value
import Idealize.ShloMosaic.Lib.Tactic

noncomputable section

open Idealize.ShloMosaic Idealize.ShloMosaic.TcCoe Idealize.SL.Sem Idealize.ShloMosaic.ValueIdx
open Cert.Spec

namespace Cert.KernelIdeal.Val
open Cert.KernelIdeal Cert.KernelIdeal.Gen

variable {F : FTy → Type} [FloatOps F]

/-- The zero offsets of a whole-buffer rectangle. -/
theorem r1_hz : (![0, 0] : Fin 2 → Nat) = fun _ => 0 := funext fun a => by fin_cases a <;> rfl

/-- The block left in the output window is the body's arithmetic of its loads: every load but one reads a whole staging
    buffer; the remaining one reads 256 rows of the projected input starting at the point's row offset. -/
theorem r1_out_eq (c : Dev nD) (i : grid1.Coords) (arg1 : Memref sig .tc .vmem S256x4096 .bf16) (harg1 : arg1.IsWhole) (arg2 : Memref sig .tc .vmem S4096x256 .bf16) (harg2 : arg2.IsWhole) (arg3 : Memref sig .tc .vmem S256x1 .f32) (harg3 : arg3.IsWhole) (arg4 : Memref sig .tc .vmem S1x1 .f32) (harg4 : arg4.IsWhole) (arg5 : Memref sig .tc .vmem S256x256 .f32) (harg5 : arg5.IsWhole) (arg6 : Memref sig .tc .vmem S256x256 .bf16) (harg6 : arg6.IsWhole)
    (x0 : Vec F S256x4096 .bf16) (x1 : Vec F S4096x256 .bf16) (x2 : Vec F S256x1 .f32) (x3 : Vec F S1x1 .f32) (x4 : Vec F S256x256 .f32) :
    out1_A_5 c i arg1 harg1 arg2 harg2 arg3 harg3 arg4 harg4 arg5 harg5 arg6 harg6 x0 x1 x2 x3 x4
      = k1_pay1 x3 x0 x1 (View.ld x1 (Rect.unit (s := S4096x256) (k1_off1 i) S256x256.size (k1_off1_inb i))) x2 x2 x4 := by
  unfold out1_A_5
  rw [View.read_writes_eq_canon _ _ _ (cover1_A_5 c i arg1 harg1 arg2 harg2 arg3 harg3 arg4 harg4 arg5 harg5 arg6 harg6 x0 x1 x2 x3 x4)]
  unfold kernelRun1_A
  dsimp only
  rw [View.canon_unit_zero r1_hz]
  simp only [View.readAt_eq_ld, harg1.read_unread, harg2.read_unread, harg3.read_unread, harg4.read_unread, harg5.read_unread,
    View.ld_unit_zero (S := S1x1) r1_hz, View.ld_unit_zero (S := S256x4096) r1_hz, View.ld_unit_zero (S := S4096x256) r1_hz,
    View.ld_unit_zero (S := S256x1) r1_hz, View.ld_unit_zero (S := S256x256) r1_hz]

end Cert.KernelIdeal.Val

end
-- ==== Proof.R1Pay.lean ====
/-
  The arithmetic of one block of the first graph layer, read entry by entry over the extended reals: the product of the
  256 adjacency rows with the whole projected input, plus the self-loop weight times that input's own rows, scaled row
  by row by the normalizer, rectified, multiplied by the second projection, and scaled by the normalizer again.
  Format changes are the identity here and both products run into a zero accumulator, so each is a plain sum over the
  contracted coordinate.
-/
import proofs.«120297_g49246095016346_cont_8to1c4_490_5_alg».proof.Proof.ValDefs
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Cert.Spec

namespace Cert.KernelIdeal.Val
open Cert.KernelIdeal Cert.KernelIdeal.Gen

/-- A column `[a,1]` broadcast along the second axis reads, at `(p, q)`, the column's entry of row `p`. -/
theorem r1_bcast_col {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The one entry of a `[1,1]` array. -/
theorem r1_extract (v : (⟨2, ![1, 1]⟩ : Shape).Idx → EReal) (h : ∀ a, (![0, 0] : Fin 2 → Nat) a < (⟨2, ![1, 1]⟩ : Shape).size a) :
    extractAt ![0, 0] v h = v (ix2 (0 : Fin 1) (0 : Fin 1)) := by
  unfold extractAt
  refine congrArg v (funext fun a => Fin.ext ?_)
  match a with
  | ⟨0, _⟩ => rfl
  | ⟨1, _⟩ => rfl

/-! The coordinates the two products read their operands at, for an output entry and a contracted coordinate. -/

theorem r1_adj_lhs0 (i : S256x256.Idx) (q : dot_S256x4096_S4096x256_S256x256_1_0_0_1_n_n.contr.Idx) : (dot_S256x4096_S4096x256_S256x256_1_0_0_1_n_n.lhsIdx i q 0).val = (i 0).val := by
  unfold DotDims.lhsIdx
  rw [dif_neg (show ¬(0 : Fin S256x4096.rank) ∈ dot_S256x4096_S4096x256_S256x256_1_0_0_1_n_n.lhsBatch by decide), dif_pos (show (0 : Fin S256x4096.rank) ∈ dot_S256x4096_S4096x256_S256x256_1_0_0_1_n_n.lhsNonContracting by decide)]
  rfl
theorem r1_adj_lhs1 (i : S256x256.Idx) (q : dot_S256x4096_S4096x256_S256x256_1_0_0_1_n_n.contr.Idx) : (dot_S256x4096_S4096x256_S256x256_1_0_0_1_n_n.lhsIdx i q 1).val = (q ⟨0, by decide⟩).val :=
  dot_S256x4096_S4096x256_S256x256_1_0_0_1_n_n.lhsIdx_val_of_single rfl i q
theorem r1_adj_rhs0 (i : S256x256.Idx) (q : dot_S256x4096_S4096x256_S256x256_1_0_0_1_n_n.contr.Idx) : (dot_S256x4096_S4096x256_S256x256_1_0_0_1_n_n.rhsIdx i q 0).val = (q ⟨0, by decide⟩).val :=
  dot_S256x4096_S4096x256_S256x256_1_0_0_1_n_n.rhsIdx_val_of_single rfl i q
theorem r1_adj_rhs1 (i : S256x256.Idx) (q : dot_S256x4096_S4096x256_S256x256_1_0_0_1_n_n.contr.Idx) : (dot_S256x4096_S4096x256_S256x256_1_0_0_1_n_n.rhsIdx i q 1).val = (i 1).val := by
  unfold DotDims.rhsIdx
  rw [dif_neg (show ¬(1 : Fin S4096x256.rank) ∈ dot_S256x4096_S4096x256_S256x256_1_0_0_1_n_n.rhsBatch by decide), dif_pos (show (1 : Fin S4096x256.rank) ∈ dot_S256x4096_S4096x256_S256x256_1_0_0_1_n_n.rhsNonContracting by decide)]
  rfl

/-- The adjacency product: rows of 4096 against 4096 rows, into a zero accumulator, is the sum over the shared coordinate. -/
theorem r1_mm_adj (A : FVec Ideal S256x4096 .bf16) (B : FVec Ideal S4096x256 .bf16) (p k : Fin 256) :
    matmul dot_S256x4096_S4096x256_S256x256_1_0_0_1_n_n none A B (constant (F := Ideal) S256x256 .f32 0x00000000#32) (ix2 p k)
      = ∑ j : Fin 4096, A (ix2 p j) * B (ix2 j k) := by
  refine (Ideal.matmul_constant_zero_apply dot_S256x4096_S4096x256_S256x256_1_0_0_1_n_n none A B (ix2 p k)).trans ?_
  rw [← Equiv.sum_comp (ValueIdx.contrEquiv1 dot_S256x4096_S4096x256_S256x256_1_0_0_1_n_n 4096 rfl rfl).symm]
  refine Finset.sum_congr rfl fun j _ => ?_
  have hk := ValueIdx.contrEquiv1_symm_val dot_S256x4096_S4096x256_S256x256_1_0_0_1_n_n 4096 rfl rfl j
  have el : dot_S256x4096_S4096x256_S256x256_1_0_0_1_n_n.lhsIdx (ix2 p k) ((ValueIdx.contrEquiv1 dot_S256x4096_S4096x256_S256x256_1_0_0_1_n_n 4096 rfl rfl).symm j) = ix2 p j := funext fun a => Fin.ext (by
    match a with
    | ⟨0, _⟩ => exact r1_adj_lhs0 _ _
    | ⟨1, _⟩ => exact (r1_adj_lhs1 _ _).trans hk)
  have er : dot_S256x4096_S4096x256_S256x256_1_0_0_1_n_n.rhsIdx (ix2 p k) ((ValueIdx.contrEquiv1 dot_S256x4096_S4096x256_S256x256_1_0_0_1_n_n 4096 rfl rfl).symm j) = ix2 j k := funext fun a => Fin.ext (by
    match a with
    | ⟨0, _⟩ => exact (r1_adj_rhs0 _ _).trans hk
    | ⟨1, _⟩ => exact r1_adj_rhs1 _ _)
  rw [el, er]

theorem r1_proj_lhs0 (i : S256x256.Idx) (q : dot_S256x256_S256x256_S256x256_1_0_0_1_n_n.contr.Idx) : (dot_S256x256_S256x256_S256x256_1_0_0_1_n_n.lhsIdx i q 0).val = (i 0).val := by
  unfold DotDims.lhsIdx
  rw [dif_neg (show ¬(0 : Fin S256x256.rank) ∈ dot_S256x256_S256x256_S256x256_1_0_0_1_n_n.lhsBatch by decide), dif_pos (show (0 : Fin S256x256.rank) ∈ dot_S256x256_S256x256_S256x256_1_0_0_1_n_n.lhsNonContracting by decide)]
  rfl
theorem r1_proj_lhs1 (i : S256x256.Idx) (q : dot_S256x256_S256x256_S256x256_1_0_0_1_n_n.contr.Idx) : (dot_S256x256_S256x256_S256x256_1_0_0_1_n_n.lhsIdx i q 1).val = (q ⟨0, by decide⟩).val :=
  dot_S256x256_S256x256_S256x256_1_0_0_1_n_n.lhsIdx_val_of_single rfl i q
theorem r1_proj_rhs0 (i : S256x256.Idx) (q : dot_S256x256_S256x256_S256x256_1_0_0_1_n_n.contr.Idx) : (dot_S256x256_S256x256_S256x256_1_0_0_1_n_n.rhsIdx i q 0).val = (q ⟨0, by decide⟩).val :=
  dot_S256x256_S256x256_S256x256_1_0_0_1_n_n.rhsIdx_val_of_single rfl i q
theorem r1_proj_rhs1 (i : S256x256.Idx) (q : dot_S256x256_S256x256_S256x256_1_0_0_1_n_n.contr.Idx) : (dot_S256x256_S256x256_S256x256_1_0_0_1_n_n.rhsIdx i q 1).val = (i 1).val := by
  unfold DotDims.rhsIdx
  rw [dif_neg (show ¬(1 : Fin S256x256.rank) ∈ dot_S256x256_S256x256_S256x256_1_0_0_1_n_n.rhsBatch by decide), dif_pos (show (1 : Fin S256x256.rank) ∈ dot_S256x256_S256x256_S256x256_1_0_0_1_n_n.rhsNonContracting by decide)]
  rfl

/-- The second projection: 256 against 256, into a zero accumulator, is the sum over the shared coordinate. -/
theorem r1_mm_proj (A : FVec Ideal S256x256 .f32) (B : FVec Ideal S256x256 .f32) (p k : Fin 256) :
    matmul dot_S256x256_S256x256_S256x256_1_0_0_1_n_n none A B (constant (F := Ideal) S256x256 .f32 0x00000000#32) (ix2 p k)
      = ∑ j : Fin 256, A (ix2 p j) * B (ix2 j k) := by
  refine (Ideal.matmul_constant_zero_apply dot_S256x256_S256x256_S256x256_1_0_0_1_n_n none A B (ix2 p k)).trans ?_
  rw [← Equiv.sum_comp (ValueIdx.contrEquiv1 dot_S256x256_S256x256_S256x256_1_0_0_1_n_n 256 rfl rfl).symm]
  refine Finset.sum_congr rfl fun j _ => ?_
  have hk := ValueIdx.contrEquiv1_symm_val dot_S256x256_S256x256_S256x256_1_0_0_1_n_n 256 rfl rfl j
  have el : dot_S256x256_S256x256_S256x256_1_0_0_1_n_n.lhsIdx (ix2 p k) ((ValueIdx.contrEquiv1 dot_S256x256_S256x256_S256x256_1_0_0_1_n_n 256 rfl rfl).symm j) = ix2 p j := funext fun a => Fin.ext (by
    match a with
    | ⟨0, _⟩ => exact r1_proj_lhs0 _ _
    | ⟨1, _⟩ => exact (r1_proj_lhs1 _ _).trans hk)
  have er : dot_S256x256_S256x256_S256x256_1_0_0_1_n_n.rhsIdx (ix2 p k) ((ValueIdx.contrEquiv1 dot_S256x256_S256x256_S256x256_1_0_0_1_n_n 256 rfl rfl).symm j) = ix2 j k := funext fun a => Fin.ext (by
    match a with
    | ⟨0, _⟩ => exact (r1_proj_rhs0 _ _).trans hk
    | ⟨1, _⟩ => exact r1_proj_rhs1 _ _)
  rw [el, er]

/-- One block of the layer at row `p`, column `k`: the normalizer of the row times the sum over `q` of the rectified,
    normalized adjacency product (with the self loop's share) times the projection's entry `(q, k)`. -/
theorem r1_pay_apply (v0 : Vec Ideal S1x1 .f32) (v2 : Vec Ideal S256x4096 .bf16) (v4 : Vec Ideal S4096x256 .bf16)
    (v9 : Vec Ideal S256x256 .bf16) (v15 v21 : Vec Ideal S256x1 .f32) (v23 : Vec Ideal S256x256 .f32) (p k : Fin 256) :
    k1_pay1 v0 v2 v4 v9 v15 v21 v23 (ix2 p k)
      = v21 (ix2 p (0 : Fin 1)) * ∑ q : Fin 256,
          max (v15 (ix2 p (0 : Fin 1)) * ((∑ j : Fin 4096, v2 (ix2 p j) * v4 (ix2 j q)) + v0 (ix2 (0 : Fin 1) (0 : Fin 1)) * v9 (ix2 p q))) 0
            * v23 (ix2 q k) := by
  unfold k1_pay1
  simp only [shapeCast_self]
  refine (congrArg₂ (· * ·) (r1_bcast_col v21 _ p k) (r1_mm_proj _ v23 p k)).trans ?_
  refine congrArg (v21 (ix2 p (0 : Fin 1)) * ·) (Finset.sum_congr rfl fun q _ => ?_)
  refine congrArg (· * v23 (ix2 q k)) ?_
  exact congrArg₂ max (congrArg₂ (· * ·) (r1_bcast_col v15 _ p q)
    (congrArg₂ (· + ·) (r1_mm_adj v2 v4 p q) (congrArg (· * v9 (ix2 p q)) (r1_extract v0 _)))) Ideal.ofBits_zero_f32

end Cert.KernelIdeal.Val

end
-- ==== Proof.R1Arr.lean ====
/-
  The first graph layer's output array after its 16 grid points. Point `t` holds rows `256 t … 256 t + 255`: it reads
  those rows of the adjacency copy and of the normalizer, the whole projected input, the self-loop weight and the second
  projection, and — through a rectangle at row offset `256 t` — the same rows of the projected input again, so the
  self loop's share of an output row is taken at that row itself. What each point writes back is therefore its block of
  one function of the region's entry contents, and the 16 blocks tile the 4096 rows.
-/
import proofs.«120297_g49246095016346_cont_8to1c4_490_5_alg».proof.Proof.ValDefs
import proofs.«120297_g49246095016346_cont_8to1c4_490_5_alg».proof.Proof.R1Out
import proofs.«120297_g49246095016346_cont_8to1c4_490_5_alg».proof.Proof.R1Pay
import Idealize.ShloMosaic.Lib.Pipeline.Value
import Idealize.ShloMosaic.Lib.ValueIdx

noncomputable section

open Idealize.ShloMosaic Idealize.ShloMosaic.TcCoe Idealize.SL.Sem Idealize.ShloMosaic.ValueIdx
open Cert.Spec

namespace Cert.KernelIdeal.Val
open Cert.KernelIdeal Cert.KernelIdeal.Gen

/-- The block indices of the six windows and the row offset of the slab load, at every grid point: the row-blocked
    windows sit at block `t` of axis 0, the full windows at block 0, and the slab starts at row `256 t`. -/
theorem r1_idx : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ k1_off1 (grid1.coords t) (0 : Fin 2) = 256 * t.val ∧ k1_off1 (grid1.coords t) (1 : Fin 2) = 0 :=
  (by decide +kernel : ∀ t : Fin grid1.N, _)

variable (V : Cont) (c : Dev nD)

/-- Rows `256 t + p` of the adjacency copy. -/
theorem r1_blk0 (t : Fin cfg1.N) (p : Fin 256) (j : Fin 4096) (r : Fin 4096) (hr : r.val = 256 * t.val + p.val) :
    (iblk1 (F := Ideal) V c 0 t : Vec Ideal S256x4096 .bf16) (ix2 p j) = V c main_call0_v19_0 (ix2 r j) := by
  unfold iblk1
  rw [View.read_apply]
  show V c main_call0_v19_0 _ = V c main_call0_v19_0 _
  refine congrArg (V c main_call0_v19_0) (funext fun a => Fin.ext ?_)
  obtain ⟨e0, e1, -⟩ := r1_idx t
  match a with
  | ⟨0, _⟩ => show win1_0.index t 0 * 256 + 1 * p.val = r.val; rw [e0, hr]; omega
  | ⟨1, _⟩ => show win1_0.index t 1 * 4096 + 1 * j.val = j.val; rw [e1]; omega

/-- The whole projected input, at every point. -/
theorem r1_blk1 (t : Fin cfg1.N) (i : S4096x256.Idx) :
    (iblk1 (F := Ideal) V c 1 t : Vec Ideal S4096x256 .bf16) i = V c main_call0_v19_2 i := by
  unfold iblk1
  rw [View.read_apply]
  show V c main_call0_v19_2 _ = V c main_call0_v19_2 _
  refine congrArg (V c main_call0_v19_2) (funext fun a => Fin.ext ?_)
  obtain ⟨-, -, e0, e1, -⟩ := r1_idx t
  match a with
  | ⟨0, _⟩ => show win1_1.index t 0 * 4096 + 1 * (i 0).val = (i 0).val; rw [e0]; omega
  | ⟨1, _⟩ => show win1_1.index t 1 * 256 + 1 * (i 1).val = (i 1).val; rw [e1]; omega

/-- Rows `256 t + p` of the normalizer column. -/
theorem r1_blk2 (t : Fin cfg1.N) (p : Fin 256) (r : Fin 4096) (hr : r.val = 256 * t.val + p.val) :
    (iblk1 (F := Ideal) V c 2 t : Vec Ideal S256x1 .f32) (ix2 p (0 : Fin 1)) = V c main_call0_v19_1 (ix2 r (0 : Fin 1)) := by
  unfold iblk1
  rw [View.read_apply]
  show V c main_call0_v19_1 _ = V c main_call0_v19_1 _
  refine congrArg (V c main_call0_v19_1) (funext fun a => Fin.ext ?_)
  obtain ⟨-, -, -, -, e0, e1, -⟩ := r1_idx t
  match a with
  | ⟨0, _⟩ => show win1_2.index t 0 * 256 + 1 * p.val = r.val; rw [e0, hr]; omega
  | ⟨1, _⟩ => show win1_2.index t 1 * 1 + 1 * 0 = 0; rw [e1]

/-- The self-loop weight, at every point. -/
theorem r1_blk3 (t : Fin cfg1.N) :
    (iblk1 (F := Ideal) V c 3 t : Vec Ideal S1x1 .f32) (ix2 (0 : Fin 1) (0 : Fin 1)) = V c main_call0_v2 (ix2 (0 : Fin 1) (0 : Fin 1)) := by
  unfold iblk1
  rw [View.read_apply]
  show V c main_call0_v2 _ = V c main_call0_v2 _
  refine congrArg (V c main_call0_v2) (funext fun a => Fin.ext ?_)
  obtain ⟨-, -, -, -, -, -, e0, e1, -⟩ := r1_idx t
  match a with
  | ⟨0, _⟩ => show win1_3.index t 0 * 1 + 1 * 0 = 0; rw [e0]
  | ⟨1, _⟩ => show win1_3.index t 1 * 1 + 1 * 0 = 0; rw [e1]

/-- The second projection, at every point. -/
theorem r1_blk4 (t : Fin cfg1.N) (q k : Fin 256) :
    (iblk1 (F := Ideal) V c 4 t : Vec Ideal S256x256 .f32) (ix2 q k) = V c main_call0_v7 (ix2 q k) := by
  unfold iblk1
  rw [View.read_apply]
  show V c main_call0_v7 _ = V c main_call0_v7 _
  refine congrArg (V c main_call0_v7) (funext fun a => Fin.ext ?_)
  obtain ⟨-, -, -, -, -, -, -, -, e0, e1, -⟩ := r1_idx t
  match a with
  | ⟨0, _⟩ => show win1_4.index t 0 * 256 + 1 * q.val = q.val; rw [e0]; omega
  | ⟨1, _⟩ => show win1_4.index t 1 * 256 + 1 * k.val = k.val; rw [e1]; omega

/-- The slab: row `p` of the 256 rows loaded at the point's row offset is row `256 t + p` of the projected input. -/
theorem r1_slab (t : Fin cfg1.N) (p q : Fin 256) (r : Fin 4096) (hr : r.val = 256 * t.val + p.val) :
    View.ld (iblk1 (F := Ideal) V c 1 t : Vec Ideal S4096x256 .bf16)
        (Rect.unit (s := S4096x256) (k1_off1 (grid1.coords t)) S256x256.size (k1_off1_inb (grid1.coords t))) (ix2 p q)
      = V c main_call0_v19_2 (ix2 r q) := by
  show (iblk1 (F := Ideal) V c 1 t : Vec Ideal S4096x256 .bf16)
      ((Rect.unit (s := S4096x256) (k1_off1 (grid1.coords t)) S256x256.size (k1_off1_inb (grid1.coords t))).idx (ix2 p q)) = _
  refine (r1_blk1 V c t _).trans (congrArg (V c main_call0_v19_2) (funext fun a => Fin.ext ?_))
  obtain ⟨-, -, -, -, -, -, -, -, -, -, -, -, e0, e1⟩ := r1_idx t
  match a with
  | ⟨0, _⟩ => show k1_off1 (grid1.coords t) 0 + 1 * p.val = r.val; rw [e0, hr]; omega
  | ⟨1, _⟩ => show k1_off1 (grid1.coords t) 1 + 1 * q.val = q.val; rw [e1]; omega

/-- Point `t`'s block at `(p, k)` is the layer at row `256 t + p`, column `k`. -/
theorem r1_point (t : Fin cfg1.N) (p k : Fin 256) (r : Fin 4096) (hr : r.val = 256 * t.val + p.val) :
    k1_pay1 (iblk1 (F := Ideal) V c 3 t) (iblk1 (F := Ideal) V c 0 t) (iblk1 (F := Ideal) V c 1 t) (View.ld (iblk1 (F := Ideal) V c 1 t) (Rect.unit (s := S4096x256) (k1_off1 (grid1.coords t)) S256x256.size (k1_off1_inb (grid1.coords t)))) (iblk1 (F := Ideal) V c 2 t) (iblk1 (F := Ideal) V c 2 t) (iblk1 (F := Ideal) V c 4 t) (ix2 p k)
      = layer1K (abfOf V c) (laOf V c) (dOf V c) (fun i q => V c main_call0_v19_2 (ix2 i q)) (fun q j => V c main_call0_v7 (ix2 q j)) r k := by
  refine (r1_pay_apply (iblk1 (F := Ideal) V c 3 t) (iblk1 (F := Ideal) V c 0 t) (iblk1 (F := Ideal) V c 1 t) (View.ld (iblk1 (F := Ideal) V c 1 t) (Rect.unit (s := S4096x256) (k1_off1 (grid1.coords t)) S256x256.size (k1_off1_inb (grid1.coords t)))) (iblk1 (F := Ideal) V c 2 t) (iblk1 (F := Ideal) V c 2 t) (iblk1 (F := Ideal) V c 4 t) p k).trans ?_
  show _ = dOf V c r * ∑ q : Fin 256,
      max (dOf V c r * ((∑ j : Fin 4096, abfOf V c r j * V c main_call0_v19_2 (ix2 j q)) + laOf V c * V c main_call0_v19_2 (ix2 r q))) 0
        * V c main_call0_v7 (ix2 q k)
  refine congrArg₂ (· * ·) (r1_blk2 V c t p r hr) (Finset.sum_congr rfl fun q _ => ?_)
  refine congrArg₂ (· * ·) (congrArg₂ max (congrArg₂ (· * ·) (r1_blk2 V c t p r hr)
    (congrArg₂ (· + ·) (Finset.sum_congr rfl fun j _ => congrArg₂ (· * ·) (r1_blk0 V c t p j r hr) (r1_blk1 V c t (ix2 j q)))
      (congrArg₂ (· * ·) (r1_blk3 V c t) (r1_slab V c t p q r hr)))) rfl) (r1_blk4 V c t q k)

/-- The layer as the contents of the whole output array. -/
def r1_G : S4096x256.Idx → EReal := fun i =>
  layer1K (abfOf V c) (laOf V c) (dOf V c) (fun i q => V c main_call0_v19_2 (ix2 i q)) (fun q j => V c main_call0_v7 (ix2 q j)) (i 0) (i 1)

/-- What point `t` writes back is block `t` of the layer. -/
theorem r1_flushed (t : Fin cfg1.N) :
    (dat1 (F := Ideal) V c).flushed 5 t = ((cfg1.win 5).blk t).view.read (Elt Ideal) (r1_G V c) := by
  show (cfg1.win 5).cut (grid1.coords t) ((dat1 (F := Ideal) V c).after 5 t) = _
  rw [after1_5]
  unfold outsAt1
  rw [r1_out_eq]
  funext y
  obtain ⟨p, k, rfl⟩ : ∃ (p k : Fin 256), y = ix2 p k := ⟨y 0, y 1, eq_ix2 y⟩
  have hN : cfg1.N = 16 := N_1
  have ht : t.val < 16 := hN ▸ t.isLt
  refine (r1_point V c t p k ⟨256 * t.val + p.val, by have := p.isLt; omega⟩ rfl).trans ?_
  rw [View.read_apply]
  show _ = r1_G V c _
  unfold r1_G
  obtain ⟨-, -, -, -, -, -, -, -, -, -, e0, e1, -⟩ := r1_idx t
  refine congrArg₂ (layer1K (abfOf V c) (laOf V c) (dOf V c) (fun i q => V c main_call0_v19_2 (ix2 i q)) (fun q j => V c main_call0_v7 (ix2 q j))) (Fin.ext ?_) (Fin.ext ?_)
  · show 256 * t.val + p.val = win1_5.index t 0 * 256 + 1 * p.val; rw [e0]; omega
  · show k.val = win1_5.index t 1 * 256 + 1 * k.val; rw [e1]; omega

/-- An entry of the array is in point `t`'s block iff each coordinate is in the block's range on its axis. -/
theorem r1_mem_blk (t : Fin cfg1.N) (i : S4096x256.Idx) :
    i ∈ ((cfg1.win 5).blk t).view.set ↔ ∀ a : Fin 2, win1_5.index t a * S256x256.size a ≤ (i a).val ∧ (i a).val < win1_5.index t a * S256x256.size a + S256x256.size a := by
  show i ∈ ((View.whole main_call0_v20).slice (win1_5.rect t)).set ↔ _
  rw [View.set_slice_whole, Rect.mem_set_unit]
  exact Iff.rfl

/-- Row `r` is written back by point `r / 256`. -/
theorem r1_cover (i : S4096x256.Idx) :
    ∃ t : Fin cfg1.N, (cfg1.win 5).flush t = true ∧ i ∈ ((cfg1.win 5).blk t).view.set := by
  have hi0 : (i 0).val < 4096 := idx2_lt0 i
  have hi1 : (i 1).val < 256 := idx2_lt1 i
  have hN : cfg1.N = 16 := N_1
  have hlt : (i 0).val / 256 < cfg1.N := by rw [hN]; omega
  refine ⟨⟨(i 0).val / 256, hlt⟩, flush1_5 _, ?_⟩
  rw [r1_mem_blk]
  obtain ⟨-, -, -, -, -, -, -, -, -, -, e0, e1, -⟩ := r1_idx ⟨(i 0).val / 256, hlt⟩
  have e0' : win1_5.index ⟨(i 0).val / 256, hlt⟩ 0 = (i 0).val / 256 := e0
  intro a
  match a with
  | ⟨0, _⟩ =>
    show win1_5.index ⟨(i 0).val / 256, hlt⟩ 0 * 256 ≤ (i 0).val ∧ (i 0).val < win1_5.index ⟨(i 0).val / 256, hlt⟩ 0 * 256 + 256
    rw [e0']; omega
  | ⟨1, _⟩ =>
    show win1_5.index ⟨(i 0).val / 256, hlt⟩ 1 * 256 ≤ (i 1).val ∧ (i 1).val < win1_5.index ⟨(i 0).val / 256, hlt⟩ 1 * 256 + 256
    rw [e1]; omega

/-- The output array after the region is the layer. -/
theorem r1_final : (dat1 (F := Ideal) V c).arrAt 5 cfg1.N = r1_G V c :=
  (dat1 (F := Ideal) V c).arrAt_eq_of_cover 5 (r1_G V c) (fun t _ => r1_flushed V c t) (r1_cover)

theorem arr1_5 (V : Cont) (c : Dev nD) (r : Fin 4096) (k : Fin 256) :
    (dat1 (F := Ideal) V c).arrAt 5 cfg1.N (ix2 r k)
      = layer1K (abfOf V c) (laOf V c) (dOf V c) (fun i q => V c main_call0_v19_2 (ix2 i q)) (fun q j => V c main_call0_v7 (ix2 q j)) r k :=
  congrFun (r1_final V c) (ix2 r k)

end Cert.KernelIdeal.Val

end
-- ==== Proof.R2Piece.lean ====
/-
  The second graph layer's body at one grid point, as values: each of its four output blocks is one covering store,
  whose payload is a pure function of the blocks the body loads. The adjacency rows, the full projected features, the
  normalizer column and the self-loop weight are loaded whole; the features' own 256 rows are loaded a second time
  through the rectangle whose row offset is 256 times the grid coordinate.
-/
import proofs.«120297_g49246095016346_cont_8to1c4_490_5_alg».proof.Proof.ValDefs
import Idealize.ShloMosaic.Lib.Pipeline.Value
import Idealize.ShloMosaic.Lib.Tactic

noncomputable section

namespace Cert.KernelIdeal.Val

open Idealize.ShloMosaic Idealize.ShloMosaic.TcCoe Idealize.SL.Sem Idealize.ShloMosaic.ValueIdx Idealize.ShloMosaic.Tactic
open Cert.KernelIdeal Cert.KernelIdeal.Gen Cert.Spec

variable {F : FTy → Type} [FloatOps F]

/-- The zero offsets of a whole-buffer access, as a constant function. -/
theorem r2_hz : (![0, 0] : Fin 2 → Nat) = fun _ => 0 := funext fun a => by fin_cases a <;> rfl

/-- The 256 rows of the full features that start at row 256 times the grid coordinate. -/
abbrev r2_slab (i : grid2.Coords) (x1 : Vec F S4096x256 .bf16) : Vec F S256x256 .bf16 :=
  View.ld x1 (Rect.unit (s := S4096x256) (k2_off1 i) S256x256.size (k2_off1_inb i))

/-- The first output block: the first 128 columns of the normalized layer. -/
theorem r2_piece7 (c : Dev nD) (i : grid2.Coords) (arg1 : Memref sig .tc .vmem S256x4096 .bf16) (harg1 : arg1.IsWhole) (arg2 : Memref sig .tc .vmem S4096x256 .bf16) (harg2 : arg2.IsWhole) (arg3 : Memref sig .tc .vmem S256x1 .f32) (harg3 : arg3.IsWhole) (arg4 : Memref sig .tc .vmem S1x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .bf16) (harg11 : arg11.IsWhole)
    (x0 : Vec F S256x4096 .bf16) (x1 : Vec F S4096x256 .bf16) (x2 : Vec F S256x1 .f32) (x3 : Vec F S1x1 .f32) (x4 : Vec F S128x128 .f32) (x5 : Vec F S128x128 .f32) (x6 : Vec F S1x128 .f32) :
    out2_A_7 c i arg1 harg1 arg2 harg2 arg3 harg3 arg4 harg4 arg5 harg5 arg6 harg6 arg7 harg7 arg8 harg8 arg9 harg9 arg10 harg10 arg11 harg11 x0 x1 x2 x3 x4 x5 x6 = k2_pay3 x3 x0 x1 (r2_slab i x1) x2 := by
  unfold out2_A_7
  rw [View.read_writes_eq_canon _ _ _ (cover2_A_7 c i arg1 harg1 arg2 harg2 arg3 harg3 arg4 harg4 arg5 harg5 arg6 harg6 arg7 harg7 arg8 harg8 arg9 harg9 arg10 harg10 arg11 harg11 x0 x1 x2 x3 x4 x5 x6)]
  unfold kernelRun2_A
  dsimp only
  sl_unfold_words
  rw [View.canon_unit_zero r2_hz]
  simp only [View.readAt_eq_ld, harg1.read_unread, harg2.read_unread, harg3.read_unread, harg4.read_unread, harg5.read_unread, harg6.read_unread, harg7.read_unread,
    View.ld_unit_zero (S := S1x1) r2_hz, View.ld_unit_zero (S := S256x4096) r2_hz, View.ld_unit_zero (S := S4096x256) r2_hz, View.ld_unit_zero (S := S256x1) r2_hz,
    View.ld_unit_zero (S := S128x128) r2_hz, View.ld_unit_zero (S := S1x128) r2_hz]
  rfl

/-- The second output block: the last 128 columns of the normalized layer. -/
theorem r2_piece8 (c : Dev nD) (i : grid2.Coords) (arg1 : Memref sig .tc .vmem S256x4096 .bf16) (harg1 : arg1.IsWhole) (arg2 : Memref sig .tc .vmem S4096x256 .bf16) (harg2 : arg2.IsWhole) (arg3 : Memref sig .tc .vmem S256x1 .f32) (harg3 : arg3.IsWhole) (arg4 : Memref sig .tc .vmem S1x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .bf16) (harg11 : arg11.IsWhole)
    (x0 : Vec F S256x4096 .bf16) (x1 : Vec F S4096x256 .bf16) (x2 : Vec F S256x1 .f32) (x3 : Vec F S1x1 .f32) (x4 : Vec F S128x128 .f32) (x5 : Vec F S128x128 .f32) (x6 : Vec F S1x128 .f32) :
    out2_A_8 c i arg1 harg1 arg2 harg2 arg3 harg3 arg4 harg4 arg5 harg5 arg6 harg6 arg7 harg7 arg8 harg8 arg9 harg9 arg10 harg10 arg11 harg11 x0 x1 x2 x3 x4 x5 x6 = k2_pay4 x3 x0 x1 (r2_slab i x1) x2 := by
  unfold out2_A_8
  rw [View.read_writes_eq_canon _ _ _ (cover2_A_8 c i arg1 harg1 arg2 harg2 arg3 harg3 arg4 harg4 arg5 harg5 arg6 harg6 arg7 harg7 arg8 harg8 arg9 harg9 arg10 harg10 arg11 harg11 x0 x1 x2 x3 x4 x5 x6)]
  unfold kernelRun2_A
  dsimp only
  sl_unfold_words
  rw [View.canon_unit_zero r2_hz]
  simp only [View.readAt_eq_ld, harg1.read_unread, harg2.read_unread, harg3.read_unread, harg4.read_unread, harg5.read_unread, harg6.read_unread, harg7.read_unread,
    View.ld_unit_zero (S := S1x1) r2_hz, View.ld_unit_zero (S := S256x4096) r2_hz, View.ld_unit_zero (S := S4096x256) r2_hz, View.ld_unit_zero (S := S256x1) r2_hz,
    View.ld_unit_zero (S := S128x128) r2_hz, View.ld_unit_zero (S := S1x128) r2_hz]
  rfl

/-- The third output block: the node head of the first 128 columns. -/
theorem r2_piece9 (c : Dev nD) (i : grid2.Coords) (arg1 : Memref sig .tc .vmem S256x4096 .bf16) (harg1 : arg1.IsWhole) (arg2 : Memref sig .tc .vmem S4096x256 .bf16) (harg2 : arg2.IsWhole) (arg3 : Memref sig .tc .vmem S256x1 .f32) (harg3 : arg3.IsWhole) (arg4 : Memref sig .tc .vmem S1x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .bf16) (harg11 : arg11.IsWhole)
    (x0 : Vec F S256x4096 .bf16) (x1 : Vec F S4096x256 .bf16) (x2 : Vec F S256x1 .f32) (x3 : Vec F S1x1 .f32) (x4 : Vec F S128x128 .f32) (x5 : Vec F S128x128 .f32) (x6 : Vec F S1x128 .f32) :
    out2_A_9 c i arg1 harg1 arg2 harg2 arg3 harg3 arg4 harg4 arg5 harg5 arg6 harg6 arg7 harg7 arg8 harg8 arg9 harg9 arg10 harg10 arg11 harg11 x0 x1 x2 x3 x4 x5 x6 = k2_pay5 x3 x0 x1 (r2_slab i x1) x2 x5 x6 := by
  unfold out2_A_9
  rw [View.read_writes_eq_canon _ _ _ (cover2_A_9 c i arg1 harg1 arg2 harg2 arg3 harg3 arg4 harg4 arg5 harg5 arg6 harg6 arg7 harg7 arg8 harg8 arg9 harg9 arg10 harg10 arg11 harg11 x0 x1 x2 x3 x4 x5 x6)]
  unfold kernelRun2_A
  dsimp only
  sl_unfold_words
  rw [View.canon_unit_zero r2_hz]
  simp only [View.readAt_eq_ld, harg1.read_unread, harg2.read_unread, harg3.read_unread, harg4.read_unread, harg5.read_unread, harg6.read_unread, harg7.read_unread,
    View.ld_unit_zero (S := S1x1) r2_hz, View.ld_unit_zero (S := S256x4096) r2_hz, View.ld_unit_zero (S := S4096x256) r2_hz, View.ld_unit_zero (S := S256x1) r2_hz,
    View.ld_unit_zero (S := S128x128) r2_hz, View.ld_unit_zero (S := S1x128) r2_hz]
  rfl

/-- The fourth output block: the scaled decoder projection of the last 128 columns. -/
theorem r2_piece10 (c : Dev nD) (i : grid2.Coords) (arg1 : Memref sig .tc .vmem S256x4096 .bf16) (harg1 : arg1.IsWhole) (arg2 : Memref sig .tc .vmem S4096x256 .bf16) (harg2 : arg2.IsWhole) (arg3 : Memref sig .tc .vmem S256x1 .f32) (harg3 : arg3.IsWhole) (arg4 : Memref sig .tc .vmem S1x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .bf16) (harg11 : arg11.IsWhole)
    (x0 : Vec F S256x4096 .bf16) (x1 : Vec F S4096x256 .bf16) (x2 : Vec F S256x1 .f32) (x3 : Vec F S1x1 .f32) (x4 : Vec F S128x128 .f32) (x5 : Vec F S128x128 .f32) (x6 : Vec F S1x128 .f32) :
    out2_A_10 c i arg1 harg1 arg2 harg2 arg3 harg3 arg4 harg4 arg5 harg5 arg6 harg6 arg7 harg7 arg8 harg8 arg9 harg9 arg10 harg10 arg11 harg11 x0 x1 x2 x3 x4 x5 x6 = k2_pay1 (k2_pay4 x3 x0 x1 (r2_slab i x1) x2) x2 x4 := by
  unfold out2_A_10
  rw [View.read_writes_eq_canon _ _ _ (cover2_A_10 c i arg1 harg1 arg2 harg2 arg3 harg3 arg4 harg4 arg5 harg5 arg6 harg6 arg7 harg7 arg8 harg8 arg9 harg9 arg10 harg10 arg11 harg11 x0 x1 x2 x3 x4 x5 x6)]
  unfold kernelRun2_A
  dsimp only
  sl_unfold_words
  rw [View.canon_unit_zero r2_hz]
  simp only [View.readAt_eq_ld, harg1.read_unread, harg2.read_unread, harg3.read_unread, harg4.read_unread, harg5.read_unread, harg6.read_unread, harg7.read_unread,
    View.ld_unit_zero (S := S1x1) r2_hz, View.ld_unit_zero (S := S256x4096) r2_hz, View.ld_unit_zero (S := S4096x256) r2_hz, View.ld_unit_zero (S := S256x1) r2_hz,
    View.ld_unit_zero (S := S128x128) r2_hz, View.ld_unit_zero (S := S1x128) r2_hz]
  rfl

end Cert.KernelIdeal.Val

end
-- ==== Proof.R2Pay.lean ====
/-
  The second graph layer's arithmetic at one grid point, read at coordinates over the extended reals: the adjacency
  product with the self loop added to the product and the row's normalizer in front; its two halves of 128 columns;
  the node head of the first half; the scaled decoder projection of the second half.
-/
import proofs.«120297_g49246095016346_cont_8to1c4_490_5_alg».proof.Proof.ValDefs
import Idealize.ShloMosaic.Lib.Pipeline.Value
import Idealize.ShloMosaic.Lib.Tactic
import Idealize.ShloMosaic.Lib.ValueLayout
import Idealize.ShloMosaic.PureOps.Ideal.Laws

noncomputable section

namespace Cert.KernelIdeal.Val

open Idealize.ShloMosaic Idealize.ShloMosaic.TcCoe Idealize.SL.Sem Idealize.ShloMosaic.ValueIdx Idealize.ShloMosaic.Tactic
open Cert.KernelIdeal Cert.KernelIdeal.Gen Cert.Spec

/-- A column `[a, 1]` broadcast to `[a, b]` reads, at `(p, c)`, the column at row `p`. -/
theorem r2_bcast_col {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem r2_mm_adj_l0 (i : S256x256.Idx) (k : dot_S256x4096_S4096x256_S256x256_1_0_0_1_n_n.contr.Idx) : (dot_S256x4096_S4096x256_S256x256_1_0_0_1_n_n.lhsIdx i k 0).val = (i 0).val := by
  unfold DotDims.lhsIdx
  rw [dif_neg (show ¬(0 : Fin S256x4096.rank) ∈ dot_S256x4096_S4096x256_S256x256_1_0_0_1_n_n.lhsBatch by decide), dif_pos (show (0 : Fin S256x4096.rank) ∈ dot_S256x4096_S4096x256_S256x256_1_0_0_1_n_n.lhsNonContracting by decide)]
  rfl
theorem r2_mm_adj_r1 (i : S256x256.Idx) (k : dot_S256x4096_S4096x256_S256x256_1_0_0_1_n_n.contr.Idx) : (dot_S256x4096_S4096x256_S256x256_1_0_0_1_n_n.rhsIdx i k 1).val = (i 1).val := by
  unfold DotDims.rhsIdx
  rw [dif_neg (show ¬(1 : Fin S4096x256.rank) ∈ dot_S256x4096_S4096x256_S256x256_1_0_0_1_n_n.rhsBatch by decide), dif_pos (show (1 : Fin S4096x256.rank) ∈ dot_S256x4096_S4096x256_S256x256_1_0_0_1_n_n.rhsNonContracting by decide)]
  rfl

/-- The adjacency rows times the full features, accumulated into zero: a sum over the 4096 neighbours. -/
theorem r2_mm_adj (a : FVec Ideal S256x4096 .bf16) (b : FVec Ideal S4096x256 .bf16) (p : Fin 256) (q : Fin 256) :
    matmul dot_S256x4096_S4096x256_S256x256_1_0_0_1_n_n none a b (constant S256x256 .f32 0x00000000#32) (ix2 p q)
      = ∑ j : Fin 4096, a (ix2 p j) * b (ix2 j q) := by
  simp only [matmul]
  rw [Ideal.matmul_constant_zero_apply, ← Equiv.sum_comp (ValueIdx.contrEquiv1 dot_S256x4096_S4096x256_S256x256_1_0_0_1_n_n 4096 rfl rfl).symm]
  refine Finset.sum_congr rfl fun k _ => ?_
  have hk := ValueIdx.contrEquiv1_symm_val dot_S256x4096_S4096x256_S256x256_1_0_0_1_n_n 4096 rfl rfl k
  have el : dot_S256x4096_S4096x256_S256x256_1_0_0_1_n_n.lhsIdx (ix2 p q) ((ValueIdx.contrEquiv1 dot_S256x4096_S4096x256_S256x256_1_0_0_1_n_n 4096 rfl rfl).symm k) = ix2 p k := funext fun ax => Fin.ext (by
    match ax with
    | ⟨0, _⟩ => exact r2_mm_adj_l0 _ _
    | ⟨1, _⟩ => exact (dot_S256x4096_S4096x256_S256x256_1_0_0_1_n_n.lhsIdx_val_of_single rfl (ix2 p q) _).trans hk)
  have er : dot_S256x4096_S4096x256_S256x256_1_0_0_1_n_n.rhsIdx (ix2 p q) ((ValueIdx.contrEquiv1 dot_S256x4096_S4096x256_S256x256_1_0_0_1_n_n 4096 rfl rfl).symm k) = ix2 k q := funext fun ax => Fin.ext (by
    match ax with
    | ⟨0, _⟩ => exact (dot_S256x4096_S4096x256_S256x256_1_0_0_1_n_n.rhsIdx_val_of_single rfl (ix2 p q) _).trans hk
    | ⟨1, _⟩ => exact r2_mm_adj_r1 _ _)
  rw [el, er]

theorem r2_mm_w_l0 (i : S256x128.Idx) (k : dot_S256x128_S128x128_S256x128_1_0_0_1_n_n.contr.Idx) : (dot_S256x128_S128x128_S256x128_1_0_0_1_n_n.lhsIdx i k 0).val = (i 0).val := by
  unfold DotDims.lhsIdx
  rw [dif_neg (show ¬(0 : Fin S256x128.rank) ∈ dot_S256x128_S128x128_S256x128_1_0_0_1_n_n.lhsBatch by decide), dif_pos (show (0 : Fin S256x128.rank) ∈ dot_S256x128_S128x128_S256x128_1_0_0_1_n_n.lhsNonContracting by decide)]
  rfl
theorem r2_mm_w_r1 (i : S256x128.Idx) (k : dot_S256x128_S128x128_S256x128_1_0_0_1_n_n.contr.Idx) : (dot_S256x128_S128x128_S256x128_1_0_0_1_n_n.rhsIdx i k 1).val = (i 1).val := by
  unfold DotDims.rhsIdx
  rw [dif_neg (show ¬(1 : Fin S128x128.rank) ∈ dot_S256x128_S128x128_S256x128_1_0_0_1_n_n.rhsBatch by decide), dif_pos (show (1 : Fin S128x128.rank) ∈ dot_S256x128_S128x128_S256x128_1_0_0_1_n_n.rhsNonContracting by decide)]
  rfl

/-- A block of 128 columns times a square weight matrix, accumulated into zero: a sum over the 128 columns. -/
theorem r2_mm_w (a : FVec Ideal S256x128 .f32) (b : FVec Ideal S128x128 .f32) (p : Fin 256) (q : Fin 128) :
    matmul dot_S256x128_S128x128_S256x128_1_0_0_1_n_n none a b (constant S256x128 .f32 0x00000000#32) (ix2 p q)
      = ∑ j : Fin 128, a (ix2 p j) * b (ix2 j q) := by
  simp only [matmul]
  rw [Ideal.matmul_constant_zero_apply, ← Equiv.sum_comp (ValueIdx.contrEquiv1 dot_S256x128_S128x128_S256x128_1_0_0_1_n_n 128 rfl rfl).symm]
  refine Finset.sum_congr rfl fun k _ => ?_
  have hk := ValueIdx.contrEquiv1_symm_val dot_S256x128_S128x128_S256x128_1_0_0_1_n_n 128 rfl rfl k
  have el : dot_S256x128_S128x128_S256x128_1_0_0_1_n_n.lhsIdx (ix2 p q) ((ValueIdx.contrEquiv1 dot_S256x128_S128x128_S256x128_1_0_0_1_n_n 128 rfl rfl).symm k) = ix2 p k := funext fun ax => Fin.ext (by
    match ax with
    | ⟨0, _⟩ => exact r2_mm_w_l0 _ _
    | ⟨1, _⟩ => exact (dot_S256x128_S128x128_S256x128_1_0_0_1_n_n.lhsIdx_val_of_single rfl (ix2 p q) _).trans hk)
  have er : dot_S256x128_S128x128_S256x128_1_0_0_1_n_n.rhsIdx (ix2 p q) ((ValueIdx.contrEquiv1 dot_S256x128_S128x128_S256x128_1_0_0_1_n_n 128 rfl rfl).symm k) = ix2 k q := funext fun ax => Fin.ext (by
    match ax with
    | ⟨0, _⟩ => exact (dot_S256x128_S128x128_S256x128_1_0_0_1_n_n.rhsIdx_val_of_single rfl (ix2 p q) _).trans hk
    | ⟨1, _⟩ => exact r2_mm_w_r1 _ _)
  rw [el, er]

/-- The one element of a `[1, 1]` array, extracted at its position. -/
theorem r2_extract00 {α : Type} (v : (⟨2, ![1, 1]⟩ : Shape).Idx → α) (h : ∀ a, (![0, 0] : Fin 2 → Nat) a < (⟨2, ![1, 1]⟩ : Shape).size a) :
    extractAt ![0, 0] v h = v (ix2 0 0) := by
  unfold extractAt
  exact congrArg v (funext fun a => by match a with | ⟨0, _⟩ => rfl | ⟨1, _⟩ => rfl)

/-- The normalized layer at row `p` and column `q` of a block: the row's normalizer times the adjacency product plus the
    self-loop weight times the block's own row of the features. -/
theorem r2_pay2_apply (v0 : Vec Ideal S1x1 .f32) (v2 : Vec Ideal S256x4096 .bf16) (v4 : Vec Ideal S4096x256 .bf16)
    (v9 : Vec Ideal S256x256 .bf16) (v15 : Vec Ideal S256x1 .f32) (p q : Fin 256) :
    k2_pay2 v0 v2 v4 v9 v15 (ix2 p q)
      = v15 (ix2 p 0) * ((∑ j : Fin 4096, v2 (ix2 p j) * v4 (ix2 j q)) + v0 (ix2 0 0) * v9 (ix2 p q)) := by
  unfold k2_pay2
  simp only [shapeCast_self]
  simp only [mulf_apply, addf_apply, broadcast_apply, extf_apply]
  rw [r2_bcast_col, r2_mm_adj, r2_extract00]

/-- The first 128 columns of the normalized layer. -/
theorem r2_pay3_apply (v0 : Vec Ideal S1x1 .f32) (v2 : Vec Ideal S256x4096 .bf16) (v4 : Vec Ideal S4096x256 .bf16)
    (v9 : Vec Ideal S256x256 .bf16) (v15 : Vec Ideal S256x1 .f32) (p : Fin 256) (q : Fin 128) :
    k2_pay3 v0 v2 v4 v9 v15 (ix2 p q)
      = v15 (ix2 p 0) * ((∑ j : Fin 4096, v2 (ix2 p j) * v4 (ix2 j (lo q))) + v0 (ix2 0 0) * v9 (ix2 p (lo q))) := by
  unfold k2_pay3
  refine (slice2_axis1_apply 0 (k2_pay2 v0 v2 v4 v9 v15) slices_S256x256_o0_0_S256x128 p q (lo q) (Nat.zero_add _).symm).trans ?_
  exact r2_pay2_apply v0 v2 v4 v9 v15 p (lo q)

/-- The last 128 columns of the normalized layer. -/
theorem r2_pay4_apply (v0 : Vec Ideal S1x1 .f32) (v2 : Vec Ideal S256x4096 .bf16) (v4 : Vec Ideal S4096x256 .bf16)
    (v9 : Vec Ideal S256x256 .bf16) (v15 : Vec Ideal S256x1 .f32) (p : Fin 256) (q : Fin 128) :
    k2_pay4 v0 v2 v4 v9 v15 (ix2 p q)
      = v15 (ix2 p 0) * ((∑ j : Fin 4096, v2 (ix2 p j) * v4 (ix2 j (hi q))) + v0 (ix2 0 0) * v9 (ix2 p (hi q))) := by
  unfold k2_pay4
  refine (slice2_axis1_apply 128 (k2_pay2 v0 v2 v4 v9 v15) slices_S256x256_o0_128_S256x128 p q (hi q) rfl).trans ?_
  exact r2_pay2_apply v0 v2 v4 v9 v15 p (hi q)

/-- The node head: the first half times the head weights plus the bias row. -/
theorem r2_pay5_apply (v0 : Vec Ideal S1x1 .f32) (v2 : Vec Ideal S256x4096 .bf16) (v4 : Vec Ideal S4096x256 .bf16)
    (v9 : Vec Ideal S256x256 .bf16) (v15 : Vec Ideal S256x1 .f32) (v23 : Vec Ideal S128x128 .f32) (v26 : Vec Ideal S1x128 .f32) (p : Fin 256) (q : Fin 128) :
    k2_pay5 v0 v2 v4 v9 v15 v23 v26 (ix2 p q)
      = (∑ k : Fin 128, k2_pay3 v0 v2 v4 v9 v15 (ix2 p k) * v23 (ix2 k q)) + v26 (ix2 0 q) := by
  unfold k2_pay5
  simp only [shapeCast_self]
  simp only [addf_apply]
  rw [r2_mm_w, broadcastTo_1b_ab_apply]

/-- The scaled decoder projection: the row's normalizer times a block of 128 columns times the decoder weights. -/
theorem r2_pay1_apply (v20 : FVec Ideal S256x128 .f32) (v31 : Vec Ideal S256x1 .f32) (v33 : Vec Ideal S128x128 .f32)
    (p : Fin 256) (q : Fin 128) :
    k2_pay1 v20 v31 v33 (ix2 p q) = v31 (ix2 p 0) * ∑ k : Fin 128, v20 (ix2 p k) * v33 (ix2 k q) := by
  unfold k2_pay1
  simp only [shapeCast_self]
  simp only [truncf_apply, mulf_apply]
  rw [r2_bcast_col, r2_mm_w]

end Cert.KernelIdeal.Val

end
-- ==== Proof.R2Arr.lean ====
/-
  From the grid's blocks to whole arrays: at grid point `t` each row-blocked window holds rows `256 t .. 256 t + 255` of
  its array, each full window the whole array, and the features' second load reads the same 256 rows; so the blocks
  the sixteen points write back are the blocks of one function of the region's entry contents, and they tile the
  output arrays.
-/
import proofs.«120297_g49246095016346_cont_8to1c4_490_5_alg».proof.Proof.ValDefs
import Idealize.ShloMosaic.Lib.Pipeline.Value
import Idealize.ShloMosaic.Lib.Tactic
import proofs.«120297_g49246095016346_cont_8to1c4_490_5_alg».proof.Proof.R2Piece
import proofs.«120297_g49246095016346_cont_8to1c4_490_5_alg».proof.Proof.R2Pay

noncomputable section

namespace Cert.KernelIdeal.Val

open Idealize.ShloMosaic Idealize.ShloMosaic.TcCoe Idealize.SL.Sem Idealize.ShloMosaic.ValueIdx Idealize.ShloMosaic.Tactic
open Cert.KernelIdeal Cert.KernelIdeal.Gen Cert.Spec

variable (V : Cont) (c : Dev nD)

/-- Row `p` of the block of 256 rows at grid point `t`. -/
def r2_row (t : Fin cfg2.N) (p : Fin 256) : Fin 4096 :=
  ⟨256 * t.val + p.val, by have := t.isLt; have h : cfg2.N = 16 := N_2; omega⟩

theorem r2_row_val (t : Fin cfg2.N) (p : Fin 256) : (r2_row t p).val = 256 * t.val + p.val := rfl

/-- The row-blocked windows' block index at point `t` is `(t, 0)`, and the second load's row offset is `256 t`. -/
theorem r2_idx_row : ∀ t : Fin cfg2.N,
    win2_0.index t 0 = t.val ∧ win2_0.index t 1 = 0 ∧ win2_2.index t 0 = t.val ∧ win2_2.index t 1 = 0
    ∧ win2_7.index t 0 = t.val ∧ win2_7.index t 1 = 0 ∧ win2_8.index t 0 = t.val ∧ win2_8.index t 1 = 0
    ∧ win2_9.index t 0 = t.val ∧ win2_9.index t 1 = 0 ∧ win2_10.index t 0 = t.val ∧ win2_10.index t 1 = 0
    ∧ k2_off1 (grid2.coords t) 0 = 256 * t.val ∧ k2_off1 (grid2.coords t) 1 = 0 :=
  (by decide +kernel : ∀ t : Fin grid2.N, _)

/-- The full windows' block index is `(0, 0)` at every point. -/
theorem r2_idx_full : ∀ t : Fin cfg2.N,
    win2_1.index t 0 = 0 ∧ win2_1.index t 1 = 0 ∧ win2_3.index t 0 = 0 ∧ win2_3.index t 1 = 0
    ∧ win2_4.index t 0 = 0 ∧ win2_4.index t 1 = 0 ∧ win2_5.index t 0 = 0 ∧ win2_5.index t 1 = 0
    ∧ win2_6.index t 0 = 0 ∧ win2_6.index t 1 = 0 :=
  (by decide +kernel : ∀ t : Fin grid2.N, _)

/-- The adjacency copy's block at point `t` is its rows `256 t ..`. -/
theorem r2_blk0 (t : Fin cfg2.N) (p : Fin 256) (j : Fin 4096) :
    iblk2 V c 0 t (ix2 p j) = V c main_call0_v19_0 (ix2 (r2_row t p) j) := by
  show V c main_call0_v19_0 (((cfg2.win 0).blk t).view.emb (ix2 p j)) = _
  refine congrArg (V c main_call0_v19_0) (funext fun a => Fin.ext ?_)
  have e := r2_idx_row t
  match a with
  | ⟨0, _⟩ => show win2_0.index t 0 * 256 + 1 * p.val = 256 * t.val + p.val; rw [e.1]; omega
  | ⟨1, _⟩ => show win2_0.index t 1 * 4096 + 1 * j.val = j.val; rw [e.2.1]; omega

/-- The normalizer column's block at point `t` is its rows `256 t ..`. -/
theorem r2_blk2 (t : Fin cfg2.N) (p : Fin 256) :
    iblk2 V c 2 t (ix2 p (0 : Fin 1)) = V c main_call0_v19_1 (ix2 (r2_row t p) (0 : Fin 1)) := by
  show V c main_call0_v19_1 (((cfg2.win 2).blk t).view.emb (ix2 p (0 : Fin 1))) = _
  refine congrArg (V c main_call0_v19_1) (funext fun a => Fin.ext ?_)
  have e := r2_idx_row t
  match a with
  | ⟨0, _⟩ => show win2_2.index t 0 * 256 + 1 * p.val = 256 * t.val + p.val; rw [e.2.2.1]; omega
  | ⟨1, _⟩ => show win2_2.index t 1 * 1 + 1 * 0 = 0; rw [e.2.2.2.1]

/-- Window 1 is full: its block is its array. -/
theorem r2_blk1 (t : Fin cfg2.N) (i : Fin 4096) (j : Fin 256) :
    iblk2 V c 1 t (ix2 i j) = V c main_call0_v20 (ix2 i j) := by
  show V c main_call0_v20 (((cfg2.win 1).blk t).view.emb (ix2 i j)) = _
  refine congrArg (V c main_call0_v20) (funext fun a => Fin.ext ?_)
  have e := r2_idx_full t
  match a with
  | ⟨0, _⟩ => show win2_1.index t 0 * 4096 + 1 * i.val = i.val; rw [e.1]; omega
  | ⟨1, _⟩ => show win2_1.index t 1 * 256 + 1 * j.val = j.val; rw [e.2.1]; omega

/-- Window 3 is full: its block is its array. -/
theorem r2_blk3 (t : Fin cfg2.N) (i : Fin 1) (j : Fin 1) :
    iblk2 V c 3 t (ix2 i j) = V c main_call0_v2 (ix2 i j) := by
  show V c main_call0_v2 (((cfg2.win 3).blk t).view.emb (ix2 i j)) = _
  refine congrArg (V c main_call0_v2) (funext fun a => Fin.ext ?_)
  have e := r2_idx_full t
  match a with
  | ⟨0, _⟩ => show win2_3.index t 0 * 1 + 1 * i.val = i.val; rw [e.2.2.1]; omega
  | ⟨1, _⟩ => show win2_3.index t 1 * 1 + 1 * j.val = j.val; rw [e.2.2.2.1]; omega

/-- Window 4 is full: its block is its array. -/
theorem r2_blk4 (t : Fin cfg2.N) (i : Fin 128) (j : Fin 128) :
    iblk2 V c 4 t (ix2 i j) = V c main_call0_v10 (ix2 i j) := by
  show V c main_call0_v10 (((cfg2.win 4).blk t).view.emb (ix2 i j)) = _
  refine congrArg (V c main_call0_v10) (funext fun a => Fin.ext ?_)
  have e := r2_idx_full t
  match a with
  | ⟨0, _⟩ => show win2_4.index t 0 * 128 + 1 * i.val = i.val; rw [e.2.2.2.2.1]; omega
  | ⟨1, _⟩ => show win2_4.index t 1 * 128 + 1 * j.val = j.val; rw [e.2.2.2.2.2.1]; omega

/-- Window 5 is full: its block is its array. -/
theorem r2_blk5 (t : Fin cfg2.N) (i : Fin 128) (j : Fin 128) :
    iblk2 V c 5 t (ix2 i j) = V c main_call0_v13 (ix2 i j) := by
  show V c main_call0_v13 (((cfg2.win 5).blk t).view.emb (ix2 i j)) = _
  refine congrArg (V c main_call0_v13) (funext fun a => Fin.ext ?_)
  have e := r2_idx_full t
  match a with
  | ⟨0, _⟩ => show win2_5.index t 0 * 128 + 1 * i.val = i.val; rw [e.2.2.2.2.2.2.1]; omega
  | ⟨1, _⟩ => show win2_5.index t 1 * 128 + 1 * j.val = j.val; rw [e.2.2.2.2.2.2.2.1]; omega

/-- Window 6 is full: its block is its array. -/
theorem r2_blk6 (t : Fin cfg2.N) (i : Fin 1) (j : Fin 128) :
    iblk2 V c 6 t (ix2 i j) = V c main_call0_v18 (ix2 i j) := by
  show V c main_call0_v18 (((cfg2.win 6).blk t).view.emb (ix2 i j)) = _
  refine congrArg (V c main_call0_v18) (funext fun a => Fin.ext ?_)
  have e := r2_idx_full t
  match a with
  | ⟨0, _⟩ => show win2_6.index t 0 * 1 + 1 * i.val = i.val; rw [e.2.2.2.2.2.2.2.2.1]; omega
  | ⟨1, _⟩ => show win2_6.index t 1 * 128 + 1 * j.val = j.val; rw [e.2.2.2.2.2.2.2.2.2]; omega

/-- The features' second load at point `t` reads their rows `256 t ..`: the rows of the output block itself. -/
theorem r2_slab_apply (t : Fin cfg2.N) (x1 : Vec Ideal S4096x256 .bf16) (p q : Fin 256) :
    r2_slab (grid2.coords t) x1 (ix2 p q) = x1 (ix2 (r2_row t p) q) := by
  show x1 ((Rect.unit (s := S4096x256) (k2_off1 (grid2.coords t)) S256x256.size (k2_off1_inb (grid2.coords t))).emb (ix2 p q)) = _
  refine congrArg x1 (funext fun a => Fin.ext ?_)
  have e := r2_idx_row t
  match a with
  | ⟨0, _⟩ => show k2_off1 (grid2.coords t) 0 + 1 * p.val = 256 * t.val + p.val; rw [e.2.2.2.2.2.2.2.2.2.2.2.2.1]; omega
  | ⟨1, _⟩ => show k2_off1 (grid2.coords t) 1 + 1 * q.val = q.val; rw [e.2.2.2.2.2.2.2.2.2.2.2.2.2]; omega

theorem r2_slab_blk (t : Fin cfg2.N) (p q : Fin 256) :
    r2_slab (grid2.coords t) (iblk2 V c 1 t) (ix2 p q) = V c main_call0_v20 (ix2 (r2_row t p) q) :=
  (r2_slab_apply t (iblk2 V c 1 t) p q).trans (r2_blk1 V c t (r2_row t p) q)

/-! ## The normalized layer at a point -/

/-- At point `t` the first half of the body's normalized layer is the second graph layer at row `256 t + p`. -/
theorem r2_pay3_at (t : Fin cfg2.N) (p : Fin 256) (q : Fin 128) :
    k2_pay3 (iblk2 V c 3 t) (iblk2 V c 0 t) (iblk2 V c 1 t) (r2_slab (grid2.coords t) (iblk2 V c 1 t)) (iblk2 V c 2 t) (ix2 p q)
      = yK (abfOf V c) (laOf V c) (dOf V c) (fun i q => V c main_call0_v20 (ix2 i q)) (r2_row t p) (lo q) := by
  refine (r2_pay3_apply (iblk2 V c 3 t) (iblk2 V c 0 t) (iblk2 V c 1 t) (r2_slab (grid2.coords t) (iblk2 V c 1 t)) (iblk2 V c 2 t) p q).trans ?_
  simp only [r2_blk0, r2_blk1, r2_blk2, r2_blk3, r2_slab_blk]
  rfl

/-- At point `t` the last half of the body's normalized layer is the second graph layer at row `256 t + p`. -/
theorem r2_pay4_at (t : Fin cfg2.N) (p : Fin 256) (q : Fin 128) :
    k2_pay4 (iblk2 V c 3 t) (iblk2 V c 0 t) (iblk2 V c 1 t) (r2_slab (grid2.coords t) (iblk2 V c 1 t)) (iblk2 V c 2 t) (ix2 p q)
      = yK (abfOf V c) (laOf V c) (dOf V c) (fun i q => V c main_call0_v20 (ix2 i q)) (r2_row t p) (hi q) := by
  refine (r2_pay4_apply (iblk2 V c 3 t) (iblk2 V c 0 t) (iblk2 V c 1 t) (r2_slab (grid2.coords t) (iblk2 V c 1 t)) (iblk2 V c 2 t) p q).trans ?_
  simp only [r2_blk0, r2_blk1, r2_blk2, r2_blk3, r2_slab_blk]
  rfl

/-! ## Output window 7 -/

/-- The first half of the normalized layer, as a whole array. -/
def r2_G7 : Buf (Elt Ideal) ((c : Thread nD τ).loc main_v0_2) :=
  fun i => yK (abfOf V c) (laOf V c) (dOf V c) (fun i q => V c main_call0_v20 (ix2 i q)) (i 0) (lo (i 1))

/-- An element of the block at point `t` sits in the array at row `256 t + p`. -/
theorem r2_emb7 (t : Fin cfg2.N) (p : Fin 256) (q : Fin 128) :
    ((cfg2.win 7).blk t).view.emb (ix2 p q) = ix2 (r2_row t p) q := by
  refine funext fun a => Fin.ext ?_
  have e := r2_idx_row t
  match a with
  | ⟨0, _⟩ => show win2_7.index t 0 * 256 + 1 * p.val = 256 * t.val + p.val; rw [e.2.2.2.2.1]; omega
  | ⟨1, _⟩ => show win2_7.index t 1 * 128 + 1 * q.val = q.val; rw [e.2.2.2.2.2.1]; omega

/-- What point `t` writes back is block `t` of the whole-array function. -/
theorem r2_flushed7 (t : Fin cfg2.N) :
    (dat2 (F := Ideal) V c).flushed 7 t = ((cfg2.win 7).blk t).view.read (Elt Ideal) (r2_G7 V c) := by
  show (cfg2.win 7).cut (grid2.coords t) ((dat2 (F := Ideal) V c).after 7 t) = _
  rw [after2_7]
  unfold outsAt2
  dsimp only
  rw [r2_piece7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (iblk2 V c 0 t) (iblk2 V c 1 t) (iblk2 V c 2 t) (iblk2 V c 3 t) (iblk2 V c 4 t) (iblk2 V c 5 t) (iblk2 V c 6 t)]
  funext j
  obtain ⟨p, q, rfl⟩ : ∃ (p : Fin 256) (q : Fin 128), j = ix2 p q := ⟨j 0, j 1, eq_ix2 j⟩
  show k2_pay3 (iblk2 V c 3 t) (iblk2 V c 0 t) (iblk2 V c 1 t) (r2_slab (grid2.coords t) (iblk2 V c 1 t)) (iblk2 V c 2 t) (ix2 p q) = r2_G7 V c (((cfg2.win 7).blk t).view.emb (ix2 p q))
  exact (r2_pay3_at V c t p q).trans (by rw [r2_emb7]; rfl)

/-- An index of the array is in point `t`'s block iff each coordinate is in the block's range on its axis. -/
theorem r2_mem_blk7 (t : Fin cfg2.N) (i : S4096x128.Idx) :
    i ∈ ((cfg2.win 7).blk t).view.set ↔ ∀ a : Fin 2, win2_7.index t a * S256x128.size a ≤ (i a).val ∧ (i a).val < win2_7.index t a * S256x128.size a + S256x128.size a := by
  show i ∈ ((View.whole main_v0_2).slice (win2_7.rect t)).set ↔ _
  rw [View.set_slice_whole, Rect.mem_set_unit]
  exact Iff.rfl

/-- Row `r` is in the block of point `r / 256`. -/
theorem r2_cover7 (i : S4096x128.Idx) :
    ∃ t : Fin cfg2.N, (cfg2.win 7).flush t = true ∧ i ∈ ((cfg2.win 7).blk t).view.set := by
  have hi0 : (i 0).val < 4096 := (i 0).isLt
  have hi1 : (i 1).val < 128 := (i 1).isLt
  have hN : cfg2.N = 16 := N_2
  have ht : (i 0).val / 256 < cfg2.N := by omega
  refine ⟨⟨(i 0).val / 256, ht⟩, flush2_7 _, ?_⟩
  rw [r2_mem_blk7]
  have e := r2_idx_row ⟨(i 0).val / 256, ht⟩
  intro a
  match a with
  | ⟨0, _⟩ =>
    show win2_7.index ⟨(i 0).val / 256, ht⟩ 0 * 256 ≤ (i 0).val ∧ (i 0).val < win2_7.index ⟨(i 0).val / 256, ht⟩ 0 * 256 + 256
    rw [e.2.2.2.2.1]
    show (i 0).val / 256 * 256 ≤ (i 0).val ∧ (i 0).val < (i 0).val / 256 * 256 + 256
    omega
  | ⟨1, _⟩ =>
    show win2_7.index ⟨(i 0).val / 256, ht⟩ 1 * 128 ≤ (i 1).val ∧ (i 1).val < win2_7.index ⟨(i 0).val / 256, ht⟩ 1 * 128 + 128
    rw [e.2.2.2.2.2.1]
    omega

/-- The array after the region is the whole-array function. -/
theorem r2_final7 : (dat2 (F := Ideal) V c).arrAt 7 cfg2.N = r2_G7 V c :=
  (dat2 (F := Ideal) V c).arrAt_eq_of_cover 7 (r2_G7 V c) (fun t _ => r2_flushed7 V c t) r2_cover7

theorem arr2_7 (V : Cont) (c : Dev nD) (r : Fin 4096) (k : Fin 128) :
    (dat2 (F := Ideal) V c).arrAt 7 cfg2.N (ix2 r k)
      = yK (abfOf V c) (laOf V c) (dOf V c) (fun i q => V c main_call0_v20 (ix2 i q)) r (lo k) :=
  congrFun (r2_final7 V c) (ix2 r k)

/-! ## Output window 8 -/

/-- The last half of the normalized layer, as a whole array. -/
def r2_G8 : Buf (Elt Ideal) ((c : Thread nD τ).loc main_v0_3) :=
  fun i => yK (abfOf V c) (laOf V c) (dOf V c) (fun i q => V c main_call0_v20 (ix2 i q)) (i 0) (hi (i 1))

/-- An element of the block at point `t` sits in the array at row `256 t + p`. -/
theorem r2_emb8 (t : Fin cfg2.N) (p : Fin 256) (q : Fin 128) :
    ((cfg2.win 8).blk t).view.emb (ix2 p q) = ix2 (r2_row t p) q := by
  refine funext fun a => Fin.ext ?_
  have e := r2_idx_row t
  match a with
  | ⟨0, _⟩ => show win2_8.index t 0 * 256 + 1 * p.val = 256 * t.val + p.val; rw [e.2.2.2.2.2.2.1]; omega
  | ⟨1, _⟩ => show win2_8.index t 1 * 128 + 1 * q.val = q.val; rw [e.2.2.2.2.2.2.2.1]; omega

/-- What point `t` writes back is block `t` of the whole-array function. -/
theorem r2_flushed8 (t : Fin cfg2.N) :
    (dat2 (F := Ideal) V c).flushed 8 t = ((cfg2.win 8).blk t).view.read (Elt Ideal) (r2_G8 V c) := by
  show (cfg2.win 8).cut (grid2.coords t) ((dat2 (F := Ideal) V c).after 8 t) = _
  rw [after2_8]
  unfold outsAt2
  dsimp only
  rw [r2_piece8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (iblk2 V c 0 t) (iblk2 V c 1 t) (iblk2 V c 2 t) (iblk2 V c 3 t) (iblk2 V c 4 t) (iblk2 V c 5 t) (iblk2 V c 6 t)]
  funext j
  obtain ⟨p, q, rfl⟩ : ∃ (p : Fin 256) (q : Fin 128), j = ix2 p q := ⟨j 0, j 1, eq_ix2 j⟩
  show k2_pay4 (iblk2 V c 3 t) (iblk2 V c 0 t) (iblk2 V c 1 t) (r2_slab (grid2.coords t) (iblk2 V c 1 t)) (iblk2 V c 2 t) (ix2 p q) = r2_G8 V c (((cfg2.win 8).blk t).view.emb (ix2 p q))
  exact (r2_pay4_at V c t p q).trans (by rw [r2_emb8]; rfl)

/-- An index of the array is in point `t`'s block iff each coordinate is in the block's range on its axis. -/
theorem r2_mem_blk8 (t : Fin cfg2.N) (i : S4096x128.Idx) :
    i ∈ ((cfg2.win 8).blk t).view.set ↔ ∀ a : Fin 2, win2_8.index t a * S256x128.size a ≤ (i a).val ∧ (i a).val < win2_8.index t a * S256x128.size a + S256x128.size a := by
  show i ∈ ((View.whole main_v0_3).slice (win2_8.rect t)).set ↔ _
  rw [View.set_slice_whole, Rect.mem_set_unit]
  exact Iff.rfl

/-- Row `r` is in the block of point `r / 256`. -/
theorem r2_cover8 (i : S4096x128.Idx) :
    ∃ t : Fin cfg2.N, (cfg2.win 8).flush t = true ∧ i ∈ ((cfg2.win 8).blk t).view.set := by
  have hi0 : (i 0).val < 4096 := (i 0).isLt
  have hi1 : (i 1).val < 128 := (i 1).isLt
  have hN : cfg2.N = 16 := N_2
  have ht : (i 0).val / 256 < cfg2.N := by omega
  refine ⟨⟨(i 0).val / 256, ht⟩, flush2_8 _, ?_⟩
  rw [r2_mem_blk8]
  have e := r2_idx_row ⟨(i 0).val / 256, ht⟩
  intro a
  match a with
  | ⟨0, _⟩ =>
    show win2_8.index ⟨(i 0).val / 256, ht⟩ 0 * 256 ≤ (i 0).val ∧ (i 0).val < win2_8.index ⟨(i 0).val / 256, ht⟩ 0 * 256 + 256
    rw [e.2.2.2.2.2.2.1]
    show (i 0).val / 256 * 256 ≤ (i 0).val ∧ (i 0).val < (i 0).val / 256 * 256 + 256
    omega
  | ⟨1, _⟩ =>
    show win2_8.index ⟨(i 0).val / 256, ht⟩ 1 * 128 ≤ (i 1).val ∧ (i 1).val < win2_8.index ⟨(i 0).val / 256, ht⟩ 1 * 128 + 128
    rw [e.2.2.2.2.2.2.2.1]
    omega

/-- The array after the region is the whole-array function. -/
theorem r2_final8 : (dat2 (F := Ideal) V c).arrAt 8 cfg2.N = r2_G8 V c :=
  (dat2 (F := Ideal) V c).arrAt_eq_of_cover 8 (r2_G8 V c) (fun t _ => r2_flushed8 V c t) r2_cover8

theorem arr2_8 (V : Cont) (c : Dev nD) (r : Fin 4096) (k : Fin 128) :
    (dat2 (F := Ideal) V c).arrAt 8 cfg2.N (ix2 r k)
      = yK (abfOf V c) (laOf V c) (dOf V c) (fun i q => V c main_call0_v20 (ix2 i q)) r (hi k) :=
  congrFun (r2_final8 V c) (ix2 r k)

/-! ## Output window 9 -/

/-- The node head of the first half, as a whole array. -/
def r2_G9 : Buf (Elt Ideal) ((c : Thread nD τ).loc main_call0_v21_2) :=
  fun i => lnK (fun i q => yK (abfOf V c) (laOf V c) (dOf V c) (fun i q => V c main_call0_v20 (ix2 i q)) i (lo q)) (fun q j => V c main_call0_v13 (ix2 q j)) (fun j => V c main_call0_v18 (ix2 0 j)) (i 0) (i 1)

/-- An element of the block at point `t` sits in the array at row `256 t + p`. -/
theorem r2_emb9 (t : Fin cfg2.N) (p : Fin 256) (q : Fin 128) :
    ((cfg2.win 9).blk t).view.emb (ix2 p q) = ix2 (r2_row t p) q := by
  refine funext fun a => Fin.ext ?_
  have e := r2_idx_row t
  match a with
  | ⟨0, _⟩ => show win2_9.index t 0 * 256 + 1 * p.val = 256 * t.val + p.val; rw [e.2.2.2.2.2.2.2.2.1]; omega
  | ⟨1, _⟩ => show win2_9.index t 1 * 128 + 1 * q.val = q.val; rw [e.2.2.2.2.2.2.2.2.2.1]; omega

/-- What point `t` writes back is block `t` of the whole-array function. -/
theorem r2_flushed9 (t : Fin cfg2.N) :
    (dat2 (F := Ideal) V c).flushed 9 t = ((cfg2.win 9).blk t).view.read (Elt Ideal) (r2_G9 V c) := by
  show (cfg2.win 9).cut (grid2.coords t) ((dat2 (F := Ideal) V c).after 9 t) = _
  rw [after2_9]
  unfold outsAt2
  dsimp only
  rw [r2_piece9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (iblk2 V c 0 t) (iblk2 V c 1 t) (iblk2 V c 2 t) (iblk2 V c 3 t) (iblk2 V c 4 t) (iblk2 V c 5 t) (iblk2 V c 6 t)]
  funext j
  obtain ⟨p, q, rfl⟩ : ∃ (p : Fin 256) (q : Fin 128), j = ix2 p q := ⟨j 0, j 1, eq_ix2 j⟩
  show k2_pay5 (iblk2 V c 3 t) (iblk2 V c 0 t) (iblk2 V c 1 t) (r2_slab (grid2.coords t) (iblk2 V c 1 t)) (iblk2 V c 2 t) (iblk2 V c 5 t) (iblk2 V c 6 t) (ix2 p q) = r2_G9 V c (((cfg2.win 9).blk t).view.emb (ix2 p q))
  refine (r2_pay5_apply (iblk2 V c 3 t) (iblk2 V c 0 t) (iblk2 V c 1 t) (r2_slab (grid2.coords t) (iblk2 V c 1 t)) (iblk2 V c 2 t) (iblk2 V c 5 t) (iblk2 V c 6 t) p q).trans ?_
  simp only [r2_pay3_at, r2_blk5, r2_blk6]
  rw [r2_emb9]
  rfl

/-- An index of the array is in point `t`'s block iff each coordinate is in the block's range on its axis. -/
theorem r2_mem_blk9 (t : Fin cfg2.N) (i : S4096x128.Idx) :
    i ∈ ((cfg2.win 9).blk t).view.set ↔ ∀ a : Fin 2, win2_9.index t a * S256x128.size a ≤ (i a).val ∧ (i a).val < win2_9.index t a * S256x128.size a + S256x128.size a := by
  show i ∈ ((View.whole main_call0_v21_2).slice (win2_9.rect t)).set ↔ _
  rw [View.set_slice_whole, Rect.mem_set_unit]
  exact Iff.rfl

/-- Row `r` is in the block of point `r / 256`. -/
theorem r2_cover9 (i : S4096x128.Idx) :
    ∃ t : Fin cfg2.N, (cfg2.win 9).flush t = true ∧ i ∈ ((cfg2.win 9).blk t).view.set := by
  have hi0 : (i 0).val < 4096 := (i 0).isLt
  have hi1 : (i 1).val < 128 := (i 1).isLt
  have hN : cfg2.N = 16 := N_2
  have ht : (i 0).val / 256 < cfg2.N := by omega
  refine ⟨⟨(i 0).val / 256, ht⟩, flush2_9 _, ?_⟩
  rw [r2_mem_blk9]
  have e := r2_idx_row ⟨(i 0).val / 256, ht⟩
  intro a
  match a with
  | ⟨0, _⟩ =>
    show win2_9.index ⟨(i 0).val / 256, ht⟩ 0 * 256 ≤ (i 0).val ∧ (i 0).val < win2_9.index ⟨(i 0).val / 256, ht⟩ 0 * 256 + 256
    rw [e.2.2.2.2.2.2.2.2.1]
    show (i 0).val / 256 * 256 ≤ (i 0).val ∧ (i 0).val < (i 0).val / 256 * 256 + 256
    omega
  | ⟨1, _⟩ =>
    show win2_9.index ⟨(i 0).val / 256, ht⟩ 1 * 128 ≤ (i 1).val ∧ (i 1).val < win2_9.index ⟨(i 0).val / 256, ht⟩ 1 * 128 + 128
    rw [e.2.2.2.2.2.2.2.2.2.1]
    omega

/-- The array after the region is the whole-array function. -/
theorem r2_final9 : (dat2 (F := Ideal) V c).arrAt 9 cfg2.N = r2_G9 V c :=
  (dat2 (F := Ideal) V c).arrAt_eq_of_cover 9 (r2_G9 V c) (fun t _ => r2_flushed9 V c t) r2_cover9

theorem arr2_9 (V : Cont) (c : Dev nD) (r : Fin 4096) (k : Fin 128) :
    (dat2 (F := Ideal) V c).arrAt 9 cfg2.N (ix2 r k)
      = lnK (fun i q => yK (abfOf V c) (laOf V c) (dOf V c) (fun i q => V c main_call0_v20 (ix2 i q)) i (lo q))
          (fun q j => V c main_call0_v13 (ix2 q j)) (fun j => V c main_call0_v18 (ix2 0 j)) r k :=
  congrFun (r2_final9 V c) (ix2 r k)

/-! ## Output window 10 -/

/-- The scaled decoder projection of the last half, as a whole array. -/
def r2_G10 : Buf (Elt Ideal) ((c : Thread nD τ).loc main_call0_v21_3) :=
  fun i => dzK (dOf V c) (fun i q => yK (abfOf V c) (laOf V c) (dOf V c) (fun i q => V c main_call0_v20 (ix2 i q)) i (hi q)) (fun q j => V c main_call0_v10 (ix2 q j)) (i 0) (i 1)

/-- An element of the block at point `t` sits in the array at row `256 t + p`. -/
theorem r2_emb10 (t : Fin cfg2.N) (p : Fin 256) (q : Fin 128) :
    ((cfg2.win 10).blk t).view.emb (ix2 p q) = ix2 (r2_row t p) q := by
  refine funext fun a => Fin.ext ?_
  have e := r2_idx_row t
  match a with
  | ⟨0, _⟩ => show win2_10.index t 0 * 256 + 1 * p.val = 256 * t.val + p.val; rw [e.2.2.2.2.2.2.2.2.2.2.1]; omega
  | ⟨1, _⟩ => show win2_10.index t 1 * 128 + 1 * q.val = q.val; rw [e.2.2.2.2.2.2.2.2.2.2.2.1]; omega

/-- What point `t` writes back is block `t` of the whole-array function. -/
theorem r2_flushed10 (t : Fin cfg2.N) :
    (dat2 (F := Ideal) V c).flushed 10 t = ((cfg2.win 10).blk t).view.read (Elt Ideal) (r2_G10 V c) := by
  show (cfg2.win 10).cut (grid2.coords t) ((dat2 (F := Ideal) V c).after 10 t) = _
  rw [after2_10]
  unfold outsAt2
  dsimp only
  rw [r2_piece10 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (iblk2 V c 0 t) (iblk2 V c 1 t) (iblk2 V c 2 t) (iblk2 V c 3 t) (iblk2 V c 4 t) (iblk2 V c 5 t) (iblk2 V c 6 t)]
  funext j
  obtain ⟨p, q, rfl⟩ : ∃ (p : Fin 256) (q : Fin 128), j = ix2 p q := ⟨j 0, j 1, eq_ix2 j⟩
  show k2_pay1 (k2_pay4 (iblk2 V c 3 t) (iblk2 V c 0 t) (iblk2 V c 1 t) (r2_slab (grid2.coords t) (iblk2 V c 1 t)) (iblk2 V c 2 t)) (iblk2 V c 2 t) (iblk2 V c 4 t) (ix2 p q) = r2_G10 V c (((cfg2.win 10).blk t).view.emb (ix2 p q))
  refine (r2_pay1_apply (k2_pay4 (iblk2 V c 3 t) (iblk2 V c 0 t) (iblk2 V c 1 t) (r2_slab (grid2.coords t) (iblk2 V c 1 t)) (iblk2 V c 2 t)) (iblk2 V c 2 t) (iblk2 V c 4 t) p q).trans ?_
  simp only [r2_pay4_at, r2_blk2, r2_blk4]
  rw [r2_emb10]
  rfl

/-- An index of the array is in point `t`'s block iff each coordinate is in the block's range on its axis. -/
theorem r2_mem_blk10 (t : Fin cfg2.N) (i : S4096x128.Idx) :
    i ∈ ((cfg2.win 10).blk t).view.set ↔ ∀ a : Fin 2, win2_10.index t a * S256x128.size a ≤ (i a).val ∧ (i a).val < win2_10.index t a * S256x128.size a + S256x128.size a := by
  show i ∈ ((View.whole main_call0_v21_3).slice (win2_10.rect t)).set ↔ _
  rw [View.set_slice_whole, Rect.mem_set_unit]
  exact Iff.rfl

/-- Row `r` is in the block of point `r / 256`. -/
theorem r2_cover10 (i : S4096x128.Idx) :
    ∃ t : Fin cfg2.N, (cfg2.win 10).flush t = true ∧ i ∈ ((cfg2.win 10).blk t).view.set := by
  have hi0 : (i 0).val < 4096 := (i 0).isLt
  have hi1 : (i 1).val < 128 := (i 1).isLt
  have hN : cfg2.N = 16 := N_2
  have ht : (i 0).val / 256 < cfg2.N := by omega
  refine ⟨⟨(i 0).val / 256, ht⟩, flush2_10 _, ?_⟩
  rw [r2_mem_blk10]
  have e := r2_idx_row ⟨(i 0).val / 256, ht⟩
  intro a
  match a with
  | ⟨0, _⟩ =>
    show win2_10.index ⟨(i 0).val / 256, ht⟩ 0 * 256 ≤ (i 0).val ∧ (i 0).val < win2_10.index ⟨(i 0).val / 256, ht⟩ 0 * 256 + 256
    rw [e.2.2.2.2.2.2.2.2.2.2.1]
    show (i 0).val / 256 * 256 ≤ (i 0).val ∧ (i 0).val < (i 0).val / 256 * 256 + 256
    omega
  | ⟨1, _⟩ =>
    show win2_10.index ⟨(i 0).val / 256, ht⟩ 1 * 128 ≤ (i 1).val ∧ (i 1).val < win2_10.index ⟨(i 0).val / 256, ht⟩ 1 * 128 + 128
    rw [e.2.2.2.2.2.2.2.2.2.2.2.1]
    omega

/-- The array after the region is the whole-array function. -/
theorem r2_final10 : (dat2 (F := Ideal) V c).arrAt 10 cfg2.N = r2_G10 V c :=
  (dat2 (F := Ideal) V c).arrAt_eq_of_cover 10 (r2_G10 V c) (fun t _ => r2_flushed10 V c t) r2_cover10

theorem arr2_10 (V : Cont) (c : Dev nD) (r : Fin 4096) (k : Fin 128) :
    (dat2 (F := Ideal) V c).arrAt 10 cfg2.N (ix2 r k)
      = dzK (dOf V c) (fun i q => yK (abfOf V c) (laOf V c) (dOf V c) (fun i q => V c main_call0_v20 (ix2 i q)) i (hi q))
          (fun q j => V c main_call0_v10 (ix2 q j)) r k :=
  congrFun (r2_final10 V c) (ix2 r k)

end Cert.KernelIdeal.Val

end
-- ==== Proof.R3Pay.lean ====
/-
  Region 3 (the decoder's graph layer), one grid point: what the body leaves in the output's staging buffer, as the
  arithmetic of its loaded blocks, and that arithmetic read at a row `p` and a column `q` of the block over the
  extended reals:
      d_p * ((sum_j a_{p j} * z_{j q}) + la * z'_{p q}),
  `a` the adjacency's row block, `z` the whole second operand, `z'` the slab of it loaded at the block's own rows,
  `d` the normalizer's block and `la` the self-loop weight.
-/
import proofs.«120297_g49246095016346_cont_8to1c4_490_5_alg».proof.Proof.ValDefs
import Idealize.ShloMosaic.Lib.Pipeline.Value
import Idealize.ShloMosaic.Lib.ValueIdx
import Idealize.ShloMosaic.PureOps.Ideal.Laws

noncomputable section

namespace Cert.KernelIdeal.Val

open Idealize.ShloMosaic Idealize.ShloMosaic.TcCoe Idealize.SL.Sem Idealize.ShloMosaic.ValueIdx
open Cert.KernelIdeal Cert.KernelIdeal.Gen Cert.Spec

/-- The zero offsets of a whole-buffer rectangle, as a constant function. -/
theorem r3_hz : (![0, 0] : Fin 2 → Nat) = fun _ => 0 := funext fun a => by fin_cases a <;> rfl

section AnyValues
variable {F : FTy → Type} [FloatOps F]

/-- The body's one store covers the output block, and its payload's loads read the input buffers whole, except the
    slab of the second operand, read through the rectangle of 256 rows at the point's row offset. -/
theorem r3_out_eq (c : Dev nD) (i : grid3.Coords) (arg1 : Memref sig .tc .vmem S256x4096 .bf16) (harg1 : arg1.IsWhole)
    (arg2 : Memref sig .tc .vmem S4096x128 .bf16) (harg2 : arg2.IsWhole) (arg3 : Memref sig .tc .vmem S256x1 .f32) (harg3 : arg3.IsWhole)
    (arg4 : Memref sig .tc .vmem S1x1 .f32) (harg4 : arg4.IsWhole) (arg5 : Memref sig .tc .vmem S256x128 .f32) (harg5 : arg5.IsWhole)
    (x0 : Vec F S256x4096 .bf16) (x1 : Vec F S4096x128 .bf16) (x2 : Vec F S256x1 .f32) (x3 : Vec F S1x1 .f32) :
    out3_A_4 c i arg1 harg1 arg2 harg2 arg3 harg3 arg4 harg4 arg5 harg5 x0 x1 x2 x3
      = k3_pay1 x3 x0 x1 (View.ld x1 (Rect.unit (s := S4096x128) (k3_off1 i) S256x128.size (k3_off1_inb i))) x2 := by
  unfold out3_A_4
  rw [View.read_writes_eq_canon _ _ _ (cover3_A_4 c i arg1 harg1 arg2 harg2 arg3 harg3 arg4 harg4 arg5 harg5 x0 x1 x2 x3)]
  unfold kernelRun3_A
  dsimp only
  rw [View.canon_unit_zero r3_hz]
  simp only [View.readAt_eq_ld, harg1.read_unread, harg2.read_unread, harg3.read_unread, harg4.read_unread,
    View.ld_unit_zero (S := S1x1) r3_hz, View.ld_unit_zero (S := S256x4096) r3_hz, View.ld_unit_zero (S := S4096x128) r3_hz,
    View.ld_unit_zero (S := S256x1) r3_hz]

/-- The payload without its same-shape casts. -/
theorem r3_pay1_eq (v0 : Vec F S1x1 .f32) (v2 : Vec F S256x4096 .bf16) (v4 : Vec F S4096x128 .bf16) (v9 : Vec F S256x128 .bf16)
    (v15 : Vec F S256x1 .f32) :
    k3_pay1 v0 v2 v4 v9 v15
      = mulf (broadcastTo S256x128 v15 broadcasts_S256x1_S256x128)
          (addf (matmul dot_S256x4096_S4096x128_S256x128_1_0_0_1_n_n none v2 v4 (constant S256x128 .f32 0x00000000#32))
            (mulf (broadcast S256x128 (extractAt ![0, 0] v0 inpos_S1x1_p0_0)) (extf .f32 v9 bitsLt_bf16_f32))) := by
  unfold k3_pay1
  simp only [shapeCast_self]

end AnyValues

/-! ## At the extended reals, by coordinates -/

/-- The product's left operand is read at the output's row … -/
theorem r3_lhs0 (i : S256x128.Idx) (k : dot_S256x4096_S4096x128_S256x128_1_0_0_1_n_n.contr.Idx) :
    (dot_S256x4096_S4096x128_S256x128_1_0_0_1_n_n.lhsIdx i k 0).val = (i 0).val := by
  unfold DotDims.lhsIdx
  rw [dif_neg (show ¬(0 : Fin S256x4096.rank) ∈ dot_S256x4096_S4096x128_S256x128_1_0_0_1_n_n.lhsBatch by decide),
    dif_pos (show (0 : Fin S256x4096.rank) ∈ dot_S256x4096_S4096x128_S256x128_1_0_0_1_n_n.lhsNonContracting by decide)]
  rfl
/-- … and the contraction's column, -/
theorem r3_lhs1 (i : S256x128.Idx) (k : dot_S256x4096_S4096x128_S256x128_1_0_0_1_n_n.contr.Idx) :
    (dot_S256x4096_S4096x128_S256x128_1_0_0_1_n_n.lhsIdx i k 1).val = (k ⟨0, by decide⟩).val :=
  dot_S256x4096_S4096x128_S256x128_1_0_0_1_n_n.lhsIdx_val_of_single rfl i k
/-- the right operand at the contraction's row … -/
theorem r3_rhs0 (i : S256x128.Idx) (k : dot_S256x4096_S4096x128_S256x128_1_0_0_1_n_n.contr.Idx) :
    (dot_S256x4096_S4096x128_S256x128_1_0_0_1_n_n.rhsIdx i k 0).val = (k ⟨0, by decide⟩).val :=
  dot_S256x4096_S4096x128_S256x128_1_0_0_1_n_n.rhsIdx_val_of_single rfl i k
/-- … and the output's column. -/
theorem r3_rhs1 (i : S256x128.Idx) (k : dot_S256x4096_S4096x128_S256x128_1_0_0_1_n_n.contr.Idx) :
    (dot_S256x4096_S4096x128_S256x128_1_0_0_1_n_n.rhsIdx i k 1).val = (i 1).val := by
  unfold DotDims.rhsIdx
  rw [dif_neg (show ¬(1 : Fin S4096x128.rank) ∈ dot_S256x4096_S4096x128_S256x128_1_0_0_1_n_n.rhsBatch by decide),
    dif_pos (show (1 : Fin S4096x128.rank) ∈ dot_S256x4096_S4096x128_S256x128_1_0_0_1_n_n.rhsNonContracting by decide)]
  rfl

/-- The block product at row `p`, column `q`: the sum over the 4096 columns of the adjacency block's row. -/
theorem r3_mm_apply (a : FVec Ideal S256x4096 .bf16) (b : FVec Ideal S4096x128 .bf16) (p : Fin 256) (q : Fin 128) :
    matmul dot_S256x4096_S4096x128_S256x128_1_0_0_1_n_n none a b (constant (F := Ideal) S256x128 .f32 0x00000000#32) (ix2 p q)
      = ∑ j : Fin 4096, a (ix2 p j) * b (ix2 j q) := by
  simp only [matmul]
  rw [Ideal.matmul_constant_zero_apply,
    ← Equiv.sum_comp (contrEquiv1 dot_S256x4096_S4096x128_S256x128_1_0_0_1_n_n 4096 rfl rfl).symm]
  refine Finset.sum_congr rfl fun k _ => ?_
  have hk := contrEquiv1_symm_val dot_S256x4096_S4096x128_S256x128_1_0_0_1_n_n 4096 rfl rfl k
  have el : dot_S256x4096_S4096x128_S256x128_1_0_0_1_n_n.lhsIdx (ix2 p q)
      ((contrEquiv1 dot_S256x4096_S4096x128_S256x128_1_0_0_1_n_n 4096 rfl rfl).symm k) = ix2 p k :=
    funext fun d => Fin.ext (by
      match d with
      | ⟨0, _⟩ => exact r3_lhs0 _ _
      | ⟨1, _⟩ => exact (r3_lhs1 _ _).trans hk)
  have er : dot_S256x4096_S4096x128_S256x128_1_0_0_1_n_n.rhsIdx (ix2 p q)
      ((contrEquiv1 dot_S256x4096_S4096x128_S256x128_1_0_0_1_n_n 4096 rfl rfl).symm k) = ix2 k q :=
    funext fun d => Fin.ext (by
      match d with
      | ⟨0, _⟩ => exact (r3_rhs0 _ _).trans hk
      | ⟨1, _⟩ => exact r3_rhs1 _ _)
  rw [el, er]

/-- A column of 256 entries spread over 128 columns reads its row's entry. -/
theorem r3_bcol_apply (x : FVec Ideal S256x1 .f32) (p : Fin 256) (q : Fin 128) :
    broadcastTo S256x128 x broadcasts_S256x1_S256x128 (ix2 p q) = x (ix2 p 0) :=
  broadcastTo_apply x broadcasts_S256x1_S256x128 (ix2 p q) (ix2 p 0) fun a => by
    match a with
    | ⟨0, _⟩ => rfl
    | ⟨1, _⟩ => rfl

/-- The payload at row `p`, column `q` of the block. -/
theorem r3_pay1_apply (v0 : Vec Ideal S1x1 .f32) (v2 : Vec Ideal S256x4096 .bf16) (v4 : Vec Ideal S4096x128 .bf16)
    (v9 : Vec Ideal S256x128 .bf16) (v15 : Vec Ideal S256x1 .f32) (p : Fin 256) (q : Fin 128) :
    k3_pay1 v0 v2 v4 v9 v15 (ix2 p q)
      = v15 (ix2 p 0) * ((∑ j : Fin 4096, v2 (ix2 p j) * v4 (ix2 j q)) + v0 (ix2 0 0) * v9 (ix2 p q)) := by
  rw [r3_pay1_eq]
  show broadcastTo S256x128 v15 broadcasts_S256x1_S256x128 (ix2 p q)
      * (matmul dot_S256x4096_S4096x128_S256x128_1_0_0_1_n_n none v2 v4 (constant (F := Ideal) S256x128 .f32 0x00000000#32) (ix2 p q)
        + extractAt ![0, 0] v0 inpos_S1x1_p0_0 * v9 (ix2 p q)) = _
  rw [r3_bcol_apply, r3_mm_apply]
  have e0 : extractAt ![0, 0] v0 inpos_S1x1_p0_0 = v0 (ix2 0 0) :=
    congrArg v0 (funext fun a => Fin.ext (by match a with | ⟨0, _⟩ => rfl | ⟨1, _⟩ => rfl))
  rw [e0]

end Cert.KernelIdeal.Val

end
-- ==== Proof.R3.lean ====
/-
  Region 3 (the decoder's graph layer) over the whole grid: its output array, entry by entry.

  The grid has 16 points; point `t` holds rows `256 t .. 256 t + 255` of the adjacency copy, of the normalizer and of
  the output, and the whole second operand and the self-loop weight. What point `t` writes back is therefore rows
  `256 t ..` of ONE function of the region's entry contents,
      out r k = d r * ((sum_j adj r j * dz j k) + la * dz r k),
  the slab of the second operand the body loads at its own row offset being exactly the output block's rows. The 16
  row blocks tile the array (row `r` lies in the block of point `r / 256`), so the array ends holding that function.
-/
import proofs.«120297_g49246095016346_cont_8to1c4_490_5_alg».proof.Proof.R3Pay

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.Spec

/-- Row `p` of point `t`'s block is row `256 t + p` of the array. -/
def r3_row (t : Fin cfg3.N) (p : Fin 256) : Fin 4096 :=
  ⟨256 * t.val + p.val, by have := t.isLt; have hN : cfg3.N = 16 := N_3; omega⟩

/-- The block indices over the grid: the row-blocked windows (the adjacency copy, the normalizer, the output) sit at
    block `t` of their first axis, the whole windows at block zero, and the body's slab load starts at row `256 t`. -/
theorem r3_idx : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ k3_off1 (grid3.coords t) (0 : Fin 2) = 256 * t.val ∧ k3_off1 (grid3.coords t) (1 : Fin 2) = 0 :=
  (by decide +kernel : ∀ t : Fin grid3.N, _)

/-! ## The input blocks at a point, read off the entry contents -/

/-- The adjacency copy's block: rows `256 t ..`, every column. -/
theorem r3_blk0 (V : Cont) (c : Dev nD) (t : Fin cfg3.N) (p : Fin 256) (j : Fin 4096) :
    iblk3 V c 0 t (ix2 p j) = V c main_call0_v19_0 (ix2 (r3_row t p) j) := by
  obtain ⟨e0, e1, -⟩ := r3_idx t
  unfold iblk3
  rw [View.read_apply]
  show V c main_call0_v19_0 (((cfg3.win 0).blk t).view.emb (ix2 p j)) = _
  refine congrArg _ (funext fun a => Fin.ext ?_)
  match a with
  | ⟨0, _⟩ => show win3_0.index t (0 : Fin 2) * 256 + 1 * p.val = 256 * t.val + p.val; rw [e0]; omega
  | ⟨1, _⟩ => show win3_0.index t (1 : Fin 2) * 4096 + 1 * j.val = j.val; rw [e1]; omega

/-- The second operand's block is the whole array. -/
theorem r3_blk1 (V : Cont) (c : Dev nD) (t : Fin cfg3.N) (j : Fin 4096) (q : Fin 128) :
    iblk3 V c 1 t (ix2 j q) = V c main_call0_v21_3 (ix2 j q) := by
  obtain ⟨-, -, e0, e1, -⟩ := r3_idx t
  unfold iblk3
  rw [View.read_apply]
  show V c main_call0_v21_3 (((cfg3.win 1).blk t).view.emb (ix2 j q)) = _
  refine congrArg _ (funext fun a => Fin.ext ?_)
  match a with
  | ⟨0, _⟩ => show win3_1.index t (0 : Fin 2) * 4096 + 1 * j.val = j.val; rw [e0]; omega
  | ⟨1, _⟩ => show win3_1.index t (1 : Fin 2) * 128 + 1 * q.val = q.val; rw [e1]; omega

/-- The normalizer's block: rows `256 t ..` of its one column. -/
theorem r3_blk2 (V : Cont) (c : Dev nD) (t : Fin cfg3.N) (p : Fin 256) :
    iblk3 V c 2 t (ix2 p 0) = V c main_call0_v19_1 (ix2 (r3_row t p) 0) := by
  obtain ⟨-, -, -, -, e0, e1, -⟩ := r3_idx t
  unfold iblk3
  rw [View.read_apply]
  show V c main_call0_v19_1 (((cfg3.win 2).blk t).view.emb (ix2 p 0)) = _
  refine congrArg _ (funext fun a => Fin.ext ?_)
  match a with
  | ⟨0, _⟩ => show win3_2.index t (0 : Fin 2) * 256 + 1 * p.val = 256 * t.val + p.val; rw [e0]; omega
  | ⟨1, _⟩ => show win3_2.index t (1 : Fin 2) * 1 + 1 * 0 = 0; rw [e1]

/-- The self-loop weight's block is its one entry. -/
theorem r3_blk3 (V : Cont) (c : Dev nD) (t : Fin cfg3.N) :
    iblk3 V c 3 t (ix2 0 0) = V c main_call0_v2 (ix2 0 0) := by
  obtain ⟨-, -, -, -, -, -, e0, e1, -⟩ := r3_idx t
  unfold iblk3
  rw [View.read_apply]
  show V c main_call0_v2 (((cfg3.win 3).blk t).view.emb (ix2 0 0)) = _
  refine congrArg _ (funext fun a => Fin.ext ?_)
  match a with
  | ⟨0, _⟩ => show win3_3.index t (0 : Fin 2) * 1 + 1 * 0 = 0; rw [e0]
  | ⟨1, _⟩ => show win3_3.index t (1 : Fin 2) * 1 + 1 * 0 = 0; rw [e1]

/-- The slab of the second operand the body loads at its own offset: rows `256 t ..`, the output block's rows. -/
theorem r3_slab (V : Cont) (c : Dev nD) (t : Fin cfg3.N) (p : Fin 256) (q : Fin 128) :
    View.ld (iblk3 V c 1 t) (Rect.unit (s := S4096x128) (k3_off1 (grid3.coords t)) S256x128.size (k3_off1_inb (grid3.coords t))) (ix2 p q)
      = V c main_call0_v21_3 (ix2 (r3_row t p) q) := by
  obtain ⟨-, -, -, -, -, -, -, -, -, -, e0, e1⟩ := r3_idx t
  have e : (Rect.unit (s := S4096x128) (k3_off1 (grid3.coords t)) S256x128.size (k3_off1_inb (grid3.coords t))).idx (ix2 p q)
      = ix2 (r3_row t p) q := funext fun a => Fin.ext (by
    match a with
    | ⟨0, _⟩ => show k3_off1 (grid3.coords t) (0 : Fin 2) + 1 * p.val = 256 * t.val + p.val; rw [e0]; omega
    | ⟨1, _⟩ => show k3_off1 (grid3.coords t) (1 : Fin 2) + 1 * q.val = q.val; rw [e1]; omega)
  show iblk3 V c 1 t ((Rect.unit (s := S4096x128) (k3_off1 (grid3.coords t)) S256x128.size (k3_off1_inb (grid3.coords t))).idx (ix2 p q)) = _
  rw [e]
  exact r3_blk1 V c t (r3_row t p) q

/-! ## What a point writes back, and the array after the grid -/

/-- The output array as one function of the region's entry contents. -/
def r3_G (V : Cont) (c : Dev nD) : S4096x128.Idx → EReal := fun i =>
  outK (abfOf V c) (laOf V c) (dOf V c) (fun a b => V c main_call0_v21_3 (ix2 a b)) (i 0) (i 1)

/-- An entry of point `t`'s output block sits at row `256 t + p` of the array. -/
theorem r3_emb4 (t : Fin cfg3.N) (p : Fin 256) (q : Fin 128) :
    ((cfg3.win 4).blk t).view.emb (ix2 p q) = ix2 (r3_row t p) q := by
  obtain ⟨-, -, -, -, -, -, -, -, e0, e1, -⟩ := r3_idx t
  refine funext fun a => Fin.ext ?_
  match a with
  | ⟨0, _⟩ => show win3_4.index t (0 : Fin 2) * 256 + 1 * p.val = 256 * t.val + p.val; rw [e0]; omega
  | ⟨1, _⟩ => show win3_4.index t (1 : Fin 2) * 128 + 1 * q.val = q.val; rw [e1]; omega

/-- What point `t` writes back is its block of that function. -/
theorem r3_flushed_eq (V : Cont) (c : Dev nD) (t : Fin cfg3.N) :
    (dat3 V c).flushed 4 t = ((cfg3.win 4).blk t).view.read (Elt Ideal) (r3_G V c) := by
  show (cfg3.win 4).cut (grid3.coords t) ((dat3 V c).after 4 t) = _
  rw [after3_4]
  unfold outsAt3
  rw [r3_out_eq (F := Ideal) c (grid3.coords t) (ms3_0 t) (hs3_0 t) (ms3_1 t) (hs3_1 t) (ms3_2 t) (hs3_2 t) (ms3_3 t) (hs3_3 t)
    (ms3_4 t) (hs3_4 t) (iblk3 V c 0 t) (iblk3 V c 1 t) (iblk3 V c 2 t) (iblk3 V c 3 t)]
  funext y
  obtain ⟨p, q, rfl⟩ : ∃ (p : Fin 256) (q : Fin 128), y = ix2 p q := ⟨y 0, y 1, eq_ix2 y⟩
  rw [View.read_apply, r3_emb4 t p q]
  refine (r3_pay1_apply (iblk3 V c 3 t) (iblk3 V c 0 t) (iblk3 V c 1 t)
    (View.ld (iblk3 V c 1 t) (Rect.unit (s := S4096x128) (k3_off1 (grid3.coords t)) S256x128.size (k3_off1_inb (grid3.coords t))))
    (iblk3 V c 2 t) p q).trans ?_
  rw [r3_blk2 V c t p, r3_blk3 V c t, r3_slab V c t p q]
  simp only [r3_blk0 V c t p, r3_blk1 V c t]
  rfl

/-- An index lies in point `t`'s output block iff each coordinate lies in the block's range on its axis. -/
theorem r3_mem_blk (t : Fin cfg3.N) (i : S4096x128.Idx) :
    i ∈ ((cfg3.win 4).blk t).view.set ↔ ∀ a : Fin 2, win3_4.index t a * S256x128.size a ≤ (i a).val
      ∧ (i a).val < win3_4.index t a * S256x128.size a + S256x128.size a := by
  show i ∈ ((View.whole main_call0_v22).slice (win3_4.rect t)).set ↔ _
  rw [View.set_slice_whole, Rect.mem_set_unit]
  exact Iff.rfl

/-- Row `r` is covered by point `r / 256`. -/
theorem r3_cover (i : S4096x128.Idx) :
    ∃ t : Fin cfg3.N, (cfg3.win 4).flush t = true ∧ i ∈ ((cfg3.win 4).blk t).view.set := by
  have hN : cfg3.N = 16 := N_3
  have hi0 : (i 0).val < 4096 := (i 0).isLt
  have hi1 : (i 1).val < 128 := (i 1).isLt
  have ht : (i 0).val / 256 < cfg3.N := by omega
  obtain ⟨-, -, -, -, -, -, -, -, e0, e1, -⟩ := r3_idx ⟨(i 0).val / 256, ht⟩
  refine ⟨⟨(i 0).val / 256, ht⟩, flush3_4 _, ?_⟩
  rw [r3_mem_blk]
  intro a
  match a with
  | ⟨0, _⟩ =>
    show win3_4.index ⟨(i 0).val / 256, ht⟩ (0 : Fin 2) * 256 ≤ (i 0).val
      ∧ (i 0).val < win3_4.index ⟨(i 0).val / 256, ht⟩ (0 : Fin 2) * 256 + 256
    rw [e0]; show (i 0).val / 256 * 256 ≤ (i 0).val ∧ (i 0).val < (i 0).val / 256 * 256 + 256; omega
  | ⟨1, _⟩ =>
    show win3_4.index ⟨(i 0).val / 256, ht⟩ (1 : Fin 2) * 128 ≤ (i 1).val
      ∧ (i 1).val < win3_4.index ⟨(i 0).val / 256, ht⟩ (1 : Fin 2) * 128 + 128
    rw [e1]; omega

/-- The output array after the grid. -/
theorem r3_final (V : Cont) (c : Dev nD) : (dat3 (F := Ideal) V c).arrAt 4 cfg3.N = r3_G V c :=
  (dat3 V c).arrAt_eq_of_cover 4 (r3_G V c) (fun t _ => r3_flushed_eq V c t) r3_cover

/-- The decoder's graph layer, entry by entry: the normalizer times the adjacency product with the self loop added. -/
theorem arr3_4 (V : Cont) (c : Dev nD) (r : Fin 4096) (k : Fin 128) :
    (dat3 (F := Ideal) V c).arrAt 4 cfg3.N (ix2 r k)
      = outK (abfOf V c) (laOf V c) (dOf V c) (fun i q => V c main_call0_v21_3 (ix2 i q)) r k :=
  congrFun (r3_final V c) (ix2 r k)

end Cert.KernelIdeal.Val

end
-- ==== Proof.HostReshape.lean ====
/-
  The three reshapes in front of the first pass, read by coordinates: the features and the adjacency lose their
  leading unit axis (row-major position `(0 * 4096 + i) * n + q = i * n + q`), and the scalar self-loop weight
  becomes a one by one array.
-/
import proofs.«120297_g49246095016346_cont_8to1c4_490_5_alg».proof.Proof.ValDefs
import Idealize.ShloMosaic.Lib.StableHlo.Run
import Idealize.ShloMosaic.Lib.Pipeline.Value
import Idealize.ShloMosaic.Lib.ValueIdx

noncomputable section

open Idealize.ShloMosaic Idealize.ShloMosaic.TcCoe Idealize.SL.Sem Idealize.ShloMosaic.ValueIdx
open Cert.Spec

namespace Cert.KernelIdeal.Val

open Cert.KernelIdeal Cert.KernelIdeal.Gen

variable (m : (ℓ : Loc nD τ sig) → Buf (Elt Ideal) ℓ) (ρ : Dev nD → PrngReg) (c : Dev nD)

/-! ## What each host line before the first pass leaves in its buffer, as a term of the launch memory -/

theorem host_e_v0 : (V1 (F := Ideal) m ρ c main_call0_v0 : S4096x128.Idx → EReal)
    = shapeCast S4096x128 (m ((c.tc : Thread nD τ).loc main_arg0)) shapeCasts_S1x4096x128_S4096x128 := by
  dsimp only [Gen.V1, Gen.W1, Gen.W0, Gen.hostOps0]
  after_results
  rfl

theorem host_e_v1 : (V1 (F := Ideal) m ρ c main_call0_v1 : S4096x4096.Idx → EReal)
    = shapeCast S4096x4096 (m ((c.tc : Thread nD τ).loc main_arg1)) shapeCasts_S1x4096x4096_S4096x4096 := by
  dsimp only [Gen.V1, Gen.W1, Gen.W0, Gen.hostOps0]
  after_results
  rfl

theorem host_e_v2 : (V1 (F := Ideal) m ρ c main_call0_v2 : S1x1.Idx → EReal)
    = shapeCast S1x1 (m ((c.tc : Thread nD τ).loc main_arg2)) shapeCasts_S_S1x1 := by
  dsimp only [Gen.V1, Gen.W1, Gen.W0, Gen.hostOps0]
  after_results
  rfl

/-- The features: the leading unit axis dropped. -/
theorem V1_xs (i : Fin 4096) (q : Fin 128) : V1 (F := Ideal) m ρ c main_call0_v0 (ix2 i q) = m ((c.tc : Thread nD τ).loc main_arg0) (ix3 0 i q) :=
  (congrFun (host_e_v0 m ρ c) (ix2 i q)).trans
    (shapeCast_apply _ shapeCasts_S1x4096x128_S4096x128 (ix2 i q) (ix3 0 i q) (by
      rw [Shape.rowMajor_val_three, Shape.rowMajor_val_two]
      show (0 * 4096 + i.val) * 128 + q.val = i.val * 128 + q.val
      omega))

/-- The adjacency: the leading unit axis dropped. -/
theorem V1_adj (i j : Fin 4096) : V1 (F := Ideal) m ρ c main_call0_v1 (ix2 i j) = m ((c.tc : Thread nD τ).loc main_arg1) (ix3 0 i j) :=
  (congrFun (host_e_v1 m ρ c) (ix2 i j)).trans
    (shapeCast_apply _ shapeCasts_S1x4096x4096_S4096x4096 (ix2 i j) (ix3 0 i j) (by
      rw [Shape.rowMajor_val_three, Shape.rowMajor_val_two]
      show (0 * 4096 + i.val) * 4096 + j.val = i.val * 4096 + j.val
      omega))

/-- The self-loop weight: the scalar as a one by one array. -/
theorem V1_la : V1 (F := Ideal) m ρ c main_call0_v2 (ix2 0 0) = m ((c.tc : Thread nD τ).loc main_arg2) ix0 :=
  (congrFun (host_e_v2 m ρ c) (ix2 0 0)).trans
    (shapeCast_apply _ shapeCasts_S_S1x1 (ix2 0 0) ix0 (by
      rw [Shape.rowMajor_val_two]
      have h := (S_.rowMajor ix0).isLt
      have hn : S_.numel = 1 := rfl
      show (S_.rowMajor ix0).val = 0 * 1 + 0
      omega))

end Cert.KernelIdeal.Val

end
-- ==== Proof.HostConcat.lean ====
/-
  The two weight concatenations in front of the first pass, read by coordinates. The encoder weight is
  `[We1 | Wh1]`: column `k` of the left half is `We1`'s column `k`, column `128 + k` is `Wh1`'s. The second layer's
  weight is block diagonal, `[[We2, 0], [0, Wh2]]`: the two off-diagonal blocks read zero.
-/
import proofs.«120297_g49246095016346_cont_8to1c4_490_5_alg».proof.Proof.ValDefs
import Idealize.ShloMosaic.Lib.StableHlo.Run
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Cert.Spec

namespace Cert.KernelIdeal.Val

open Cert.KernelIdeal Cert.KernelIdeal.Gen

variable (m : (ℓ : Loc nD τ sig) → Buf (Elt Ideal) ℓ) (ρ : Dev nD → PrngReg) (c : Dev nD)

/-- The 128 by 128 array of zeros that pads the second layer's block-diagonal weight. -/
abbrev host_zeros : S128x128.Idx → EReal :=
  broadcastInDim S128x128 ![] bcast_S_S128x128 (constant (F := Ideal) S_ .f32 0x00000000#32)

theorem host_e_v3 : (V1 (F := Ideal) m ρ c main_call0_v3 : S128x256.Idx → EReal)
    = concatenate S128x256 1 [⟨S128x128, m ((c.tc : Thread nD τ).loc main_arg3)⟩, ⟨S128x128, m ((c.tc : Thread nD τ).loc main_arg5)⟩]
        concatenates_S128x128_S128x128_S128x256_d1 := by
  dsimp only [Gen.V1, Gen.W1, Gen.W0, Gen.hostOps0]
  after_results
  rfl

theorem host_e_v7 : (V1 (F := Ideal) m ρ c main_call0_v7 : S256x256.Idx → EReal)
    = concatenate S256x256 0
        [⟨S128x256, concatenate S128x256 1 [⟨S128x128, m ((c.tc : Thread nD τ).loc main_arg4)⟩, ⟨S128x128, host_zeros⟩]
            concatenates_S128x128_S128x128_S128x256_d1⟩,
         ⟨S128x256, concatenate S128x256 1 [⟨S128x128, host_zeros⟩, ⟨S128x128, m ((c.tc : Thread nD τ).loc main_arg6)⟩]
            concatenates_S128x128_S128x128_S128x256_d1⟩]
        concatenates_S128x256_S128x256_S256x256_d0 := by
  dsimp only [Gen.V1, Gen.W1, Gen.W0, Gen.hostOps0]
  after_results
  rfl

/-- Two 128-column arrays side by side, read in the left half. -/
theorem host_cat1_lo (x y : S128x128.Idx → EReal) (q k : Fin 128) :
    concatenate S128x256 1 [⟨S128x128, x⟩, ⟨S128x128, y⟩] concatenates_S128x128_S128x128_S128x256_d1 (ix2 q (lo k)) = x (ix2 q k) :=
  concatenate_pair_apply_left 1 x y concatenates_S128x128_S128x128_S128x256_d1 _ rfl _ (fun b => by
    match b with
    | ⟨0, _⟩ => rfl
    | ⟨1, _⟩ => rfl)

/-- Two 128-column arrays side by side, read in the right half. -/
theorem host_cat1_hi (x y : S128x128.Idx → EReal) (q k : Fin 128) :
    concatenate S128x256 1 [⟨S128x128, x⟩, ⟨S128x128, y⟩] concatenates_S128x128_S128x128_S128x256_d1 (ix2 q (hi k)) = y (ix2 q k) :=
  concatenate_pair_apply_right 1 x y concatenates_S128x128_S128x128_S128x256_d1 _ rfl rfl _
    (fun b hb => by
      match b with
      | ⟨0, _⟩ => rfl
      | ⟨1, _⟩ => exact absurd rfl hb)
    (by show k.val + 128 = 128 + k.val; omega)

/-- Two 128-row arrays one over the other, read in the upper half. -/
theorem host_cat0_lo (x y : S128x256.Idx → EReal) (q : Fin 128) (k : Fin 256) :
    concatenate S256x256 0 [⟨S128x256, x⟩, ⟨S128x256, y⟩] concatenates_S128x256_S128x256_S256x256_d0 (ix2 (lo q) k) = x (ix2 q k) :=
  concatenate_pair_apply_left 0 x y concatenates_S128x256_S128x256_S256x256_d0 _ rfl _ (fun b => by
    match b with
    | ⟨0, _⟩ => rfl
    | ⟨1, _⟩ => rfl)

/-- Two 128-row arrays one over the other, read in the lower half. -/
theorem host_cat0_hi (x y : S128x256.Idx → EReal) (q : Fin 128) (k : Fin 256) :
    concatenate S256x256 0 [⟨S128x256, x⟩, ⟨S128x256, y⟩] concatenates_S128x256_S128x256_S256x256_d0 (ix2 (hi q) k) = y (ix2 q k) :=
  concatenate_pair_apply_right 0 x y concatenates_S128x256_S128x256_S256x256_d0 _ rfl rfl _
    (fun b hb => by
      match b with
      | ⟨0, _⟩ => exact absurd rfl hb
      | ⟨1, _⟩ => rfl)
    (by show q.val + 128 = 128 + q.val; omega)

/-- The padding reads zero everywhere. -/
theorem host_zeros_apply (j : S128x128.Idx) : host_zeros j = (0 : EReal) :=
  (constant_apply (s := S_) (φ := .f32) 0x00000000#32 _).trans Ideal.ofBits_zero_f32

theorem V1_wenc_lo (q k : Fin 128) : V1 (F := Ideal) m ρ c main_call0_v3 (ix2 q (lo k)) = m ((c.tc : Thread nD τ).loc main_arg3) (ix2 q k) :=
  (congrFun (host_e_v3 m ρ c) _).trans (host_cat1_lo _ _ q k)
theorem V1_wenc_hi (q k : Fin 128) : V1 (F := Ideal) m ρ c main_call0_v3 (ix2 q (hi k)) = m ((c.tc : Thread nD τ).loc main_arg5) (ix2 q k) :=
  (congrFun (host_e_v3 m ρ c) _).trans (host_cat1_hi _ _ q k)
theorem V1_w2_ll (q k : Fin 128) : V1 (F := Ideal) m ρ c main_call0_v7 (ix2 (lo q) (lo k)) = m ((c.tc : Thread nD τ).loc main_arg4) (ix2 q k) :=
  (congrFun (host_e_v7 m ρ c) _).trans ((host_cat0_lo _ _ q (lo k)).trans (host_cat1_lo _ _ q k))
theorem V1_w2_lh (q k : Fin 128) : V1 (F := Ideal) m ρ c main_call0_v7 (ix2 (lo q) (hi k)) = (0 : EReal) :=
  (congrFun (host_e_v7 m ρ c) _).trans ((host_cat0_lo _ _ q (hi k)).trans ((host_cat1_hi _ _ q k).trans (host_zeros_apply _)))
theorem V1_w2_hl (q k : Fin 128) : V1 (F := Ideal) m ρ c main_call0_v7 (ix2 (hi q) (lo k)) = (0 : EReal) :=
  (congrFun (host_e_v7 m ρ c) _).trans ((host_cat0_hi _ _ q (lo k)).trans ((host_cat1_lo _ _ q k).trans (host_zeros_apply _)))
theorem V1_w2_hh (q k : Fin 128) : V1 (F := Ideal) m ρ c main_call0_v7 (ix2 (hi q) (hi k)) = m ((c.tc : Thread nD τ).loc main_arg6) (ix2 q k) :=
  (congrFun (host_e_v7 m ρ c) _).trans ((host_cat0_hi _ _ q (hi k)).trans (host_cat1_hi _ _ q k))

end Cert.KernelIdeal.Val

end
-- ==== Proof.HostScatter.lean ====
/-
  The three padded weights in front of the first pass: a 128 by 40 (resp. 40-long) array written at start zero into a
  128 by 128 (resp. 1 by 128) array of zeros. A scatter is a left fold of point updates over the update's positions;
  read at one point it is decided by the steps that land there. With the start index zero, update position `(q, k)`
  lands on `(q, k)` and on no other point, so inside the window the result is the update.
-/
import proofs.«120297_g49246095016346_cont_8to1c4_490_5_alg».proof.Proof.ValDefs
import Idealize.ShloMosaic.Lib.StableHlo.Run
import Idealize.ShloMosaic.Lib.Pipeline.Value
import Idealize.ShloMosaic.Lib.ValueIdx

noncomputable section

open Idealize.ShloMosaic Idealize.ShloMosaic.TcCoe Idealize.SL.Sem Idealize.ShloMosaic.ValueIdx
open Cert.Spec

namespace Cert.KernelIdeal.Val

open Cert.KernelIdeal Cert.KernelIdeal.Gen

variable (m : (ℓ : Loc nD τ sig) → Buf (Elt Ideal) ℓ) (ρ : Dev nD → PrngReg) (c : Dev nD)

/-! ## A scatter whose body keeps the update, read at a point one update lands on -/

/-- A left fold of point updates read at a point no step lands on keeps what was there. -/
theorem host_foldl_miss {κ ι α : Type} (step : (ι → α) → κ → (ι → α)) (hits : κ → Prop) (i : ι)
    (hmiss : ∀ r n, ¬ hits n → step r n i = r i) :
    ∀ (l : List κ) (x : ι → α), (∀ n ∈ l, ¬ hits n) → l.foldl step x i = x i
  | [], _, _ => rfl
  | n :: l, x, h => by
    rw [List.foldl_cons, host_foldl_miss step hits i hmiss l (step x n) (fun n' hn' => h n' (List.mem_cons_of_mem _ hn')),
      hmiss x n (h n List.mem_cons_self)]

/-- A left fold of point updates read at a point: if every step landing there writes `a` and some step lands there,
    the fold holds `a` there. -/
theorem host_foldl_point {κ ι α : Type} (step : (ι → α) → κ → (ι → α)) (hits : κ → Prop) (v : κ → α) (i : ι)
    (hmiss : ∀ r n, ¬ hits n → step r n i = r i) (hhit : ∀ r n, hits n → step r n i = v n) (a : α) :
    ∀ (l : List κ) (x : ι → α), (∀ n ∈ l, hits n → v n = a) → (∃ n ∈ l, hits n) → l.foldl step x i = a
  | [], _, _, ⟨_, hn, _⟩ => absurd hn List.not_mem_nil
  | n :: l, x, hall, hex => by
    rw [List.foldl_cons]
    by_cases h : ∃ n' ∈ l, hits n'
    · exact host_foldl_point step hits v i hmiss hhit a l (step x n) (fun n' hn' => hall n' (List.mem_cons_of_mem _ hn')) h
    · have hl : l.foldl step (step x n) i = step x n i :=
        host_foldl_miss step hits i hmiss l (step x n) (fun n' hn' hh => h ⟨n', hn', hh⟩)
      obtain ⟨n', hn', hh⟩ := hex
      rcases List.mem_cons.mp hn' with e | hn'
      · subst e
        rw [hl, hhit _ _ hh]
        exact hall _ List.mem_cons_self hh
      · exact absurd ⟨n', hn', hh⟩ h

/-- A scatter that keeps the update, read at a point exactly one update index lands on, is the update there. -/
theorem host_scatter_set_apply {s si u : Shape} {w : Nat} {α : Type} (d : ScatterDims s si u) (x : s.Idx → α) (idx : IVec si w)
    (upd : u.Idx → α) (i : s.Idx) (j₀ : u.Idx) (hhit : d.resultIdx? j₀ idx = some i)
    (huniq : ∀ j, d.resultIdx? j idx = some i → j = j₀) :
    Host.scatter d (fun _ b => b) x idx upd i = upd j₀ := by
  unfold Host.scatter
  refine host_foldl_point _ (fun n => d.resultIdx? (u.rowMajor.symm n) idx = some i) (fun n => upd (u.rowMajor.symm n)) i
    ?_ ?_ (upd j₀) _ x ?_ ?_
  · intro r n hn
    generalize d.resultIdx? (u.rowMajor.symm n) idx = o at hn
    cases o with
    | none => rfl
    | some i₁ =>
      show (if i = i₁ then _ else r i) = r i
      rw [if_neg]
      intro e
      exact hn (by rw [e])
  · intro r n hn
    generalize d.resultIdx? (u.rowMajor.symm n) idx = o at hn
    subst hn
    exact if_pos rfl
  · intro n _ hn
    rw [huniq _ hn]
  · exact ⟨u.rowMajor j₀, List.mem_finRange _, by rw [Equiv.symm_apply_apply]; exact hhit⟩

/-- With start index zero, update position `(q, k)` of the 128 by 40 update lands on `(q, k)` of the 128 by 128 operand. -/
theorem host_lands_128x40 (idx : IVec S1 32) (hidx : ∀ k, idx k = 0#32) (q : Fin 128) (k : Fin 40) :
    scatter_S128x128_S1_S128x40_01_n_1_0.resultIdx? (ix2 q k) idx = some (ix2 q (pad k)) := by
  have hs : ∀ a, scatter_S128x128_S1_S128x40_01_n_1_0.start (ix2 q k) idx a = 0 := fun a => by
    unfold ScatterDims.start
    split
    · rw [hidx]; rfl
    · rfl
  have hw0 : scatter_S128x128_S1_S128x40_01_n_1_0.window (ix2 q k) 0 = q.val := rfl
  have hw1 : scatter_S128x128_S1_S128x40_01_n_1_0.window (ix2 q k) 1 = k.val := rfl
  unfold ScatterDims.resultIdx?
  rw [dif_pos (fun a => by
    rw [hs a]
    match a with
    | ⟨0, _⟩ =>
      have := q.isLt
      show (0 : Int) ≤ 0 + ((scatter_S128x128_S1_S128x40_01_n_1_0.window (ix2 q k) 0 : Nat) : Int)
        ∧ (0 : Int) + ((scatter_S128x128_S1_S128x40_01_n_1_0.window (ix2 q k) 0 : Nat) : Int) < ((128 : Nat) : Int)
      rw [hw0]; omega
    | ⟨1, _⟩ =>
      have := k.isLt
      show (0 : Int) ≤ 0 + ((scatter_S128x128_S1_S128x40_01_n_1_0.window (ix2 q k) 1 : Nat) : Int)
        ∧ (0 : Int) + ((scatter_S128x128_S1_S128x40_01_n_1_0.window (ix2 q k) 1 : Nat) : Int) < ((128 : Nat) : Int)
      rw [hw1]; omega)]
  refine congrArg some (funext fun a => Fin.ext ?_)
  match a with
  | ⟨0, _⟩ =>
    show (scatter_S128x128_S1_S128x40_01_n_1_0.start (ix2 q k) idx 0
      + ((scatter_S128x128_S1_S128x40_01_n_1_0.window (ix2 q k) 0 : Nat) : Int)).toNat = q.val
    rw [hs, hw0]; omega
  | ⟨1, _⟩ =>
    show (scatter_S128x128_S1_S128x40_01_n_1_0.start (ix2 q k) idx 1
      + ((scatter_S128x128_S1_S128x40_01_n_1_0.window (ix2 q k) 1 : Nat) : Int)).toNat = k.val
    rw [hs, hw1]; omega

/-- The scatter of a 128 by 40 update at start zero into a 128 by 128 operand, read inside the update's window. -/
theorem host_scatter_128x40 (x : S128x128.Idx → EReal) (idx : IVec S1 32) (hidx : ∀ k, idx k = 0#32) (upd : S128x40.Idx → EReal)
    (q : Fin 128) (k : Fin 40) :
    Host.scatter scatter_S128x128_S1_S128x40_01_n_1_0 (fun _ b => b) x idx upd (ix2 q (pad k)) = upd (ix2 q k) :=
  host_scatter_set_apply _ x idx upd _ (ix2 q k) (host_lands_128x40 idx hidx q k) (fun j hj => by
    obtain ⟨q', k', rfl⟩ : ∃ (q' : Fin 128) (k' : Fin 40), j = ix2 q' k' := ⟨j 0, j 1, eq_ix2 j⟩
    rw [host_lands_128x40 idx hidx q' k'] at hj
    have h := Option.some.inj hj
    have h0 : q' = q := congrFun h 0
    have h1 : pad k' = pad k := congrFun h 1
    have hk : k' = k := Fin.ext (show k'.val = k.val from congrArg (fun z : Fin 128 => z.val) h1)
    rw [h0, hk])

/-- With both start components zero, position `k` of the 40-long update lands on `(0, k)` of the 1 by 128 operand. -/
theorem host_lands_40 (idx : IVec S2 32) (hidx : ∀ k, idx k = 0#32) (k : Fin 40) :
    scatter_S1x128_S2_S40_0_0_01_0.resultIdx? (ix1 k) idx = some (ix2 0 (pad k)) := by
  have hs : ∀ a, scatter_S1x128_S2_S40_0_0_01_0.start (ix1 k) idx a = 0 := fun a => by
    unfold ScatterDims.start
    split
    · rw [hidx]; rfl
    · rfl
  have hw0 : scatter_S1x128_S2_S40_0_0_01_0.window (ix1 k) 0 = 0 := rfl
  have hw1 : scatter_S1x128_S2_S40_0_0_01_0.window (ix1 k) 1 = k.val := rfl
  unfold ScatterDims.resultIdx?
  rw [dif_pos (fun a => by
    rw [hs a]
    match a with
    | ⟨0, _⟩ =>
      show (0 : Int) ≤ 0 + ((scatter_S1x128_S2_S40_0_0_01_0.window (ix1 k) 0 : Nat) : Int)
        ∧ (0 : Int) + ((scatter_S1x128_S2_S40_0_0_01_0.window (ix1 k) 0 : Nat) : Int) < ((1 : Nat) : Int)
      rw [hw0]; omega
    | ⟨1, _⟩ =>
      have := k.isLt
      show (0 : Int) ≤ 0 + ((scatter_S1x128_S2_S40_0_0_01_0.window (ix1 k) 1 : Nat) : Int)
        ∧ (0 : Int) + ((scatter_S1x128_S2_S40_0_0_01_0.window (ix1 k) 1 : Nat) : Int) < ((128 : Nat) : Int)
      rw [hw1]; omega)]
  refine congrArg some (funext fun a => Fin.ext ?_)
  match a with
  | ⟨0, _⟩ =>
    show (scatter_S1x128_S2_S40_0_0_01_0.start (ix1 k) idx 0
      + ((scatter_S1x128_S2_S40_0_0_01_0.window (ix1 k) 0 : Nat) : Int)).toNat = 0
    rw [hs, hw0]; omega
  | ⟨1, _⟩ =>
    show (scatter_S1x128_S2_S40_0_0_01_0.start (ix1 k) idx 1
      + ((scatter_S1x128_S2_S40_0_0_01_0.window (ix1 k) 1 : Nat) : Int)).toNat = k.val
    rw [hs, hw1]; omega

/-- The scatter of a 40-long update at start zero into a 1 by 128 operand, read inside the update's window. -/
theorem host_scatter_40 (x : S1x128.Idx → EReal) (idx : IVec S2 32) (hidx : ∀ k, idx k = 0#32) (upd : S40.Idx → EReal) (k : Fin 40) :
    Host.scatter scatter_S1x128_S2_S40_0_0_01_0 (fun _ b => b) x idx upd (ix2 0 (pad k)) = upd (ix1 k) :=
  host_scatter_set_apply _ x idx upd _ (ix1 k) (host_lands_40 idx hidx k) (fun j hj => by
    obtain ⟨k', rfl⟩ : ∃ k' : Fin 40, j = ix1 k' := ⟨j 0, eq_ix1 j⟩
    rw [host_lands_40 idx hidx k'] at hj
    have h := Option.some.inj hj
    have h1 : pad k' = pad k := congrFun h 1
    have hk : k' = k := Fin.ext (show k'.val = k.val from congrArg (fun z : Fin 128 => z.val) h1)
    rw [hk])

/-- The start index of the two 128 by 40 scatters: one zero word. -/
abbrev host_idx1 : IVec S1 32 := broadcastInDim S1 ![] bcast_S_S1 (constantI S_ 32 0#32)
/-- The start index of the bias scatter: two zero words. -/
abbrev host_idx2 : IVec S2 32 := concatenate S2 0 [⟨S1, host_idx1⟩, ⟨S1, host_idx1⟩] concatenates_S1_S1_S2_d0

theorem host_idx1_apply (k : S1.Idx) : host_idx1 k = 0#32 := rfl
theorem host_idx2_apply (k : S2.Idx) : host_idx2 k = 0#32 := by
  obtain ⟨k', rfl⟩ : ∃ k' : Fin 2, k = ix1 k' := ⟨k 0, eq_ix1 k⟩
  match k' with
  | ⟨0, _⟩ =>
    exact concatenate_pair_apply_left 0 host_idx1 host_idx1 concatenates_S1_S1_S2_d0 _ rfl (ix1 0) (fun b => by
      match b with
      | ⟨0, _⟩ => rfl)
  | ⟨1, _⟩ =>
    exact concatenate_pair_apply_right 0 host_idx1 host_idx1 concatenates_S1_S1_S2_d0 _ rfl rfl (ix1 0)
      (fun b hb => by
        match b with
        | ⟨0, _⟩ => exact absurd rfl hb)
      rfl

attribute [local irreducible] Host.scatter in
theorem host_e_v10 : (V1 (F := Ideal) m ρ c main_call0_v10 : S128x128.Idx → EReal)
    = Host.scatter scatter_S128x128_S1_S128x40_01_n_1_0 (fun _ b => b)
        (broadcastInDim S128x128 ![] bcast_S_S128x128 (constant (F := Ideal) S_ .f32 0x00000000#32)) host_idx1
        (m ((c.tc : Thread nD τ).loc main_arg7)) := by
  dsimp only [Gen.V1, Gen.W1, Gen.W0, Gen.hostOps0]
  after_results
  rfl

attribute [local irreducible] Host.scatter in
theorem host_e_v13 : (V1 (F := Ideal) m ρ c main_call0_v13 : S128x128.Idx → EReal)
    = Host.scatter scatter_S128x128_S1_S128x40_01_n_1_0 (fun _ b => b)
        (broadcastInDim S128x128 ![] bcast_S_S128x128 (constant (F := Ideal) S_ .f32 0x00000000#32)) host_idx1
        (m ((c.tc : Thread nD τ).loc main_arg8)) := by
  dsimp only [Gen.V1, Gen.W1, Gen.W0, Gen.hostOps0]
  after_results
  rfl

attribute [local irreducible] Host.scatter in
theorem host_e_v18 : (V1 (F := Ideal) m ρ c main_call0_v18 : S1x128.Idx → EReal)
    = Host.scatter scatter_S1x128_S2_S40_0_0_01_0 (fun _ b => b)
        (broadcastInDim S1x128 ![] bcast_S_S1x128 (constant (F := Ideal) S_ .f32 0x00000000#32)) host_idx2
        (m ((c.tc : Thread nD τ).loc main_arg9)) := by
  dsimp only [Gen.V1, Gen.W1, Gen.W0, Gen.hostOps0]
  after_results
  rfl

theorem V1_wd (q : Fin 128) (k : Fin 40) : V1 (F := Ideal) m ρ c main_call0_v10 (ix2 q (pad k)) = m ((c.tc : Thread nD τ).loc main_arg7) (ix2 q k) :=
  (congrFun (host_e_v10 m ρ c) _).trans (host_scatter_128x40 _ host_idx1 host_idx1_apply _ q k)
theorem V1_wmlp (q : Fin 128) (k : Fin 40) : V1 (F := Ideal) m ρ c main_call0_v13 (ix2 q (pad k)) = m ((c.tc : Thread nD τ).loc main_arg8) (ix2 q k) :=
  (congrFun (host_e_v13 m ρ c) _).trans (host_scatter_128x40 _ host_idx1 host_idx1_apply _ q k)
theorem V1_bmlp (k : Fin 40) : V1 (F := Ideal) m ρ c main_call0_v18 (ix2 0 (pad k)) = m ((c.tc : Thread nD τ).loc main_arg9) (ix1 k) :=
  (congrFun (host_e_v18 m ρ c) _).trans (host_scatter_40 _ host_idx2 host_idx2_apply _ k)

end Cert.KernelIdeal.Val

end
-- ==== Proof.HostTail.lean ====
/-
  The host lines after the last pass: the decoder's and the node head's results are the first 40 columns of their
  128-column padded arrays under a new leading unit axis; the two encodings are written by no line and stay as the
  passes left them.
-/
import proofs.«120297_g49246095016346_cont_8to1c4_490_5_alg».proof.Proof.ValDefs
import Idealize.ShloMosaic.Lib.StableHlo.Run
import Idealize.ShloMosaic.Lib.Pipeline.Value
import Idealize.ShloMosaic.Lib.ValueIdx

noncomputable section

open Idealize.ShloMosaic Idealize.ShloMosaic.TcCoe Idealize.SL.Sem Idealize.ShloMosaic.ValueIdx
open Cert.Spec

namespace Cert.KernelIdeal.Val

open Cert.KernelIdeal Cert.KernelIdeal.Gen

variable (m : (ℓ : Loc nD τ sig) → Buf (Elt Ideal) ℓ) (ρ : Dev nD → PrngReg) (c : Dev nD)

/-! ## After the last pass: the two 40-column results cut out of the padded arrays, the two encodings untouched -/

theorem host_e_out0 : (W6 (F := Ideal) m ρ c (Proc.devRef .tc main_v0_0) : S1x4096x40.Idx → EReal)
    = broadcastInDim S1x4096x40 ![1, 2] bcast_S4096x40_S1x4096x40_1_2
        (extractStridedSlice S4096x40 ![0, 0] (W5 (F := Ideal) m ρ c (Proc.devRef .tc main_call0_v22)) slices_S4096x128_S4096x40_0_0) := by
  dsimp only [Gen.W6, Gen.hostOps4]
  after_results
  rfl

theorem host_e_out1 : (W6 (F := Ideal) m ρ c (Proc.devRef .tc main_v0_1) : S1x4096x40.Idx → EReal)
    = broadcastInDim S1x4096x40 ![1, 2] bcast_S4096x40_S1x4096x40_1_2
        (extractStridedSlice S4096x40 ![0, 0] (W5 (F := Ideal) m ρ c (Proc.devRef .tc main_call0_v21_2)) slices_S4096x128_S4096x40_0_0) := by
  dsimp only [Gen.W6, Gen.hostOps4]
  after_results
  rfl

/-- The first 40 columns of a 128-column array under a new leading unit axis, read at a point. -/
theorem host_cut_apply (x : S4096x128.Idx → EReal) (r : Fin 4096) (k : Fin 40) :
    broadcastInDim S1x4096x40 ![1, 2] bcast_S4096x40_S1x4096x40_1_2
      (extractStridedSlice S4096x40 ![0, 0] x slices_S4096x128_S4096x40_0_0) (ix3 0 r k) = x (ix2 r (pad k)) :=
  (broadcastInDim_apply ![1, 2] bcast_S4096x40_S1x4096x40_1_2 _ (ix3 0 r k) (ix2 r k) (fun a => by
    match a with
    | ⟨0, _⟩ => rfl
    | ⟨1, _⟩ => rfl)).trans
  (extractStridedSlice_apply ![0, 0] x slices_S4096x128_S4096x40_0_0 (ix2 r k) (ix2 r (pad k)) (fun a => by
    match a with
    | ⟨0, _⟩ => exact (Nat.zero_add _).symm
    | ⟨1, _⟩ => exact (Nat.zero_add _).symm))

theorem W6_logits (r : Fin 4096) (k : Fin 40) :
    W6 (F := Ideal) m ρ c (Proc.devRef .tc main_v0_0) (ix3 0 r k) = W5 (F := Ideal) m ρ c (Proc.devRef .tc main_call0_v22) (ix2 r (pad k)) :=
  (congrFun (host_e_out0 m ρ c) (ix3 0 r k)).trans (host_cut_apply _ r k)
theorem W6_ln (r : Fin 4096) (k : Fin 40) :
    W6 (F := Ideal) m ρ c (Proc.devRef .tc main_v0_1) (ix3 0 r k) = W5 (F := Ideal) m ρ c (Proc.devRef .tc main_call0_v21_2) (ix2 r (pad k)) :=
  (congrFun (host_e_out1 m ρ c) (ix3 0 r k)).trans (host_cut_apply _ r k)

theorem W6_e2 : W6 (F := Ideal) m ρ c (Proc.devRef .tc main_v0_2) = W5 (F := Ideal) m ρ c (Proc.devRef .tc main_v0_2) :=
  StableHlo.after_of_forall_not_mem (b := Proc.devRef .tc main_v0_2) _ _ (List.forall_iff_forall_mem.mp (by
    simp only [hostOps4, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem W6_hh2 : W6 (F := Ideal) m ρ c (Proc.devRef .tc main_v0_3) = W5 (F := Ideal) m ρ c (Proc.devRef .tc main_v0_3) :=
  StableHlo.after_of_forall_not_mem (b := Proc.devRef .tc main_v0_3) _ _ (List.forall_iff_forall_mem.mp (by
    simp only [hostOps4, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

end Cert.KernelIdeal.Val

end
-- ==== Proof.Host.lean ====
/-
  The host lines around the four passes, read by coordinates: the reshapes, the weight concatenations, the padded
  weights, and the cuts after the last pass.
-/
import proofs.«120297_g49246095016346_cont_8to1c4_490_5_alg».proof.Proof.HostReshape
import proofs.«120297_g49246095016346_cont_8to1c4_490_5_alg».proof.Proof.HostConcat
import proofs.«120297_g49246095016346_cont_8to1c4_490_5_alg».proof.Proof.HostScatter
import proofs.«120297_g49246095016346_cont_8to1c4_490_5_alg».proof.Proof.HostTail
-- ==== Proof.Chain.lean ====
/-
  The kernel program's results as the composed passes of the specification applied to the argument arrays: the
  contents at each segment boundary are walked from the launch memory through the host lines and the four regions.
  A region leaves its input windows' arrays and every buffer it does not stage as they were, and each output
  array at the pass's function of the region's entry contents.
-/
import proofs.«120297_g49246095016346_cont_8to1c4_490_5_alg».proof.Proof.R0
import proofs.«120297_g49246095016346_cont_8to1c4_490_5_alg».proof.Proof.R1Arr
import proofs.«120297_g49246095016346_cont_8to1c4_490_5_alg».proof.Proof.R2Arr
import proofs.«120297_g49246095016346_cont_8to1c4_490_5_alg».proof.Proof.R3
import proofs.«120297_g49246095016346_cont_8to1c4_490_5_alg».proof.Proof.Host

noncomputable section

namespace Cert.KernelIdeal.Val

open Idealize.ShloMosaic Idealize.ShloMosaic.TcCoe Idealize.SL.Sem Idealize.ShloMosaic.ValueIdx
open Cert.KernelIdeal Cert.KernelIdeal.Gen Cert.Spec
open Idealize.ShloMosaic.Pipeline (Dat)

variable (m : (ℓ : Loc nD τ sig) → Buf (Elt Ideal) ℓ) (ρ : Dev nD → PrngReg) (c : Dev nD)

/-! ## The arguments by coordinates -/

abbrev adjM : Mx 4096 4096 := fun i j => m ((c.tc : Thread nD τ).loc main_arg1) (ix3 0 i j)
abbrev laM : EReal := m ((c.tc : Thread nD τ).loc main_arg2) ix0
abbrev xsM : Mx 4096 128 := fun i q => m ((c.tc : Thread nD τ).loc main_arg0) (ix3 0 i q)
/-- The host-built weight arrays as the first region finds them. -/
abbrev wencM : Mx 128 256 := fun q j => V1 (F := Ideal) m ρ c main_call0_v3 (ix2 q j)
abbrev w2M : Mx 256 256 := fun q j => V1 (F := Ideal) m ρ c main_call0_v7 (ix2 q j)
abbrev wdM : Mx 128 128 := fun q j => V1 (F := Ideal) m ρ c main_call0_v10 (ix2 q j)
abbrev wmM : Mx 128 128 := fun q j => V1 (F := Ideal) m ρ c main_call0_v13 (ix2 q j)
abbrev bpM : Vc 128 := fun j => V1 (F := Ideal) m ρ c main_call0_v18 (ix2 0 j)

/-- The normalizer, the scaled projection, the first layer and the second layer of the argument arrays. -/
abbrev dM : Vc 4096 := dK (adjM m c) (laM m c)
abbrev dxwM : Mx 4096 256 := dxwK (dM m c) (xsM m c) (wencM m ρ c)
abbrev dhwM : Mx 4096 256 := layer1K (adjM m c) (laM m c) (dM m c) (dxwM m ρ c) (w2M m ρ c)
abbrev yM : Mx 4096 256 := yK (adjM m c) (laM m c) (dM m c) (dhwM m ρ c)
abbrev dzM : Mx 4096 128 := dzK (dM m c) (fun i q => yM m ρ c i (hi q)) (wdM m ρ c)

/-! ## A region leaves its input windows' arrays as it found them -/

theorem W2_in (w : Fin cfg0.W) (hin : (cfg0.win w).isOut = false) :
    W2 (F := Ideal) m ρ c (Proc.devRef .tc (Pipeline.arrRef spec0 w)) = V1 m ρ c (Pipeline.arrRef spec0 w) :=
  (W2_arr m ρ c w).trans (((dat0 (V1 m ρ) c).arrAt_in w hin cfg0.N).trans (A_eq0 (V1 m ρ) c w))
theorem W3_in (w : Fin cfg1.W) (hin : (cfg1.win w).isOut = false) :
    W3 (F := Ideal) m ρ c (Proc.devRef .tc (Pipeline.arrRef spec1 w)) = V2 m ρ c (Pipeline.arrRef spec1 w) :=
  (W3_arr m ρ c w).trans (((dat1 (V2 m ρ) c).arrAt_in w hin cfg1.N).trans (A_eq1 (V2 m ρ) c w))
theorem W4_in (w : Fin cfg2.W) (hin : (cfg2.win w).isOut = false) :
    W4 (F := Ideal) m ρ c (Proc.devRef .tc (Pipeline.arrRef spec2 w)) = V3 m ρ c (Pipeline.arrRef spec2 w) :=
  (W4_arr m ρ c w).trans (((dat2 (V3 m ρ) c).arrAt_in w hin cfg2.N).trans (A_eq2 (V3 m ρ) c w))

/-! ## After the first region -/

theorem adjOf_V1 : adjOf (V1 m ρ) c = adjM m c := funext fun i => funext fun j => V1_adj m ρ c i j
theorem laOf_V1 : laOf (V1 m ρ) c = laM m c := V1_la m ρ c
theorem xs_V1 : (fun (i : Fin 4096) (q : Fin 128) => V1 (F := Ideal) m ρ c main_call0_v0 (ix2 i q)) = xsM m c :=
  funext fun i => funext fun q => V1_xs m ρ c i q

theorem V2_abf (i j : Fin 4096) : V2 (F := Ideal) m ρ c main_call0_v19_0 (ix2 i j) = adjM m c i j :=
  (congrFun (W2_arr m ρ c 4) (ix2 i j)).trans ((arr0_4 (V1 m ρ) c i j).trans (V1_adj m ρ c i j))
theorem V2_d (i : Fin 4096) : V2 (F := Ideal) m ρ c main_call0_v19_1 (ix2 i 0) = dM m c i :=
  (congrFun (W2_arr m ρ c 5) (ix2 i 0)).trans ((arr0_5 (V1 m ρ) c i).trans (by rw [adjOf_V1, laOf_V1]))
theorem V2_dxw (i : Fin 4096) (k : Fin 256) : V2 (F := Ideal) m ρ c main_call0_v19_2 (ix2 i k) = dxwM m ρ c i k :=
  (congrFun (W2_arr m ρ c 6) (ix2 i k)).trans ((arr0_6 (V1 m ρ) c i k).trans (by rw [adjOf_V1, laOf_V1, xs_V1]))
theorem V2_la : V2 (F := Ideal) m ρ c main_call0_v2 = V1 m ρ c main_call0_v2 := W2_in m ρ c 3 rfl
theorem V2_w2 : V2 (F := Ideal) m ρ c main_call0_v7 = V1 m ρ c main_call0_v7 := W2_of_ne m ρ c main_call0_v7 (by decide)
theorem V2_wd : V2 (F := Ideal) m ρ c main_call0_v10 = V1 m ρ c main_call0_v10 := W2_of_ne m ρ c main_call0_v10 (by decide)
theorem V2_wm : V2 (F := Ideal) m ρ c main_call0_v13 = V1 m ρ c main_call0_v13 := W2_of_ne m ρ c main_call0_v13 (by decide)
theorem V2_bp : V2 (F := Ideal) m ρ c main_call0_v18 = V1 m ρ c main_call0_v18 := W2_of_ne m ρ c main_call0_v18 (by decide)

theorem abfOf_V2 : abfOf (V2 m ρ) c = adjM m c := funext fun i => funext fun j => V2_abf m ρ c i j
theorem laOf_V2 : laOf (V2 m ρ) c = laM m c := (congrFun (V2_la m ρ c) (ix2 0 0)).trans (V1_la m ρ c)
theorem dOf_V2 : dOf (V2 m ρ) c = dM m c := funext fun i => V2_d m ρ c i

/-! ## After the second region -/

theorem V3_dhw (i : Fin 4096) (k : Fin 256) : V3 (F := Ideal) m ρ c main_call0_v20 (ix2 i k) = dhwM m ρ c i k :=
  (congrFun (W3_arr m ρ c 5) (ix2 i k)).trans ((arr1_5 (V2 m ρ) c i k).trans (by
    rw [abfOf_V2, laOf_V2, dOf_V2,
      show (fun (i : Fin 4096) (q : Fin 256) => V2 (F := Ideal) m ρ c main_call0_v19_2 (ix2 i q)) = dxwM m ρ c from
        funext fun i => funext fun q => V2_dxw m ρ c i q,
      show (fun (q j : Fin 256) => V2 (F := Ideal) m ρ c main_call0_v7 (ix2 q j)) = w2M m ρ c from
        funext fun q => funext fun j => congrFun (V2_w2 m ρ c) (ix2 q j)]))
theorem V3_abf : V3 (F := Ideal) m ρ c main_call0_v19_0 = V2 m ρ c main_call0_v19_0 := W3_in m ρ c 0 rfl
theorem V3_d : V3 (F := Ideal) m ρ c main_call0_v19_1 = V2 m ρ c main_call0_v19_1 := W3_in m ρ c 2 rfl
theorem V3_la : V3 (F := Ideal) m ρ c main_call0_v2 = V2 m ρ c main_call0_v2 := W3_in m ρ c 3 rfl
theorem V3_wd : V3 (F := Ideal) m ρ c main_call0_v10 = V2 m ρ c main_call0_v10 := W3_of_ne m ρ c main_call0_v10 (by decide)
theorem V3_wm : V3 (F := Ideal) m ρ c main_call0_v13 = V2 m ρ c main_call0_v13 := W3_of_ne m ρ c main_call0_v13 (by decide)
theorem V3_bp : V3 (F := Ideal) m ρ c main_call0_v18 = V2 m ρ c main_call0_v18 := W3_of_ne m ρ c main_call0_v18 (by decide)

theorem abfOf_V3 : abfOf (V3 m ρ) c = adjM m c :=
  (funext fun i => funext fun j => congrFun (V3_abf m ρ c) (ix2 i j)).trans (abfOf_V2 m ρ c)
theorem laOf_V3 : laOf (V3 m ρ) c = laM m c := (congrFun (V3_la m ρ c) (ix2 0 0)).trans (laOf_V2 m ρ c)
theorem dOf_V3 : dOf (V3 m ρ) c = dM m c := (funext fun i => congrFun (V3_d m ρ c) (ix2 i 0)).trans (dOf_V2 m ρ c)
theorem dhw_V3 : (fun (i : Fin 4096) (q : Fin 256) => V3 (F := Ideal) m ρ c main_call0_v20 (ix2 i q)) = dhwM m ρ c :=
  funext fun i => funext fun q => V3_dhw m ρ c i q

/-! ## After the third region -/

theorem W4_e2 (r : Fin 4096) (k : Fin 128) : W4 (F := Ideal) m ρ c (Proc.devRef .tc main_v0_2) (ix2 r k) = yM m ρ c r (lo k) :=
  (congrFun (W4_arr m ρ c 7) (ix2 r k)).trans ((arr2_7 (V3 m ρ) c r k).trans (by rw [abfOf_V3, laOf_V3, dOf_V3, dhw_V3]))
theorem W4_hh2 (r : Fin 4096) (k : Fin 128) : W4 (F := Ideal) m ρ c (Proc.devRef .tc main_v0_3) (ix2 r k) = yM m ρ c r (hi k) :=
  (congrFun (W4_arr m ρ c 8) (ix2 r k)).trans ((arr2_8 (V3 m ρ) c r k).trans (by rw [abfOf_V3, laOf_V3, dOf_V3, dhw_V3]))
theorem W4_ln (r : Fin 4096) (k : Fin 128) :
    W4 (F := Ideal) m ρ c (Proc.devRef .tc main_call0_v21_2) (ix2 r k) = lnK (fun i q => yM m ρ c i (lo q)) (wmM m ρ c) (bpM m ρ c) r k :=
  (congrFun (W4_arr m ρ c 9) (ix2 r k)).trans ((arr2_9 (V3 m ρ) c r k).trans (by
    rw [abfOf_V3, laOf_V3, dOf_V3, dhw_V3,
      show (fun (q j : Fin 128) => V3 (F := Ideal) m ρ c main_call0_v13 (ix2 q j)) = wmM m ρ c from
        funext fun q => funext fun j => (congrFun (V3_wm m ρ c) (ix2 q j)).trans (congrFun (V2_wm m ρ c) (ix2 q j)),
      show (fun (j : Fin 128) => V3 (F := Ideal) m ρ c main_call0_v18 (ix2 0 j)) = bpM m ρ c from
        funext fun j => (congrFun (V3_bp m ρ c) (ix2 0 j)).trans (congrFun (V2_bp m ρ c) (ix2 0 j))]))
theorem V4_dz (r : Fin 4096) (k : Fin 128) : V4 (F := Ideal) m ρ c main_call0_v21_3 (ix2 r k) = dzM m ρ c r k :=
  (congrFun (W4_arr m ρ c 10) (ix2 r k)).trans ((arr2_10 (V3 m ρ) c r k).trans (by
    rw [abfOf_V3, laOf_V3, dOf_V3, dhw_V3,
      show (fun (q j : Fin 128) => V3 (F := Ideal) m ρ c main_call0_v10 (ix2 q j)) = wdM m ρ c from
        funext fun q => funext fun j => (congrFun (V3_wd m ρ c) (ix2 q j)).trans (congrFun (V2_wd m ρ c) (ix2 q j))]))
theorem V4_abf : V4 (F := Ideal) m ρ c main_call0_v19_0 = V3 m ρ c main_call0_v19_0 := W4_in m ρ c 0 rfl
theorem V4_d : V4 (F := Ideal) m ρ c main_call0_v19_1 = V3 m ρ c main_call0_v19_1 := W4_in m ρ c 2 rfl
theorem V4_la : V4 (F := Ideal) m ρ c main_call0_v2 = V3 m ρ c main_call0_v2 := W4_in m ρ c 3 rfl

theorem abfOf_V4 : abfOf (V4 m ρ) c = adjM m c :=
  (funext fun i => funext fun j => congrFun (V4_abf m ρ c) (ix2 i j)).trans (abfOf_V3 m ρ c)
theorem laOf_V4 : laOf (V4 m ρ) c = laM m c := (congrFun (V4_la m ρ c) (ix2 0 0)).trans (laOf_V3 m ρ c)
theorem dOf_V4 : dOf (V4 m ρ) c = dM m c := (funext fun i => congrFun (V4_d m ρ c) (ix2 i 0)).trans (dOf_V3 m ρ c)

/-! ## After the fourth region and the host tail: the four results -/

theorem W5_out (r : Fin 4096) (k : Fin 128) :
    W5 (F := Ideal) m ρ c (Proc.devRef .tc main_call0_v22) (ix2 r k) = outK (adjM m c) (laM m c) (dM m c) (dzM m ρ c) r k :=
  (congrFun (W5_arr m ρ c 4) (ix2 r k)).trans ((arr3_4 (V4 m ρ) c r k).trans (by
    rw [abfOf_V4, laOf_V4, dOf_V4,
      show (fun (i : Fin 4096) (q : Fin 128) => V4 (F := Ideal) m ρ c main_call0_v21_3 (ix2 i q)) = dzM m ρ c from
        funext fun i => funext fun q => V4_dz m ρ c i q]))

/-- The first result: the decoder's graph layer at a kept column. -/
theorem res0 (r : Fin 4096) (k : Fin 40) :
    W6 (F := Ideal) m ρ c (Proc.devRef .tc main_v0_0) (ix3 0 r k) = outK (adjM m c) (laM m c) (dM m c) (dzM m ρ c) r (pad k) :=
  (W6_logits m ρ c r k).trans (W5_out m ρ c r (pad k))
/-- The second result: the node head at a kept column. -/
theorem res1 (r : Fin 4096) (k : Fin 40) :
    W6 (F := Ideal) m ρ c (Proc.devRef .tc main_v0_1) (ix3 0 r k)
      = lnK (fun i q => yM m ρ c i (lo q)) (wmM m ρ c) (bpM m ρ c) r (pad k) :=
  (W6_ln m ρ c r k).trans ((congrFun (W5_of_ne m ρ c main_call0_v21_2 (by decide)) (ix2 r (pad k))).trans (W4_ln m ρ c r (pad k)))
/-- The third result: the first 128 columns of the second layer. -/
theorem res2 (r : Fin 4096) (k : Fin 128) :
    W6 (F := Ideal) m ρ c (Proc.devRef .tc main_v0_2) (ix2 r k) = yM m ρ c r (lo k) :=
  (congrFun (W6_e2 m ρ c) (ix2 r k)).trans ((congrFun (W5_of_ne m ρ c main_v0_2 (by decide)) (ix2 r k)).trans (W4_e2 m ρ c r k))
/-- The fourth result: its last 128 columns. -/
theorem res3 (r : Fin 4096) (k : Fin 128) :
    W6 (F := Ideal) m ρ c (Proc.devRef .tc main_v0_3) (ix2 r k) = yM m ρ c r (hi k) :=
  (congrFun (W6_hh2 m ρ c) (ix2 r k)).trans ((congrFun (W5_of_ne m ρ c main_v0_3 (by decide)) (ix2 r k)).trans (W4_hh2 m ρ c r k))

end Cert.KernelIdeal.Val

end
-- ==== Proof.RefA.lean ====
/-
  The reference's normalized adjacency read at coordinates: the identity matrix it builds by comparing a row grid
  with a column grid, the adjacency with weighted self loops, its row sums, the normalizer 1 / sqrt (degree) where the
  degree is positive, and the product A i j = adjL i j * d i * d j.
-/
import proofs.«120297_g49246095016346_cont_8to1c4_490_5_alg».proof.Proof.Gen.ReferenceIdeal.Read
import proofs.«120297_g49246095016346_cont_8to1c4_490_5_alg».proof.Proof.Spec
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Cert.Spec

namespace Cert.ReferenceIdeal.RefVal

open Cert.ReferenceIdeal Cert.ReferenceIdeal.Read

variable (x0 : (⟨S1x4096x128, .f32⟩ : BufTy).Contents (Elt Ideal)) (x1 : (⟨S1x4096x4096, .f32⟩ : BufTy).Contents (Elt Ideal)) (x2 : (⟨S_, .f32⟩ : BufTy).Contents (Elt Ideal))
  (x3 x4 x5 x6 : (⟨S128x128, .f32⟩ : BufTy).Contents (Elt Ideal)) (x7 x8 : (⟨S128x40, .f32⟩ : BufTy).Contents (Elt Ideal)) (x9 : (⟨S40, .f32⟩ : BufTy).Contents (Elt Ideal))

/-- The reference's inputs by coordinates. -/
abbrev adjA : Mx 4096 4096 := fun i j => x1 (ix3 0 i j)
abbrev xsA : Mx 4096 128 := fun i q => x0 (ix3 0 i q)
abbrev laA : EReal := x2 ix0
abbrev sq (w : (⟨S128x128, .f32⟩ : BufTy).Contents (Elt Ideal)) : Mx 128 128 := fun q j => w (ix2 q j)
abbrev tall (w : (⟨S128x40, .f32⟩ : BufTy).Contents (Elt Ideal)) : Mx 128 40 := fun q j => w (ix2 q j)

/-! ## Words and literals -/

/-- The word 0x3F800000 denotes one. -/
theorem ofBits_one_f32 : Ideal.ofBits .f32 0x3F800000#32 = 1 := by
  simp [Ideal.ofBits, Ideal.ieee, -EReal.coe_mul]; norm_num

/-- Two naturals below 4096 with the same 32-bit word are equal. -/
theorem ofNat32_inj {a b : ℕ} (ha : a < 4096) (hb : b < 4096) (h : BitVec.ofNat 32 a = BitVec.ofNat 32 b) : a = b := by
  have := congrArg BitVec.toNat h
  simp only [BitVec.toNat_ofNat] at this
  omega

/-- An equality test of two words, read as an unsigned integer and converted, is the indicator of equality. -/
theorem uitofp_cmpi_eq (x y : BitVec 32) :
    FloatOps.uitofp (F := Ideal) .f32 (IntOp.cmpi .eq x y) = if x = y then 1 else 0 := by
  show (((IntOp.cmpi .eq x y).toNat : ℝ) : EReal) = _
  by_cases h : x = y
  · simp [IntOp.cmpi, h]
  · simp [IntOp.cmpi, h]

/-- A strict comparison's bit is one exactly when the comparison holds. -/
theorem select_ogt (a b u v : EReal) :
    Scalar.select (FloatOps.cmpf (F := Ideal) (φ := .f32) .ogt a b) u v = if b < a then u else v := by
  rw [Ideal.cmpf_def]
  by_cases h : b < a
  · simp [Scalar.select, Ideal.cmp, h]
  · simp [Scalar.select, Ideal.cmp, h]

/-! ## The identity matrix -/

theorem eye_at (i j : Fin 4096) : val_main_v5 (F := Ideal) (ix2 i j) = eye i j := by
  rw [val_main_v5_apply, val_main_v4_apply, val_main_v3_apply, val_main_v0_apply, val_main_v1_apply, val_main_v2_apply,
    val_main_c_apply]
  show FloatOps.uitofp (F := Ideal) .f32 (IntOp.cmpi .eq (IntOp.addi (BitVec.ofNat 32 i.val) 0#32) (BitVec.ofNat 32 j.val)) = _
  rw [uitofp_cmpi_eq, IntOp.addi, BitVec.add_zero]
  unfold eye
  by_cases h : i = j
  · rw [if_pos h, if_pos (by rw [h])]
  · rw [if_neg h, if_neg (fun hw => h (Fin.ext (ofNat32_inj i.isLt j.isLt hw)))]

/-! ## The adjacency with self loops, its row sums, the normalizer -/

/-- Dropping the leading unit axis of a rank-3 index. -/
theorem idx_v6_ix3 (i j : Fin 4096) : idx_main_v6 (ix3 (0 : Fin 1) i j) = ix2 i j :=
  funext fun a => Fin.ext (by match a with | ⟨0, _⟩ => rfl | ⟨1, _⟩ => rfl)

theorem adjL_at (i j : Fin 4096) :
    val_main_v9 (F := Ideal) x1 x2 (ix3 0 i j) = adjL (adjA x1) (laA x2) i j := by
  rw [val_main_v9_apply, val_main_v8_apply, val_main_v7_apply, val_main_v6_apply, idx_v6_ix3, eye_at,
    Ideal.addf_def, Ideal.mulf_def]
  rfl

/-- The row-sum's operand index at row `i`, column `k`. -/
theorem idx_v10_ix2 (i k : Fin 4096) : idx_main_v10 (ix2 (0 : Fin 1) i) k = ix3 0 i k :=
  funext fun a => Fin.ext (by match a with | ⟨0, _⟩ => rfl | ⟨1, _⟩ => rfl | ⟨2, _⟩ => rfl)

theorem degR_at (i : Fin 4096) :
    val_main_v10 (F := Ideal) x1 x2 (ix2 0 i) = degR (adjA x1) (laA x2) i := by
  rw [val_main_v10_apply, val_main_cst_apply, Ideal.ofBits_def, Ideal.ofBits_zero_f32, zero_add]
  unfold degR
  refine Finset.sum_congr rfl fun k _ => ?_
  rw [idx_v10_ix2, adjL_at]

theorem dR_at (i : Fin 4096) :
    val_main_v16 (F := Ideal) x1 x2 (ix2 0 i) = dR (adjA x1) (laA x2) i := by
  rw [val_main_v16_apply, val_main_v12_apply, val_main_v15_apply, val_main_v14_apply, val_main_v13_apply,
    val_main_v11_apply, val_main_call0_v1_apply, val_main_call0_v0_apply, val_main_cst_0_apply, val_main_cst_1_apply,
    val_main_cst_2_apply, degR_at, select_ogt, Ideal.hostDivf_def, Ideal.hostUnary_sqrt_def, Ideal.ofBits_def,
    Ideal.ofBits_def, Ideal.ofBits_zero_f32, ofBits_one_f32]
  rfl

/-! ## The normalized adjacency -/

/-- Reading a 4096 x 4096 matrix through the reshape that drops the leading unit axis. -/
theorem idx_v24_ix2 (i j : Fin 4096) : idx_main_v24 (ix2 i j) = ix3 0 i j :=
  funext fun a => Fin.ext (by
    have hi := i.isLt; have hj := j.isLt
    match a with
    | ⟨0, _⟩ => rfl
    | ⟨1, _⟩ => show (i.val * 4096 + j.val) / 4096 % 4096 = i.val; omega
    | ⟨2, _⟩ => show (i.val * 4096 + j.val) % 4096 = j.val; omega)

/-- The row normalizer's broadcast reads row `i`. -/
theorem idx_v17_v18_ix3 (i j : Fin 4096) : idx_main_v17 (idx_main_v18 (ix3 (0 : Fin 1) i j)) = ix2 0 i :=
  funext fun a => Fin.ext (by match a with | ⟨0, _⟩ => rfl | ⟨1, _⟩ => rfl)

/-- The column normalizer's broadcast reads column `j`. -/
theorem idx_v20_v21_ix3 (i j : Fin 4096) : idx_main_v20 (idx_main_v21 (ix3 (0 : Fin 1) i j)) = ix2 0 j :=
  funext fun a => Fin.ext (by match a with | ⟨0, _⟩ => rfl | ⟨1, _⟩ => rfl)

theorem A_at (i j : Fin 4096) :
    val_main_v24 (F := Ideal) x1 x2 (ix2 i j) = AR (adjA x1) (laA x2) i j := by
  rw [val_main_v24_apply, idx_v24_ix2, val_main_v22_apply, val_main_v19_apply, val_main_v18_apply, val_main_v17_apply,
    val_main_v21_apply, val_main_v20_apply, idx_v17_v18_ix3, idx_v20_v21_ix3, adjL_at, dR_at, dR_at,
    Ideal.mulf_def, Ideal.mulf_def]
  rfl

end Cert.ReferenceIdeal.RefVal

end
-- ==== Proof.RefEnc.lean ====
/-
  The reference's two encoder branches read at coordinates. Each branch is A (relu (A (xs W1)) W2) with A the
  normalized adjacency: four matrix products and one rectifier, every product a sum over the contracted coordinate.
  The second branch is the first one's term at the other pair of weights.
-/
import proofs.«120297_g49246095016346_cont_8to1c4_490_5_alg».proof.Proof.Gen.ReferenceIdeal.Read
import proofs.«120297_g49246095016346_cont_8to1c4_490_5_alg».proof.Proof.Spec
import proofs.«120297_g49246095016346_cont_8to1c4_490_5_alg».proof.Proof.RefA
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Cert.Spec

namespace Cert.ReferenceIdeal.RefVal

open Cert.ReferenceIdeal Cert.ReferenceIdeal.Read

variable (x0 : (⟨S1x4096x128, .f32⟩ : BufTy).Contents (Elt Ideal)) (x1 : (⟨S1x4096x4096, .f32⟩ : BufTy).Contents (Elt Ideal)) (x2 : (⟨S_, .f32⟩ : BufTy).Contents (Elt Ideal))
  (x3 x4 x5 x6 : (⟨S128x128, .f32⟩ : BufTy).Contents (Elt Ideal)) (x7 x8 : (⟨S128x40, .f32⟩ : BufTy).Contents (Elt Ideal)) (x9 : (⟨S40, .f32⟩ : BufTy).Contents (Elt Ideal))

/-! ## The operand indices of a product at output coordinates (r, k) and contracted coordinate q -/

theorem idx_v23_ix2 (r : Fin 4096) (q : Fin 128) : idx_main_v23 (ix2 r q) = ix3 0 r q :=
  funext fun a => Fin.ext (by
    have hr := r.isLt; have hq := q.isLt
    match a with
    | ⟨0, _⟩ => rfl
    | ⟨1, _⟩ => show (r.val * 128 + q.val) / 128 % 4096 = r.val; omega
    | ⟨2, _⟩ => show (r.val * 128 + q.val) % 128 = q.val; omega)

theorem xs_at (r : Fin 4096) (q : Fin 128) : val_main_v23 (F := Ideal) x0 (ix2 r q) = xsA x0 r q := by
  rw [val_main_v23_apply, idx_v23_ix2]

theorem lidx_v25_ix2 (r : Fin 4096) (k q : Fin 128) : lidx_main_v25 (ix2 r k) q = ix2 r q :=
  funext fun a => Fin.ext (by match a with | ⟨0, _⟩ => rfl | ⟨1, _⟩ => rfl)
theorem ridx_v25_ix2 (r : Fin 4096) (k q : Fin 128) : ridx_main_v25 (ix2 r k) q = ix2 q k :=
  funext fun a => Fin.ext (by match a with | ⟨0, _⟩ => rfl | ⟨1, _⟩ => rfl)
theorem lidx_v26_ix2 (r : Fin 4096) (k : Fin 128) (q : Fin 4096) : lidx_main_v26 (ix2 r k) q = ix2 r q :=
  funext fun a => Fin.ext (by match a with | ⟨0, _⟩ => rfl | ⟨1, _⟩ => rfl)
theorem ridx_v26_ix2 (r : Fin 4096) (k : Fin 128) (q : Fin 4096) : ridx_main_v26 (ix2 r k) q = ix2 q k :=
  funext fun a => Fin.ext (by match a with | ⟨0, _⟩ => rfl | ⟨1, _⟩ => rfl)
theorem lidx_v28_ix2 (r : Fin 4096) (k q : Fin 128) : lidx_main_v28 (ix2 r k) q = ix2 r q :=
  funext fun a => Fin.ext (by match a with | ⟨0, _⟩ => rfl | ⟨1, _⟩ => rfl)
theorem ridx_v28_ix2 (r : Fin 4096) (k q : Fin 128) : ridx_main_v28 (ix2 r k) q = ix2 q k :=
  funext fun a => Fin.ext (by match a with | ⟨0, _⟩ => rfl | ⟨1, _⟩ => rfl)
theorem lidx_v29_ix2 (r : Fin 4096) (k : Fin 128) (q : Fin 4096) : lidx_main_v29 (ix2 r k) q = ix2 r q :=
  funext fun a => Fin.ext (by match a with | ⟨0, _⟩ => rfl | ⟨1, _⟩ => rfl)
theorem ridx_v29_ix2 (r : Fin 4096) (k : Fin 128) (q : Fin 4096) : ridx_main_v29 (ix2 r k) q = ix2 q k :=
  funext fun a => Fin.ext (by match a with | ⟨0, _⟩ => rfl | ⟨1, _⟩ => rfl)

/-! ## The first branch, stage by stage -/

/-- The input projection xs W1. -/
theorem v25_at (w : (⟨S128x128, .f32⟩ : BufTy).Contents (Elt Ideal)) (r : Fin 4096) (k : Fin 128) :
    val_main_v25 (F := Ideal) x0 w (ix2 r k) = mm (xsA x0) (sq w) r k := by
  rw [val_main_v25_apply]
  unfold mm
  refine Finset.sum_congr rfl fun q _ => ?_
  rw [lidx_v25_ix2, ridx_v25_ix2, xs_at]

/-- The first graph layer before its rectifier: A (xs W1). -/
theorem v26_at (w : (⟨S128x128, .f32⟩ : BufTy).Contents (Elt Ideal)) (r : Fin 4096) (k : Fin 128) :
    val_main_v26 (F := Ideal) x0 x1 x2 w (ix2 r k) = mm (AR (adjA x1) (laA x2)) (mm (xsA x0) (sq w)) r k := by
  rw [val_main_v26_apply]
  unfold mm
  refine Finset.sum_congr rfl fun q _ => ?_
  rw [lidx_v26_ix2, ridx_v26_ix2, A_at, v25_at]
  rfl

/-- The rectified first layer. -/
theorem v27_at (w : (⟨S128x128, .f32⟩ : BufTy).Contents (Elt Ideal)) (r : Fin 4096) (k : Fin 128) :
    val_main_v27 (F := Ideal) x0 x1 x2 w (ix2 r k)
      = relu (mm (AR (adjA x1) (laA x2)) (mm (xsA x0) (sq w))) r k := by
  rw [val_main_v27_apply, val_main_call1_v0_apply, val_main_call1_cst_apply, v26_at, Ideal.maximumf_def,
    Ideal.ofBits_def, Ideal.ofBits_zero_f32]
  rfl

/-- The second layer's projection. -/
theorem v28_at (w1 w2 : (⟨S128x128, .f32⟩ : BufTy).Contents (Elt Ideal)) (r : Fin 4096) (k : Fin 128) :
    val_main_v28 (F := Ideal) x0 x1 x2 w1 w2 (ix2 r k)
      = mm (relu (mm (AR (adjA x1) (laA x2)) (mm (xsA x0) (sq w1)))) (sq w2) r k := by
  rw [val_main_v28_apply]
  unfold mm
  refine Finset.sum_congr rfl fun q _ => ?_
  rw [lidx_v28_ix2, ridx_v28_ix2, v27_at]
  rfl

theorem v29_at (r : Fin 4096) (k : Fin 128) :
    val_main_v29 (F := Ideal) x0 x1 x2 x3 x4 (ix2 r k) = encR (AR (adjA x1) (laA x2)) (xsA x0) (sq x3) (sq x4) r k := by
  rw [val_main_v29_apply]
  show _ = ∑ q, AR (adjA x1) (laA x2) r q * mm (relu (mm (AR (adjA x1) (laA x2)) (mm (xsA x0) (sq x3)))) (sq x4) q k
  refine Finset.sum_congr rfl fun q _ => ?_
  rw [lidx_v29_ix2, ridx_v29_ix2, A_at, v28_at]

/-! ## The second branch: the same term at the other weights -/

theorem v34_eq_v29 : val_main_v34 (F := Ideal) x0 x1 x2 x5 x6 = val_main_v29 (F := Ideal) x0 x1 x2 x5 x6 := rfl

theorem v34_at (r : Fin 4096) (k : Fin 128) :
    val_main_v34 (F := Ideal) x0 x1 x2 x5 x6 (ix2 r k) = encR (AR (adjA x1) (laA x2)) (xsA x0) (sq x5) (sq x6) r k := by
  rw [v34_eq_v29, v29_at]

end Cert.ReferenceIdeal.RefVal

end
-- ==== Proof.RefHeads.lean ====
/-
  The reference's two heads read at coordinates. The decoder is A (hh2 Wd) with hh2 the second encoder branch; the
  node head is e2 Wmlp plus a bias row with e2 the first branch. Both results carry a leading unit axis.
-/
import proofs.«120297_g49246095016346_cont_8to1c4_490_5_alg».proof.Proof.Gen.ReferenceIdeal.Read
import proofs.«120297_g49246095016346_cont_8to1c4_490_5_alg».proof.Proof.Spec
import proofs.«120297_g49246095016346_cont_8to1c4_490_5_alg».proof.Proof.RefEnc
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Cert.Spec

namespace Cert.ReferenceIdeal.RefVal

open Cert.ReferenceIdeal Cert.ReferenceIdeal.Read

variable (x0 : (⟨S1x4096x128, .f32⟩ : BufTy).Contents (Elt Ideal)) (x1 : (⟨S1x4096x4096, .f32⟩ : BufTy).Contents (Elt Ideal)) (x2 : (⟨S_, .f32⟩ : BufTy).Contents (Elt Ideal))
  (x3 x4 x5 x6 : (⟨S128x128, .f32⟩ : BufTy).Contents (Elt Ideal)) (x7 x8 : (⟨S128x40, .f32⟩ : BufTy).Contents (Elt Ideal)) (x9 : (⟨S40, .f32⟩ : BufTy).Contents (Elt Ideal))

/-! ## Operand indices -/

theorem lidx_v35_ix2 (r : Fin 4096) (k : Fin 40) (q : Fin 128) : lidx_main_v35 (ix2 r k) q = ix2 r q :=
  funext fun a => Fin.ext (by match a with | ⟨0, _⟩ => rfl | ⟨1, _⟩ => rfl)
theorem ridx_v35_ix2 (r : Fin 4096) (k : Fin 40) (q : Fin 128) : ridx_main_v35 (ix2 r k) q = ix2 q k :=
  funext fun a => Fin.ext (by match a with | ⟨0, _⟩ => rfl | ⟨1, _⟩ => rfl)
theorem lidx_v36_ix2 (r : Fin 4096) (k : Fin 40) (q : Fin 4096) : lidx_main_v36 (ix2 r k) q = ix2 r q :=
  funext fun a => Fin.ext (by match a with | ⟨0, _⟩ => rfl | ⟨1, _⟩ => rfl)
theorem ridx_v36_ix2 (r : Fin 4096) (k : Fin 40) (q : Fin 4096) : ridx_main_v36 (ix2 r k) q = ix2 q k :=
  funext fun a => Fin.ext (by match a with | ⟨0, _⟩ => rfl | ⟨1, _⟩ => rfl)
theorem idx_v37_ix3 (r : Fin 4096) (k : Fin 40) : idx_main_v37 (ix3 (0 : Fin 1) r k) = ix2 r k :=
  funext fun a => Fin.ext (by match a with | ⟨0, _⟩ => rfl | ⟨1, _⟩ => rfl)
theorem lidx_v38_ix2 (r : Fin 4096) (k : Fin 40) (q : Fin 128) : lidx_main_v38 (ix2 r k) q = ix2 r q :=
  funext fun a => Fin.ext (by match a with | ⟨0, _⟩ => rfl | ⟨1, _⟩ => rfl)
theorem ridx_v38_ix2 (r : Fin 4096) (k : Fin 40) (q : Fin 128) : ridx_main_v38 (ix2 r k) q = ix2 q k :=
  funext fun a => Fin.ext (by match a with | ⟨0, _⟩ => rfl | ⟨1, _⟩ => rfl)
theorem idx_v39_v40_ix2 (r : Fin 4096) (k : Fin 40) : idx_main_v39 (idx_main_v40 (ix2 r k)) = ix1 k :=
  funext fun a => Fin.ext (by match a with | ⟨0, _⟩ => rfl)
theorem idx_v42_ix3 (r : Fin 4096) (k : Fin 40) : idx_main_v42 (ix3 (0 : Fin 1) r k) = ix2 r k :=
  funext fun a => Fin.ext (by match a with | ⟨0, _⟩ => rfl | ⟨1, _⟩ => rfl)

/-! ## The decoder -/

/-- The decoder's projection hh2 Wd. -/
theorem v35_at (r : Fin 4096) (k : Fin 40) :
    val_main_v35 (F := Ideal) x0 x1 x2 x5 x6 x7 (ix2 r k)
      = mm (encR (AR (adjA x1) (laA x2)) (xsA x0) (sq x5) (sq x6)) (tall x7) r k := by
  rw [val_main_v35_apply]
  unfold mm
  refine Finset.sum_congr rfl fun q _ => ?_
  rw [lidx_v35_ix2, ridx_v35_ix2, v34_at]

theorem v36_at (r : Fin 4096) (k : Fin 40) :
    val_main_v36 (F := Ideal) x0 x1 x2 x5 x6 x7 (ix2 r k)
      = logitsR (AR (adjA x1) (laA x2)) (encR (AR (adjA x1) (laA x2)) (xsA x0) (sq x5) (sq x6)) (tall x7) r k := by
  rw [val_main_v36_apply]
  show _ = ∑ q, AR (adjA x1) (laA x2) r q * mm (encR (AR (adjA x1) (laA x2)) (xsA x0) (sq x5) (sq x6)) (tall x7) q k
  refine Finset.sum_congr rfl fun q _ => ?_
  rw [lidx_v36_ix2, ridx_v36_ix2, A_at, v35_at]

theorem v37_at (r : Fin 4096) (k : Fin 40) :
    val_main_v37 (F := Ideal) x0 x1 x2 x5 x6 x7 (ix3 0 r k)
      = logitsR (AR (adjA x1) (laA x2)) (encR (AR (adjA x1) (laA x2)) (xsA x0) (sq x5) (sq x6)) (tall x7) r k := by
  rw [val_main_v37_apply, idx_v37_ix3, v36_at]

/-! ## The node head -/

/-- The dense layer e2 Wmlp before its bias. -/
theorem v38_at (r : Fin 4096) (k : Fin 40) :
    val_main_v38 (F := Ideal) x0 x1 x2 x3 x4 x8 (ix2 r k)
      = mm (encR (AR (adjA x1) (laA x2)) (xsA x0) (sq x3) (sq x4)) (tall x8) r k := by
  rw [val_main_v38_apply]
  unfold mm
  refine Finset.sum_congr rfl fun q _ => ?_
  rw [lidx_v38_ix2, ridx_v38_ix2, v29_at]

theorem v41_at (r : Fin 4096) (k : Fin 40) :
    val_main_v41 (F := Ideal) x0 x1 x2 x3 x4 x8 x9 (ix2 r k)
      = lnR (encR (AR (adjA x1) (laA x2)) (xsA x0) (sq x3) (sq x4)) (tall x8) (fun j => x9 (ix1 j)) r k := by
  rw [val_main_v41_apply, val_main_v40_apply, val_main_v39_apply, idx_v39_v40_ix2, v38_at, Ideal.addf_def]
  rfl

theorem v42_at (r : Fin 4096) (k : Fin 40) :
    val_main_v42 (F := Ideal) x0 x1 x2 x3 x4 x8 x9 (ix3 0 r k)
      = lnR (encR (AR (adjA x1) (laA x2)) (xsA x0) (sq x3) (sq x4)) (tall x8) (fun j => x9 (ix1 j)) r k := by
  rw [val_main_v42_apply, idx_v42_ix3, v41_at]

end Cert.ReferenceIdeal.RefVal

end
-- ==== Proof.AlgReal.lean ====
/-
  Extended reals that are real numbers: the predicate, its closure under the operations the two
  programs use (sum, product, maximum, finite sums, matrix products), and the passage between a
  matrix of such values and a matrix of reals.  Distributivity fails at the infinities, so every
  algebraic law is proved over the reals and carried back along the coercion.
-/
import proofs.«120297_g49246095016346_cont_8to1c4_490_5_alg».proof.Proof.Spec
import Mathlib.Data.EReal.Basic
import Mathlib.Algebra.BigOperators.Fin

noncomputable section

namespace Cert.Spec

open Idealize.ShloMosaic

/-- An extended real that is a real number. -/
def IsR (x : EReal) : Prop := x ≠ ⊤ ∧ x ≠ ⊥

theorem isR_coe (x : ℝ) : IsR (x : EReal) := ⟨EReal.coe_ne_top x, EReal.coe_ne_bot x⟩

theorem IsR.exists_coe {x : EReal} (h : IsR x) : ∃ r : ℝ, x = (r : EReal) :=
  ⟨x.toReal, (EReal.coe_toReal h.1 h.2).symm⟩

theorem isR_zero : IsR (0 : EReal) := by simpa using isR_coe 0
theorem isR_one : IsR (1 : EReal) := by simpa using isR_coe 1

theorem IsR.add {x y : EReal} (hx : IsR x) (hy : IsR y) : IsR (x + y) := by
  obtain ⟨a, rfl⟩ := hx.exists_coe
  obtain ⟨b, rfl⟩ := hy.exists_coe
  rw [← EReal.coe_add]; exact isR_coe _

theorem IsR.mul {x y : EReal} (hx : IsR x) (hy : IsR y) : IsR (x * y) := by
  obtain ⟨a, rfl⟩ := hx.exists_coe
  obtain ⟨b, rfl⟩ := hy.exists_coe
  rw [← EReal.coe_mul]; exact isR_coe _

/-- The coercion commutes with the maximum. -/
theorem coe_max (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

theorem IsR.max {x y : EReal} (hx : IsR x) (hy : IsR y) : IsR (max x y) := by
  obtain ⟨a, rfl⟩ := hx.exists_coe
  obtain ⟨b, rfl⟩ := hy.exists_coe
  rw [← coe_max]; exact isR_coe _

/-- The coercion commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isR_sum {ι : Type*} (s : Finset ι) (f : ι → EReal) (h : ∀ i, IsR (f i)) : IsR (∑ i ∈ s, f i) := by
  classical
  induction s using Finset.induction_on with
  | empty => simpa using isR_zero
  | insert a s ha ih => rw [Finset.sum_insert ha]; exact (h a).add ih

/-- A matrix of real-valued extended reals is the coercion of a real matrix. -/
theorem exists_real_mx {a b : ℕ} (X : Mx a b) (h : ∀ i j, IsR (X i j)) :
    ∃ X' : Fin a → Fin b → ℝ, X = fun i j => (X' i j : EReal) :=
  ⟨fun i j => (X i j).toReal, by funext i j; exact (EReal.coe_toReal (h i j).1 (h i j).2).symm⟩

theorem mm_isR {a k n : ℕ} (X : Mx a k) (W : Mx k n) (hX : ∀ i q, IsR (X i q)) (hW : ∀ q c, IsR (W q c))
    (i : Fin a) (c : Fin n) : IsR (mm X W i c) :=
  isR_sum _ _ fun q => (hX i q).mul (hW q c)

theorem relu_isR {a b : ℕ} (X : Mx a b) (hX : ∀ i c, IsR (X i c)) (i : Fin a) (c : Fin b) : IsR (relu X i c) :=
  (hX i c).max isR_zero

/-- The real matrix product. -/
def mmr {a k n : ℕ} (X : Fin a → Fin k → ℝ) (W : Fin k → Fin n → ℝ) : Fin a → Fin n → ℝ :=
  fun i c => ∑ q, X i q * W q c

/-- The product of coerced matrices is the coercion of the real product. -/
theorem mm_coe {a k n : ℕ} (X : Fin a → Fin k → ℝ) (W : Fin k → Fin n → ℝ) (i : Fin a) (c : Fin n) :
    mm (fun i q => (X i q : EReal)) (fun q c => (W q c : EReal)) i c = (mmr X W i c : EReal) := by
  simp only [mm, mmr, coe_sum, EReal.coe_mul]

end Cert.Spec

end
-- ==== Proof.AlgNorm.lean ====
/-
  The two normalizers agree on real data.  The kernel's degree is a row sum plus the self-loop
  weight, the reference's is the row sum of the looped adjacency; both are the same real number,
  and for a positive real degree the inverse square root and one over the square root are both
  the real (sqrt deg)⁻¹.  Where the degree is not positive both normalizers are zero.
-/
import proofs.«120297_g49246095016346_cont_8to1c4_490_5_alg».proof.Proof.AlgReal

noncomputable section

namespace Cert.Spec

open Idealize.ShloMosaic

variable (adj : Fin 4096 → Fin 4096 → ℝ) (la : ℝ)

/-- The real degree of a row. -/
def degr (r : Fin 4096) : ℝ := (∑ j, adj r j) + la
/-- The real normalizer. -/
def dr (r : Fin 4096) : ℝ := if 0 < degr adj la r then (Real.sqrt (degr adj la r))⁻¹ else 0
/-- The real normalized adjacency. -/
def Ar (i j : Fin 4096) : ℝ := (adj i j + la * (if i = j then 1 else 0)) * dr adj la i * dr adj la j

theorem degK_coe (r : Fin 4096) : degK (fun i j => (adj i j : EReal)) (la : EReal) r = (degr adj la r : EReal) := by
  simp only [degK, degr, EReal.coe_add, coe_sum]

theorem dK_coe (r : Fin 4096) : dK (fun i j => (adj i j : EReal)) (la : EReal) r = (dr adj la r : EReal) := by
  unfold dK dr
  rw [degK_coe]
  by_cases h : 0 < degr adj la r
  · rw [if_pos (EReal.coe_pos.mpr h), if_pos h, Ideal.rsqrt_coe, if_neg (not_lt.mpr h.le), if_neg h.ne']
  · rw [if_neg (fun h' => h (EReal.coe_pos.mp h')), if_neg h]; rfl

theorem eye_coe (i j : Fin 4096) : eye i j = ((if i = j then (1 : ℝ) else 0 : ℝ) : EReal) := by
  unfold eye; split_ifs <;> rfl

theorem adjL_coe (i j : Fin 4096) :
    adjL (fun i j => (adj i j : EReal)) (la : EReal) i j = ((adj i j + la * (if i = j then 1 else 0) : ℝ) : EReal) := by
  simp only [adjL, eye_coe, EReal.coe_add, EReal.coe_mul]

theorem degR_coe (i : Fin 4096) : degR (fun i j => (adj i j : EReal)) (la : EReal) i = (degr adj la i : EReal) := by
  unfold degR degr
  simp only [adjL_coe]
  rw [← coe_sum, Finset.sum_add_distrib]
  congr 2
  simp only [mul_ite, mul_one, mul_zero, Finset.sum_ite_eq, Finset.mem_univ, if_true]

theorem dR_coe (i : Fin 4096) : dR (fun i j => (adj i j : EReal)) (la : EReal) i = (dr adj la i : EReal) := by
  unfold dR dr
  rw [degR_coe]
  by_cases h : 0 < degr adj la i
  · rw [if_pos (EReal.coe_pos.mpr h), if_pos h, Ideal.sqrt_coe, if_neg (not_lt.mpr h.le),
      Ideal.div_coe (Real.sqrt_ne_zero'.mpr h), one_mul, one_div]
  · rw [if_neg (fun h' => h (EReal.coe_pos.mp h')), if_neg h]; rfl

theorem AR_coe (i j : Fin 4096) : AR (fun i j => (adj i j : EReal)) (la : EReal) i j = (Ar adj la i j : EReal) := by
  simp only [AR, Ar, adjL_coe, dR_coe, EReal.coe_mul]

end Cert.Spec

namespace Cert.Spec

/-- The normalized adjacency of real data is real. -/
theorem AR_isR (adj : Mx 4096 4096) (la : EReal) (hadj : ∀ i j, IsR (adj i j)) (hla : IsR la) (i j : Fin 4096) :
    IsR (AR adj la i j) := by
  obtain ⟨adj', rfl⟩ := exists_real_mx adj hadj
  obtain ⟨la', rfl⟩ := hla.exists_coe
  rw [AR_coe]; exact isR_coe _

/-- The kernel's normalizer of real data is real. -/
theorem dK_isR (adj : Mx 4096 4096) (la : EReal) (hadj : ∀ i j, IsR (adj i j)) (hla : IsR la) (r : Fin 4096) :
    IsR (dK adj la r) := by
  obtain ⟨adj', rfl⟩ := exists_real_mx adj hadj
  obtain ⟨la', rfl⟩ := hla.exists_coe
  rw [dK_coe]; exact isR_coe _

end Cert.Spec

end
-- ==== Proof.AlgCore.lean ====
/-
  The core law.  With d the normalizer, every array the kernel multiplies by the raw adjacency has
  the form d j * X j c, and for real data
      d r * (sum_j adj r j * (d j * X j c) + la * (d r * X r c)) = sum_j ((adj r j + la * eye r j) * d r * d j) * X j c :
  the self loop added to the product is the diagonal term of the looped adjacency.  The identity
  is proved over the reals (distributing a factor over a sum) and carried back along the coercion.
  It is a statement about one column c, and asks for real values of X in that column only.
-/
import proofs.«120297_g49246095016346_cont_8to1c4_490_5_alg».proof.Proof.AlgNorm

noncomputable section

namespace Cert.Spec

open Idealize.ShloMosaic

/-- The core law over the reals, for any normalizer and one column. -/
theorem core_real (adj : Fin 4096 → Fin 4096 → ℝ) (la : ℝ) (d : Fin 4096 → ℝ) (x : Fin 4096 → ℝ) (r : Fin 4096) :
    d r * ((∑ j, adj r j * (d j * x j)) + la * (d r * x r))
      = ∑ j, ((adj r j + la * (if r = j then 1 else 0)) * d r * d j) * x j := by
  have h : ∀ j, ((adj r j + la * (if r = j then 1 else 0)) * d r * d j) * x j
      = d r * (adj r j * (d j * x j)) + (if r = j then la * d r * d j * x j else 0) := by
    intro j; split_ifs <;> ring
  simp only [h]
  rw [Finset.sum_add_distrib, Finset.sum_ite_eq, if_pos (Finset.mem_univ _), ← Finset.mul_sum]
  ring

/-- The core law: for real data, the normalizer times the raw adjacency's product (self loop added to the
    product) of a normalizer-scaled array is the normalized adjacency's product of the unscaled array. -/
theorem core_law (adj : Mx 4096 4096) (la : EReal) (hadj : ∀ i j, IsR (adj i j)) (hla : IsR la) {n : ℕ}
    (X : Mx 4096 n) (c : Fin n) (hX : ∀ j, IsR (X j c)) (r : Fin 4096) :
    dK adj la r * spmm adj la (fun j c => dK adj la j * X j c) r c = mm (AR adj la) X r c := by
  obtain ⟨adj', rfl⟩ := exists_real_mx adj hadj
  obtain ⟨la', rfl⟩ := hla.exists_coe
  obtain ⟨x', hx'⟩ : ∃ x' : Fin 4096 → ℝ, ∀ j, X j c = (x' j : EReal) :=
    ⟨fun j => (X j c).toReal, fun j => (EReal.coe_toReal (hX j).1 (hX j).2).symm⟩
  unfold spmm mm
  simp only [hx', AR_coe, dK_coe, ← EReal.coe_mul, ← coe_sum, ← EReal.coe_add]
  rw [core_real]
  rfl

end Cert.Spec

end
-- ==== Proof.AlgSplit.lean ====
/-
  Columns.  A sum over 256 columns is the sum over the first 128 plus the sum over the last 128, and
  every column is one or the other.  With the input projection [W1 | W1'] and the block-diagonal second
  projection, the first 128 columns of  A (relu (A (xs [W1 | W1'])) W2all)  are the encoder branch over
  (W1, W2): the off-diagonal block contributes products with zero, which vanish on all of the extended
  reals.  The padded node head read at a kept column is the unpadded head.  None of this needs finiteness.
-/
import proofs.«120297_g49246095016346_cont_8to1c4_490_5_alg».proof.Proof.AlgReal

noncomputable section

namespace Cert.Spec

open Idealize.ShloMosaic

/-- A sum over 256 columns, split in halves. -/
theorem sum_lo_hi {M : Type*} [AddCommMonoid M] (f : Fin 256 → M) :
    ∑ q, f q = (∑ q : Fin 128, f (lo q)) + ∑ q : Fin 128, f (hi q) :=
  Fin.sum_univ_add (a := 128) (b := 128) f

/-- Every one of 256 columns lies in the first half or in the second. -/
theorem lo_or_hi (c : Fin 256) : (∃ k, c = lo k) ∨ (∃ k, c = hi k) := by
  by_cases h : c.val < 128
  · exact Or.inl ⟨⟨c.val, h⟩, Fin.ext rfl⟩
  · exact Or.inr ⟨⟨c.val - 128, by omega⟩, Fin.ext (by simp only [hi]; omega)⟩

/-- The first-half block of the two-branch second layer is the branch over the first-half weights. -/
theorem block_lo (A : Mx 4096 4096) (xs : Mx 4096 128) (wenc : Mx 128 256) (w2 : Mx 256 256) (W1 W2 : Mx 128 128)
    (h1 : ∀ q k, wenc q (lo k) = W1 q k) (h2 : ∀ q k, w2 (lo q) (lo k) = W2 q k) (h0 : ∀ q k, w2 (hi q) (lo k) = 0)
    (r : Fin 4096) (k : Fin 128) :
    mm A (mm (relu (mm A (mm xs wenc))) w2) r (lo k) = encR A xs W1 W2 r k := by
  have hR : ∀ j q, relu (mm A (mm xs wenc)) j (lo q) = relu (mm A (mm xs W1)) j q := by
    intro j q; simp only [relu, mm, h1]
  have hH : ∀ j, mm (relu (mm A (mm xs wenc))) w2 j (lo k) = mm (relu (mm A (mm xs W1))) W2 j k := by
    intro j
    show (∑ q, relu (mm A (mm xs wenc)) j q * w2 q (lo k)) = ∑ q, relu (mm A (mm xs W1)) j q * W2 q k
    rw [sum_lo_hi]
    simp only [h2, h0, hR, mul_zero, Finset.sum_const_zero, add_zero]
  show (∑ j, A r j * mm (relu (mm A (mm xs wenc))) w2 j (lo k)) = ∑ j, A r j * mm (relu (mm A (mm xs W1))) W2 j k
  simp only [hH]

/-- The second-half block likewise. -/
theorem block_hi (A : Mx 4096 4096) (xs : Mx 4096 128) (wenc : Mx 128 256) (w2 : Mx 256 256) (W1 W2 : Mx 128 128)
    (h1 : ∀ q k, wenc q (hi k) = W1 q k) (h2 : ∀ q k, w2 (hi q) (hi k) = W2 q k) (h0 : ∀ q k, w2 (lo q) (hi k) = 0)
    (r : Fin 4096) (k : Fin 128) :
    mm A (mm (relu (mm A (mm xs wenc))) w2) r (hi k) = encR A xs W1 W2 r k := by
  have hR : ∀ j q, relu (mm A (mm xs wenc)) j (hi q) = relu (mm A (mm xs W1)) j q := by
    intro j q; simp only [relu, mm, h1]
  have hH : ∀ j, mm (relu (mm A (mm xs wenc))) w2 j (hi k) = mm (relu (mm A (mm xs W1))) W2 j k := by
    intro j
    show (∑ q, relu (mm A (mm xs wenc)) j q * w2 q (hi k)) = ∑ q, relu (mm A (mm xs W1)) j q * W2 q k
    rw [sum_lo_hi]
    simp only [h2, h0, hR, mul_zero, Finset.sum_const_zero, zero_add]
  show (∑ j, A r j * mm (relu (mm A (mm xs wenc))) w2 j (hi k)) = ∑ j, A r j * mm (relu (mm A (mm xs W1))) W2 j k
  simp only [hH]

/-- The node head over padded weights, at a kept column, is the head over the unpadded ones (no finiteness needed). -/
theorem ln_eq (e2 : Mx 4096 128) (wm : Mx 128 128) (bp : Vc 128) (Wmlp : Mx 128 40) (b : Vc 40)
    (hwm : ∀ q k, wm q (pad k) = Wmlp q k) (hb : ∀ k, bp (pad k) = b k) (r : Fin 4096) (k : Fin 40) :
    lnK e2 wm bp r (pad k) = lnR e2 Wmlp b r k := by
  simp only [lnK, lnR, mm, hwm, hb]

end Cert.Spec

end
-- ==== Proof.AlgMain.lean ====
/-
  The kernel's passes against the reference's layers, for real data.  The input projection is
  d * (xs W), so by the core law the first layer is d * H with H = relu (A (xs W)) W2all; by the core
  law again the second layer is A H.  Its first 128 columns are the encoder branch over (We1, We2) and
  its last 128 the branch over (Wh1, Wh2).  The decoder is the core law once more, read at a kept column.
-/
import proofs.«120297_g49246095016346_cont_8to1c4_490_5_alg».proof.Proof.AlgCore
import proofs.«120297_g49246095016346_cont_8to1c4_490_5_alg».proof.Proof.AlgSplit

noncomputable section

namespace Cert.Spec

open Idealize.ShloMosaic

/-- The encoder's value is a real number for real data. -/
theorem encR_isR (A : Mx 4096 4096) (X : Mx 4096 128) (W1 W2 : Mx 128 128) (hA : ∀ i j, IsR (A i j)) (hX : ∀ i q, IsR (X i q))
    (h1 : ∀ q j, IsR (W1 q j)) (h2 : ∀ q j, IsR (W2 q j)) (r : Fin 4096) (k : Fin 128) : IsR (encR A X W1 W2 r k) :=
  mm_isR A _ hA (mm_isR _ W2 (relu_isR _ (mm_isR A _ hA (mm_isR X W1 hX h1))) h2) r k

/-- The kernel's second-layer array, as the passes compose. -/
abbrev yAll (adj : Mx 4096 4096) (la : EReal) (xs : Mx 4096 128) (wenc : Mx 128 256) (w2 : Mx 256 256) : Mx 4096 256 :=
  yK adj la (dK adj la) (layer1K adj la (dK adj la) (dxwK (dK adj la) xs wenc) w2)

/-- For real data the kernel's second-layer array is the normalized adjacency applied twice. -/
theorem yAll_eq (adj : Mx 4096 4096) (la : EReal) (xs : Mx 4096 128) (wenc : Mx 128 256) (w2 : Mx 256 256)
    (hadj : ∀ i j, IsR (adj i j)) (hla : IsR la) (hxs : ∀ i q, IsR (xs i q))
    (hwenc : ∀ q c, IsR (wenc q c)) (hw2 : ∀ q c, IsR (w2 q c)) (r : Fin 4096) (c : Fin 256) :
    yAll adj la xs wenc w2 r c = mm (AR adj la) (mm (relu (mm (AR adj la) (mm xs wenc))) w2) r c := by
  have h1 : ∀ i q, dK adj la i * spmm adj la (dxwK (dK adj la) xs wenc) i q = mm (AR adj la) (mm xs wenc) i q :=
    fun i q => core_law adj la hadj hla (mm xs wenc) q (fun j => mm_isR xs wenc hxs hwenc j q) i
  have h2 : layer1K adj la (dK adj la) (dxwK (dK adj la) xs wenc) w2
      = fun j c => dK adj la j * mm (relu (mm (AR adj la) (mm xs wenc))) w2 j c := by
    funext j c
    unfold layer1K
    simp only [h1]
    rfl
  show dK adj la r * spmm adj la (layer1K adj la (dK adj la) (dxwK (dK adj la) xs wenc) w2) r c = _
  rw [h2]
  exact core_law adj la hadj hla _ c
    (fun j => mm_isR _ w2 (relu_isR _ (mm_isR _ _ (AR_isR adj la hadj hla) (mm_isR xs wenc hxs hwenc))) hw2 j c) r

/-- The decoder layer: for real data, the kernel's scaled product through the raw adjacency is the product with the normalized one. -/
theorem logits_eq (adj : Mx 4096 4096) (la : EReal) (hh2 : Mx 4096 128) (wd : Mx 128 128) (Wd : Mx 128 40) (hhh2 : ∀ i q, IsR (hh2 i q)) (hWd : ∀ q j, IsR (Wd q j))
    (hadj : ∀ i j, IsR (adj i j)) (hla : IsR la)
    (hwd : ∀ q k, wd q (pad k) = Wd q k) (r : Fin 4096) (k : Fin 40) :
    outK adj la (dK adj la) (dzK (dK adj la) hh2 wd) r (pad k) = logitsR (AR adj la) hh2 Wd r k := by
  have hcol : ∀ j, mm hh2 wd j (pad k) = mm hh2 Wd j k := by
    intro j; simp only [mm, hwd]
  have hX : ∀ j, IsR (mm hh2 wd j (pad k)) := by
    intro j; rw [hcol]; exact mm_isR hh2 Wd hhh2 hWd j k
  have hc := core_law adj la hadj hla (mm hh2 wd) (pad k) hX r
  show dK adj la r * spmm adj la (dzK (dK adj la) hh2 wd) r (pad k) = _
  refine hc.trans ?_
  show (∑ j, AR adj la r j * mm hh2 wd j (pad k)) = ∑ j, AR adj la r j * mm hh2 Wd j k
  simp only [hcol]

variable (adj : Mx 4096 4096) (la : EReal) (xs : Mx 4096 128) (We1 We2 Wh1 Wh2 : Mx 128 128) (wenc : Mx 128 256) (w2 : Mx 256 256)
  (hadj : ∀ i j, IsR (adj i j)) (hla : IsR la) (hxs : ∀ i q, IsR (xs i q))
  (hWe1 : ∀ q j, IsR (We1 q j)) (hWe2 : ∀ q j, IsR (We2 q j)) (hWh1 : ∀ q j, IsR (Wh1 q j)) (hWh2 : ∀ q j, IsR (Wh2 q j))
  (hwenc_lo : ∀ q k, wenc q (lo k) = We1 q k) (hwenc_hi : ∀ q k, wenc q (hi k) = Wh1 q k)
  (hw2_ll : ∀ q k, w2 (lo q) (lo k) = We2 q k) (hw2_lh : ∀ q k, w2 (lo q) (hi k) = 0)
  (hw2_hl : ∀ q k, w2 (hi q) (lo k) = 0) (hw2_hh : ∀ q k, w2 (hi q) (hi k) = Wh2 q k)

include hWe1 hWh1 hwenc_lo hwenc_hi in
/-- The side-by-side input projection is real when both halves are. -/
theorem wenc_isR (q : Fin 128) (c : Fin 256) : IsR (wenc q c) := by
  rcases lo_or_hi c with ⟨k, rfl⟩ | ⟨k, rfl⟩
  · rw [hwenc_lo]; exact hWe1 q k
  · rw [hwenc_hi]; exact hWh1 q k

include hWe2 hWh2 hw2_ll hw2_lh hw2_hl hw2_hh in
/-- The block-diagonal second projection is real when both blocks are. -/
theorem w2_isR (q c : Fin 256) : IsR (w2 q c) := by
  rcases lo_or_hi q with ⟨q', rfl⟩ | ⟨q', rfl⟩ <;> rcases lo_or_hi c with ⟨k, rfl⟩ | ⟨k, rfl⟩
  · rw [hw2_ll]; exact hWe2 q' k
  · rw [hw2_lh]; exact isR_zero
  · rw [hw2_hl]; exact isR_zero
  · rw [hw2_hh]; exact hWh2 q' k

include hadj hla hxs hWe1 hWe2 hWh1 hWh2 hwenc_lo hwenc_hi hw2_ll hw2_lh hw2_hl hw2_hh in
theorem e2_eq (r : Fin 4096) (k : Fin 128) : yAll adj la xs wenc w2 r (lo k) = encR (AR adj la) xs We1 We2 r k := by
  rw [yAll_eq adj la xs wenc w2 hadj hla hxs (wenc_isR We1 Wh1 wenc hWe1 hWh1 hwenc_lo hwenc_hi)
    (w2_isR We2 Wh2 w2 hWe2 hWh2 hw2_ll hw2_lh hw2_hl hw2_hh)]
  exact block_lo (AR adj la) xs wenc w2 We1 We2 hwenc_lo hw2_ll hw2_hl r k

include hadj hla hxs hWe1 hWe2 hWh1 hWh2 hwenc_lo hwenc_hi hw2_ll hw2_lh hw2_hl hw2_hh in
theorem hh2_eq (r : Fin 4096) (k : Fin 128) : yAll adj la xs wenc w2 r (hi k) = encR (AR adj la) xs Wh1 Wh2 r k := by
  rw [yAll_eq adj la xs wenc w2 hadj hla hxs (wenc_isR We1 Wh1 wenc hWe1 hWh1 hwenc_lo hwenc_hi)
    (w2_isR We2 Wh2 w2 hWe2 hWh2 hw2_ll hw2_lh hw2_hl hw2_hh)]
  exact block_hi (AR adj la) xs wenc w2 Wh1 Wh2 hwenc_hi hw2_hh hw2_lh r k

end Cert.Spec

end
-- ==== Proof.PreFin.lean ====
/-
  The precondition read back: when every "absolute value below +infinity" test of the ten argument arrays comes out
  true, every entry of every argument is a real number (neither infinity).
-/
import proofs.«120297_g49246095016346_cont_8to1c4_490_5_alg».proof.Pre_finite_inputs
import Idealize.ShloMosaic.Lib.ReduceAll
import Idealize.ShloMosaic.PureOps.Ideal.Laws
import Idealize.ShloMosaic.Lib.ValueIdx

noncomputable section

namespace Cert.PreFin

open Idealize.ShloMosaic Cert.Pre_finite_inputs Idealize.ShloMosaic.ValueIdx

/-- The word of +infinity. -/
theorem top_word : Ideal.ofBits .f32 0x7F800000#32 = (⊤ : EReal) := by simp [Ideal.ofBits, Ideal.ieee]

/-- An extended real whose absolute value tests below +infinity is a real number. -/
theorem real_of_abs_lt_top (x : EReal)
    (h : Ideal.cmp .olt (FloatOps.absf (F := Ideal) (φ := .f32) x) (Ideal.ofBits .f32 0x7F800000#32) = 1#1) :
    x ≠ ⊤ ∧ x ≠ ⊥ := by
  rw [top_word] at h
  have h' : FloatOps.absf (F := Ideal) (φ := .f32) x < ⊤ := by
    by_contra hn
    have h0 : Ideal.cmp .olt (FloatOps.absf (F := Ideal) (φ := .f32) x) ⊤ = 0#1 := by simp [Ideal.cmp, hn]
    rw [h0] at h; exact absurd h (by decide)
  have habs : FloatOps.absf (F := Ideal) (φ := .f32) x = max x (-x) := rfl
  rw [habs] at h'
  constructor
  · rintro rfl; simp at h'
  · rintro rfl; simp at h'

instance : Subsingleton S_.Idx := ⟨fun a b => funext fun d => d.elim0⟩

variable [Facts]

/-- Every entry of every argument array is a real number when the precondition's function is all ones. -/
theorem real_of_pre (a0 : FVec Ideal S1x4096x128 .f32) (a1 : FVec Ideal S1x4096x4096 .f32) (a2 : FVec Ideal S_ .f32)
    (a3 a4 a5 a6 : FVec Ideal S128x128 .f32) (a7 a8 : FVec Ideal S128x40 .f32) (a9 : FVec Ideal S40 .f32)
    (h : fn (F := Ideal) a0 a1 a2 a3 a4 a5 a6 a7 a8 a9 = fun _ => 1#1) :
    (∀ i, a0 i ≠ ⊤ ∧ a0 i ≠ ⊥) ∧ (∀ i, a1 i ≠ ⊤ ∧ a1 i ≠ ⊥) ∧ (∀ i, a2 i ≠ ⊤ ∧ a2 i ≠ ⊥) ∧ (∀ i, a3 i ≠ ⊤ ∧ a3 i ≠ ⊥)
      ∧ (∀ i, a4 i ≠ ⊤ ∧ a4 i ≠ ⊥) ∧ (∀ i, a5 i ≠ ⊤ ∧ a5 i ≠ ⊥) ∧ (∀ i, a6 i ≠ ⊤ ∧ a6 i ≠ ⊥) ∧ (∀ i, a7 i ≠ ⊤ ∧ a7 i ≠ ⊥)
      ∧ (∀ i, a8 i ≠ ⊤ ∧ a8 i ≠ ⊥) ∧ (∀ i, a9 i ≠ ⊤ ∧ a9 i ≠ ⊥) := by
  have h0 := congrFun h ix0
  dsimp only [fn, fn_part1, fn_part2] at h0
  have e : ∀ (p q : IVec S_ 1), andi p q ix0 = IntOp.andi (p ix0) (q ix0) := fun _ _ => rfl
  simp only [e, IntOp.andi_eq_one] at h0
  obtain ⟨⟨⟨⟨⟨⟨⟨⟨⟨k0, k1⟩, k2⟩, k3⟩, k4⟩, k5⟩, k6⟩, k7⟩, k8⟩, k9⟩ := h0
  exact ⟨fun i => real_of_abs_lt_top _ (Host.reduce_andi_all _ _ _ _ _ k0 i),
    fun i => real_of_abs_lt_top _ (Host.reduce_andi_all _ _ _ _ _ k1 i),
    fun i => real_of_abs_lt_top _ (Host.reduce_andi_all _ _ _ _ _ k2 i),
    fun i => real_of_abs_lt_top _ (Host.reduce_andi_all _ _ _ _ _ k3 i),
    fun i => real_of_abs_lt_top _ (Host.reduce_andi_all _ _ _ _ _ k4 i),
    fun i => real_of_abs_lt_top _ (Host.reduce_andi_all _ _ _ _ _ k5 i),
    fun i => real_of_abs_lt_top _ (Host.reduce_andi_all _ _ _ _ _ k6 i),
    fun i => real_of_abs_lt_top _ (Host.reduce_andi_all _ _ _ _ _ k7 i),
    fun i => real_of_abs_lt_top _ (Host.reduce_andi_all _ _ _ _ _ k8 i),
    fun i => real_of_abs_lt_top _ (Host.reduce_andi_all _ _ _ _ _ k9 i)⟩

end Cert.PreFin

end
-- ==== Proof.Bridge.lean ====
/-
  The two programs' results are equal: each result of the reference, read at coordinates as the specification's
  reference function of the (agreeing) arguments, is the kernel program's result, read as the composed passes; the
  two functions agree on real data by the algebraic laws, and the data are real by the precondition.
-/
import proofs.«120297_g49246095016346_cont_8to1c4_490_5_alg».proof.Proof.Chain
import proofs.«120297_g49246095016346_cont_8to1c4_490_5_alg».proof.Proof.RefHeads
import proofs.«120297_g49246095016346_cont_8to1c4_490_5_alg».proof.Proof.AlgMain
import proofs.«120297_g49246095016346_cont_8to1c4_490_5_alg».proof.Proof.PreFin

noncomputable section

namespace Cert.Bridge

open Idealize.ShloMosaic Idealize.ShloMosaic.TcCoe Idealize.SL.Sem Idealize.ShloMosaic.ValueIdx
open Cert.Spec Cert.KernelIdeal.Val
open Cert.KernelIdeal (nD τ sig main_arg0 main_arg1 main_arg2 main_arg3 main_arg4 main_arg5 main_arg6 main_arg7 main_arg8 main_arg9)

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The weight arguments by coordinates. -/
abbrev We1M : Mx 128 128 := fun q j => m ((c.tc : Thread nD τ).loc main_arg3) (ix2 q j)
abbrev We2M : Mx 128 128 := fun q j => m ((c.tc : Thread nD τ).loc main_arg4) (ix2 q j)
abbrev Wh1M : Mx 128 128 := fun q j => m ((c.tc : Thread nD τ).loc main_arg5) (ix2 q j)
abbrev Wh2M : Mx 128 128 := fun q j => m ((c.tc : Thread nD τ).loc main_arg6) (ix2 q j)
abbrev WdM : Mx 128 40 := fun q j => m ((c.tc : Thread nD τ).loc main_arg7) (ix2 q j)
abbrev WmlpM : Mx 128 40 := fun q j => m ((c.tc : Thread nD τ).loc main_arg8) (ix2 q j)
abbrev bM : Vc 40 := fun j => m ((c.tc : Thread nD τ).loc main_arg9) (ix1 j)

/-- Every argument entry is a real number (what the precondition gives). -/
structure RealArgs : Prop where
  h0 : ∀ i, IsR (m ((c.tc : Thread nD τ).loc main_arg0) i)
  h1 : ∀ i, IsR (m ((c.tc : Thread nD τ).loc main_arg1) i)
  h2 : ∀ i, IsR (m ((c.tc : Thread nD τ).loc main_arg2) i)
  h3 : ∀ i, IsR (m ((c.tc : Thread nD τ).loc main_arg3) i)
  h4 : ∀ i, IsR (m ((c.tc : Thread nD τ).loc main_arg4) i)
  h5 : ∀ i, IsR (m ((c.tc : Thread nD τ).loc main_arg5) i)
  h6 : ∀ i, IsR (m ((c.tc : Thread nD τ).loc main_arg6) i)
  h7 : ∀ i, IsR (m ((c.tc : Thread nD τ).loc main_arg7) i)
  h8 : ∀ i, IsR (m ((c.tc : Thread nD τ).loc main_arg8) i)
  h9 : ∀ i, IsR (m ((c.tc : Thread nD τ).loc main_arg9) i)

variable (H : RealArgs m c)
include H

/-- The kernel's first 128 second-layer columns are the first encoder branch. -/
theorem e2_kernel (r : Fin 4096) (k : Fin 128) :
    yM m ρ c r (lo k) = encR (AR (adjM m c) (laM m c)) (xsM m c) (We1M m c) (We2M m c) r k :=
  e2_eq (adj := adjM m c) (la := laM m c) (xs := xsM m c) (We1 := We1M m c) (We2 := We2M m c) (Wh1 := Wh1M m c) (Wh2 := Wh2M m c)
    (wenc := wencM m ρ c) (w2 := w2M m ρ c)
    (hadj := fun i j => H.h1 _) (hla := H.h2 _) (hxs := fun i q => H.h0 _)
    (hWe1 := fun q j => H.h3 _) (hWe2 := fun q j => H.h4 _) (hWh1 := fun q j => H.h5 _) (hWh2 := fun q j => H.h6 _)
    (hwenc_lo := fun q k => V1_wenc_lo m ρ c q k) (hwenc_hi := fun q k => V1_wenc_hi m ρ c q k)
    (hw2_ll := fun q k => V1_w2_ll m ρ c q k) (hw2_lh := fun q k => V1_w2_lh m ρ c q k)
    (hw2_hl := fun q k => V1_w2_hl m ρ c q k) (hw2_hh := fun q k => V1_w2_hh m ρ c q k) r k

/-- Its last 128 columns are the second encoder branch. -/
theorem hh2_kernel (r : Fin 4096) (k : Fin 128) :
    yM m ρ c r (hi k) = encR (AR (adjM m c) (laM m c)) (xsM m c) (Wh1M m c) (Wh2M m c) r k :=
  hh2_eq (adj := adjM m c) (la := laM m c) (xs := xsM m c) (We1 := We1M m c) (We2 := We2M m c) (Wh1 := Wh1M m c) (Wh2 := Wh2M m c)
    (wenc := wencM m ρ c) (w2 := w2M m ρ c)
    (hadj := fun i j => H.h1 _) (hla := H.h2 _) (hxs := fun i q => H.h0 _)
    (hWe1 := fun q j => H.h3 _) (hWe2 := fun q j => H.h4 _) (hWh1 := fun q j => H.h5 _) (hWh2 := fun q j => H.h6 _)
    (hwenc_lo := fun q k => V1_wenc_lo m ρ c q k) (hwenc_hi := fun q k => V1_wenc_hi m ρ c q k)
    (hw2_ll := fun q k => V1_w2_ll m ρ c q k) (hw2_lh := fun q k => V1_w2_lh m ρ c q k)
    (hw2_hl := fun q k => V1_w2_hl m ρ c q k) (hw2_hh := fun q k => V1_w2_hh m ρ c q k) r k

/-- The kernel's node head at a kept column is the reference's head of the first branch. -/
theorem ln_kernel (r : Fin 4096) (k : Fin 40) :
    lnK (fun i q => yM m ρ c i (lo q)) (wmM m ρ c) (bpM m ρ c) r (pad k)
      = lnR (encR (AR (adjM m c) (laM m c)) (xsM m c) (We1M m c) (We2M m c)) (WmlpM m c) (bM m c) r k := by
  rw [show (fun (i : Fin 4096) (q : Fin 128) => yM m ρ c i (lo q)) = encR (AR (adjM m c) (laM m c)) (xsM m c) (We1M m c) (We2M m c) from
    funext fun i => funext fun q => e2_kernel m ρ c H i q]
  exact ln_eq _ (wmM m ρ c) (bpM m ρ c) (WmlpM m c) (bM m c) (fun q k => V1_wmlp m ρ c q k) (fun k => V1_bmlp m ρ c k) r k

/-- The kernel's decoder layer at a kept column is the reference's decoder of the second branch. -/
theorem out_kernel (r : Fin 4096) (k : Fin 40) :
    outK (adjM m c) (laM m c) (dM m c) (dzM m ρ c) r (pad k)
      = logitsR (AR (adjM m c) (laM m c)) (encR (AR (adjM m c) (laM m c)) (xsM m c) (Wh1M m c) (Wh2M m c)) (WdM m c) r k := by
  have hy : (fun (i : Fin 4096) (q : Fin 128) => yM m ρ c i (hi q)) = encR (AR (adjM m c) (laM m c)) (xsM m c) (Wh1M m c) (Wh2M m c) :=
    funext fun i => funext fun q => hh2_kernel m ρ c H i q
  show outK (adjM m c) (laM m c) (dK (adjM m c) (laM m c)) (dzK (dK (adjM m c) (laM m c)) (fun i q => yM m ρ c i (hi q)) (wdM m ρ c)) r (pad k) = _
  rw [hy]
  exact logits_eq (adj := adjM m c) (la := laM m c) (hh2 := encR (AR (adjM m c) (laM m c)) (xsM m c) (Wh1M m c) (Wh2M m c))
    (wd := wdM m ρ c) (Wd := WdM m c)
    (hhh2 := fun i q => encR_isR _ _ _ _ (fun i j => AR_isR _ _ (fun i j => H.h1 _) (H.h2 _) i j) (fun i q => H.h0 _)
      (fun q j => H.h5 _) (fun q j => H.h6 _) i q)
    (hWd := fun q j => H.h7 _) (hadj := fun i j => H.h1 _) (hla := H.h2 _)
    (hwd := fun q k => V1_wd m ρ c q k) r k

end Cert.Bridge

end
-- ==== Proof.Results.lean ====
/-
  Each result of the reference program is the matching result of the kernel program, for memories that agree on the
  arguments and whose argument entries are real numbers: index by index, the reference's function of the arguments is
  the kernel's composed passes.
-/
import proofs.«120297_g49246095016346_cont_8to1c4_490_5_alg».proof.Proof.Bridge

noncomputable section

namespace Cert.Bridge

open Idealize.ShloMosaic Idealize.ShloMosaic.TcCoe Idealize.SL.Sem Idealize.ShloMosaic.ValueIdx
open Cert.Spec Cert.KernelIdeal.Val

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)
  (m' : (ℓ : Loc Cert.ReferenceIdeal.nD Cert.ReferenceIdeal.τ Cert.ReferenceIdeal.sig) → Buf (Elt Ideal) ℓ)
  (H : RealArgs m c)
  (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
  (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
  (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
  (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
  (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
  (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))

include H a0 a1 a2 a3 a4 in
/-- The first encoder branch. -/
theorem result2 : Cert.ReferenceIdeal.Value.res_main_v29 m' c
    = Cert.KernelIdeal.Gen.W6 (F := Ideal) m ρ c (Proc.devRef .tc Cert.KernelIdeal.main_v0_2) := by
  rw [Cert.ReferenceIdeal.Read.val_main_v29_eq, a0, a1, a2, a3, a4]
  funext i
  obtain ⟨r, k, rfl⟩ : ∃ (r : Fin 4096) (k : Fin 128), i = ix2 r k := ⟨i 0, i 1, eq_ix2 i⟩
  exact (Cert.ReferenceIdeal.RefVal.v29_at _ _ _ _ _ r k).trans ((e2_kernel m ρ c H r k).symm.trans (res2 m ρ c r k).symm)

include H a0 a1 a2 a5 a6 in
/-- The second encoder branch. -/
theorem result3 : Cert.ReferenceIdeal.Value.res_main_v34 m' c
    = Cert.KernelIdeal.Gen.W6 (F := Ideal) m ρ c (Proc.devRef .tc Cert.KernelIdeal.main_v0_3) := by
  rw [Cert.ReferenceIdeal.Read.val_main_v34_eq, a0, a1, a2, a5, a6]
  funext i
  obtain ⟨r, k, rfl⟩ : ∃ (r : Fin 4096) (k : Fin 128), i = ix2 r k := ⟨i 0, i 1, eq_ix2 i⟩
  exact (Cert.ReferenceIdeal.RefVal.v34_at _ _ _ _ _ r k).trans ((hh2_kernel m ρ c H r k).symm.trans (res3 m ρ c r k).symm)

include H a0 a1 a2 a5 a6 a7 in
/-- The decoder's logits. -/
theorem result0 : Cert.ReferenceIdeal.Value.res_main_v37 m' c
    = Cert.KernelIdeal.Gen.W6 (F := Ideal) m ρ c (Proc.devRef .tc Cert.KernelIdeal.main_v0_0) := by
  rw [Cert.ReferenceIdeal.Read.val_main_v37_eq, a0, a1, a2, a5, a6, a7]
  funext i
  obtain ⟨z, r, k, rfl⟩ : ∃ (z : Fin 1) (r : Fin 4096) (k : Fin 40), i = ix3 z r k := ⟨i 0, i 1, i 2, eq_ix3 i⟩
  obtain rfl : z = 0 := Subsingleton.elim _ _
  exact (Cert.ReferenceIdeal.RefVal.v37_at _ _ _ _ _ _ r k).trans ((out_kernel m ρ c H r k).symm.trans (res0 m ρ c r k).symm)

include H a0 a1 a2 a3 a4 a8 a9 in
/-- The node head's logits. -/
theorem result1 : Cert.ReferenceIdeal.Value.res_main_v42 m' c
    = Cert.KernelIdeal.Gen.W6 (F := Ideal) m ρ c (Proc.devRef .tc Cert.KernelIdeal.main_v0_1) := by
  rw [Cert.ReferenceIdeal.Read.val_main_v42_eq, a0, a1, a2, a3, a4, a8, a9]
  funext i
  obtain ⟨z, r, k, rfl⟩ : ∃ (z : Fin 1) (r : Fin 4096) (k : Fin 40), i = ix3 z r k := ⟨i 0, i 1, i 2, eq_ix3 i⟩
  obtain rfl : z = 0 := Subsingleton.elim _ _
  exact (Cert.ReferenceIdeal.RefVal.v42_at _ _ _ _ _ _ _ r k).trans ((ln_kernel m ρ c H r k).symm.trans (res1 m ρ c r k).symm)

end Cert.Bridge

end
-- ==== Proof.lean ====
/-
  The certificate of a dense-adjacency graph-convolution pipeline computed in four passes over the RAW adjacency
  (degrees and the scaled input projection; the first layer of both branches side by side with the second layer's
  block-diagonal projection; the second layer with the node head and the scaled decoder projection; the decoder's
  layer) against the plain reference that first builds the symmetrically normalized adjacency with weighted self
  loops, A = D^(-1/2) (adj + la I) D^(-1/2), and multiplies by it.

  At the extended reals both programs compute, for real data, the same four arrays. With d the normalizer column,
  every array the kernel multiplies the raw adjacency with has the form d_j X_jc, and
      d_r (sum_j adj_rj (d_j X_jc) + la (d_r X_rc)) = sum_j ((adj_rj + la [r = j]) d_r d_j) X_jc,
  the normalizers agreeing because a row sum of adj + la I is the row sum of adj plus la and, at a positive real
  degree, rsqrt and 1 / sqrt are one real number. The law distributes products over sums, which fails at
  infinities: the precondition (every argument entry finite) is what makes every intermediate value real.
  The padded decoder and head weights only matter at their 40 kept columns, which is all the results keep.

  The three frame claims are the generated frames (the reference's its generated run with the results dropped);
  the idealization rewrote nothing, so that claim is trivial; the value claim is assembled below from the kernel
  program's run with its results named, the reference's run, and the index-by-index equality of the two.
-/
import proofs.«120297_g49246095016346_cont_8to1c4_490_5_alg».proof.Defs
import proofs.«120297_g49246095016346_cont_8to1c4_490_5_alg».proof.Proof.Gen.Kernel
import proofs.«120297_g49246095016346_cont_8to1c4_490_5_alg».proof.Proof.Gen.Kernel.Skeleton
import proofs.«120297_g49246095016346_cont_8to1c4_490_5_alg».proof.Proof.Gen.Kernel.Launch
import proofs.«120297_g49246095016346_cont_8to1c4_490_5_alg».proof.Proof.Gen.Kernel.Points
import proofs.«120297_g49246095016346_cont_8to1c4_490_5_alg».proof.Proof.Gen.Kernel.Frame
import proofs.«120297_g49246095016346_cont_8to1c4_490_5_alg».proof.Proof.Gen.KernelIdeal
import proofs.«120297_g49246095016346_cont_8to1c4_490_5_alg».proof.Proof.Gen.KernelIdeal.Skeleton
import proofs.«120297_g49246095016346_cont_8to1c4_490_5_alg».proof.Proof.Gen.KernelIdeal.Launch
import proofs.«120297_g49246095016346_cont_8to1c4_490_5_alg».proof.Proof.Gen.KernelIdeal.Points
import proofs.«120297_g49246095016346_cont_8to1c4_490_5_alg».proof.Proof.Gen.KernelIdeal.Frame
import proofs.«120297_g49246095016346_cont_8to1c4_490_5_alg».proof.Proof.Gen.ReferenceIdeal
import proofs.«120297_g49246095016346_cont_8to1c4_490_5_alg».proof.Proof.Gen.Pre_finite_inputs
import proofs.«120297_g49246095016346_cont_8to1c4_490_5_alg».proof.Proof.Gen.ReferenceIdeal.Run
import proofs.«120297_g49246095016346_cont_8to1c4_490_5_alg».proof.Proof.Gen.ReferenceIdeal.Read
import proofs.«120297_g49246095016346_cont_8to1c4_490_5_alg».proof.Proof.KRun
import proofs.«120297_g49246095016346_cont_8to1c4_490_5_alg».proof.Proof.Results
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the reference: its run with the four results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- From memories that agree on the arguments, all of them real, the two idealized programs end with equal results:
    the witnesses are the kernel program's results; the reference's results are equal to them index by index. -/
theorem algebraic : Cert.algebraic_KernelIdeal_ReferenceIdeal := by
  intro m ρ m' ρ' hpre hagree
  refine ⟨fun c => Cert.KernelIdeal.Gen.W6 (F := Ideal) m ρ c (Proc.devRef .tc Cert.KernelIdeal.main_v0_0),
    fun c => Cert.KernelIdeal.Gen.W6 (F := Ideal) m ρ c (Proc.devRef .tc Cert.KernelIdeal.main_v0_1),
    fun c => Cert.KernelIdeal.Gen.W6 (F := Ideal) m ρ c (Proc.devRef .tc Cert.KernelIdeal.main_v0_2),
    fun c => Cert.KernelIdeal.Gen.W6 (F := Ideal) m ρ c (Proc.devRef .tc Cert.KernelIdeal.main_v0_3),
    Cert.KernelIdeal.Val.run_named (F := Ideal) m ρ, ?_⟩
  refine (θ_run Cert.ReferenceIdeal.defs _ _).mono (fun _ h c => ?_) (Cert.ReferenceIdeal.Value.run (F := Ideal) m' ρ')
  obtain ⟨g0, g1, g2, g3, g4, g5, g6, g7, g8, g9⟩ := hagree c
  obtain ⟨f0, f1, f2, f3, f4, f5, f6, f7, f8, f9⟩ := Cert.PreFin.real_of_pre _ _ _ _ _ _ _ _ _ _ (hpre c)
  have H : Cert.Bridge.RealArgs m c := ⟨f0, f1, f2, f3, f4, f5, f6, f7, f8, f9⟩
  exact ⟨(h c).1.trans (Cert.Bridge.result0 (m := m) (ρ := ρ) (c := c) (m' := m') (H := H) (a0 := g0) (a1 := g1) (a2 := g2) (a5 := g5) (a6 := g6) (a7 := g7)),
    (h c).2.1.trans (Cert.Bridge.result1 (m := m) (ρ := ρ) (c := c) (m' := m') (H := H) (a0 := g0) (a1 := g1) (a2 := g2) (a3 := g3) (a4 := g4) (a8 := g8) (a9 := g9)),
    (h c).2.2.1.trans (Cert.Bridge.result2 (m := m) (ρ := ρ) (c := c) (m' := m') (H := H) (a0 := g0) (a1 := g1) (a2 := g2) (a3 := g3) (a4 := g4)),
    (h c).2.2.2.1.trans (Cert.Bridge.result3 (m := m) (ρ := ρ) (c := c) (m' := m') (H := H) (a0 := g0) (a1 := g1) (a2 := g2) (a5 := g5) (a6 := g6)),
    (h c).2.2.2.2⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
